-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S1000x10000 : Shape := ⟨2, ![1000, 10000]⟩
abbrev S1000x128 : Shape := ⟨2, ![1000, 128]⟩

abbrev nBuf : Space → Nat
  | .hbm => 17
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S128x128, .bf16⟩
  | .hbm, ⟨12, _⟩ => ⟨S128x128, .bf16⟩
  | .hbm, ⟨13, _⟩ => ⟨S128x128, .bf16⟩
  | .hbm, ⟨14, _⟩ => ⟨S10000x128, .bf16⟩
  | .hbm, ⟨15, _⟩ => ⟨S10000x10000, .bf16⟩
  | .hbm, ⟨16, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .bf16⟩
  | .local _ .vmem, ⟨4, _⟩ => ⟨S1x128, .f32⟩
  | .local _ .vmem, ⟨5, _⟩ => ⟨S128x128, .bf16⟩
  | .local _ .vmem, ⟨6, _⟩ => ⟨S1x128, .f32⟩
  | .local _ .vmem, ⟨7, _⟩ => ⟨S400x128, .bf16⟩
  | .local _ .vmem, ⟨8, _⟩ => ⟨S400x128, .bf16⟩
  | .local _ .vmem, ⟨9, _⟩ => ⟨S400x10000, .bf16⟩
  | .local _ .vmem, ⟨10, _⟩ => ⟨S400x10000, .bf16⟩
  | .local _ .vmem, ⟨11, _⟩ => ⟨S10000x128, .bf16⟩
  | .local _ .vmem, ⟨12, _⟩ => ⟨S1000x10000, .bf16⟩
  | .local _ .vmem, ⟨13, _⟩ => ⟨S1000x10000, .bf16⟩
  | .local _ .vmem, ⟨14, _⟩ => ⟨S10000x128, .bf16⟩
  | .local _ .vmem, ⟨15, _⟩ => ⟨S128x128, .bf16⟩
  | .local _ .vmem, ⟨16, _⟩ => ⟨S1x128, .f32⟩
  | .local _ .vmem, ⟨17, _⟩ => ⟨S1000x128, .f32⟩
  | .local _ .vmem, ⟨18, _⟩ => ⟨S1000x128, .f32⟩
  | .local _ .vmem, ⟨19, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x10000 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def k1_cond1 (i : grid1.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg0 : BitVec 32 := BitVec.ofNat 32 (i 0).val
  let c1000_i32 : BitVec 32 := 1000#32
  let v22 : BitVec 32 := Scalar.muli arg0 c1000_i32
  let v23 : Index := Scalar.indexCast v22
  let c0_11 : Index := 0#32
  ![v23.toNat, 0]
def k1_cond2 (i : grid1.Coords) : BitVec 1 :=
  let arg0 : BitVec 32 := BitVec.ofNat 32 (i 0).val
  let c10_i32_0 : BitVec 32 := 10#32
  let v3 : BitVec 1 := Scalar.cmpi .sge arg0 c10_i32_0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let c10_i32 : BitVec 32 := 10#32
  let v0 : BitVec 32 := Scalar.remsi arg0 c10_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c10_i32 : BitVec 32 := 10#32
  let v0 : BitVec 32 := Scalar.remsi arg0 c10_i32
  let c0_i32 : BitVec 32 := 0#32
  let c0_i32_0 : BitVec 32 := 0#32
  ![v0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x128_S1000x128 : S1x128.Broadcasts S1000x128
  h_S1000x128 : 0 < S1000x128.numel
  shapeCasts_S1000x128_S1000x128 : S1000x128.ShapeCasts S1000x128
  inb_S1000x128_S1000x128_0_0 : ∀ a, (![0, 0] : Fin 2 → Nat) a + S1000x128.size a ≤ S1000x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1000x10000_S10000x128_S1000x128_1_0_0_1_n_n_wf : DotDims.WF S1000x10000 S10000x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x10000.size a ≤ S10000x10000.size a
  hwx0_7 : ∀ i : grid0.Coords, EltTy.bits .bf16 = 32 ∨ (Rect.block (s := S10000x10000) S400x10000.size (cc0_transform_7 i) (hinb0_7 i)).WholeWords (EltTy.packing .bf16)
  hrank1 : 0 < grid1.rank
  k1_off1_inb : ∀ i : grid1.Coords, ∀ (k1_h1 : k1_cond1 i = 1#1), ∀ a, (k1_off1 i) a + S1000x128.size a ≤ S10000x128.size a
  k1_off1_packedbf16 : ∀ i : grid1.Coords, ∀ (k1_h1 : k1_cond1 i = 1#1), (Rect.unit (s := S10000x128) (k1_off1 i) S1000x128.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S10000x128.size a
  hwx1_4 : ∀ i : grid1.Coords, EltTy.bits .f32 = 32 ∨ (Rect.block (s := S10000x128) S1000x128.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S400x10000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KR0Base.lean ====
import proofs.«104058_g24721831756232_cont_sun_m_69_41_alg».proof.Proof.Gen.Kernel.Launch
import proofs.«104058_g24721831756232_cont_sun_m_69_41_alg».proof.Proof.Gen.Kernel.Skeleton
import proofs.«104058_g24721831756232_cont_sun_m_69_41_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pallas_call (25 row blocks of the adjacency): what its body runs are stated over

The first call walks the 25 blocks of 400 rows of the adjacency matrix. At its first point it also fills a
scratch buffer with the first layer's dense part `x·W1 + b1`, which every point then multiplies its rows of the
adjacency by. -/

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-- The body's one branch: "this is the first row block". -/
abbrev cond0_0 (i : grid0.Coords) : Prop := (Scalar.cmpi .ne (Scalar.extui (Scalar.cmpi .eq (BitVec.ofNat 32 (i 0).val) 0#32)) 0#32) = 1#1
/-- It holds at point 0 and nowhere else. -/
theorem hcond0_0 : ∀ t : Fin cfg0.N, cond0_0 (grid0.coords t) ↔ t.val = 0 :=
  (by decide +kernel : ∀ t : Fin grid0.N, cond0_0 (grid0.coords t) ↔ t.val = 0)

/-- No window of the first call is ever idle. -/
theorem liveAt0 : ∀ (w : Fin 8) (t : Fin cfg0.N), cfg0.idle w (grid0.coords t) = false := by decide +kernel

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x10000 .bf16 := win0_7.stage (cfg0.slots t 7)
abbrev hs0_7 (t : Fin cfg0.N) : (ms0_7 t).IsWhole := hstage0_7 ((cfg0.slots t 7).cast nbuf0_7)
/-- The scratch that holds the first layer's dense part. -/
abbrev scM0 : Memref sig .tc .vmem S10000x128 .bf16 := Memref.whole cc0_scratch0
abbrev VS0 : View sig .tc .vmem S10000x128 .bf16 := (scM0 : Memref sig .tc .vmem S10000x128 .bf16).view
abbrev VO0_6 : View sig .tc .vmem S400x128 .bf16 := (Memref.whole cc0_stg6_0 : Memref sig .tc .vmem S400x128 .bf16).view
abbrev VO0_7 : View sig .tc .vmem S400x10000 .bf16 := (Memref.whole cc0_stg7_0 : Memref sig .tc .vmem S400x10000 .bf16).view

/-- The scoped buffers the first call does not use (the second call's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the call's invariant holds before anything ran: the scratch and the other scoped buffers at anything,
    and the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.Kernel.Hand

end
-- ==== Proof.KR0RunA.lean ====
import proofs.«104058_g24721831756232_cont_sun_m_69_41_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first call's body at the first row block

Here the branch is taken: the body fills the scratch with the dense part of layer one, then does what every point
does. What each buffer it stores into ends with is found by running it. -/

set_option maxHeartbeats 4000000 in
/-- The body at the first point, on whole staging buffers: the six inputs at their contents, the two outputs and
    the scratch at anything. It runs, gives the inputs back as they were, and leaves each output and the scratch with
    the listed stores written (last first). -/
noncomputable def kernelRun0_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S400x10000 .bf16) (harg8 : arg8.IsWhole) (arg9 : Memref sig .tc .vmem S10000x128 .bf16) (harg9 : arg9.IsWhole) (hc0 : cond0_0 i)
    (x0 : Vec F S10000x128 .f32) (x1 : Vec F S400x10000 .f32) (x2 : Vec F S128x128 .bf16) (x3 : Vec F S1x128 .f32) (x4 : Vec F S128x128 .bf16) (x5 : Vec F S1x128 .f32) :
    Σ' (L6 : List (View.Piece (Elt F) S400x128 .bf16)) (L7 : List (View.Piece (Elt F) S400x10000 .bf16)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__l1_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__l1_kernel_eq_skeleton]; unfold cc0__l1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.Kernel.Hand

end
-- ==== Proof.KR0RunB.lean ====
import proofs.«104058_g24721831756232_cont_sun_m_69_41_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first call's body at every later row block

Here the branch is not taken: the scratch is only read. -/

set_option maxHeartbeats 4000000 in
/-- The body at a later point, on whole staging buffers: the six inputs and the scratch at their contents, the two
    outputs at anything. It runs, gives the inputs and the scratch back as they were, and leaves each output with the
    listed stores written (last first). -/
noncomputable def kernelRun0_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S400x10000 .bf16) (harg8 : arg8.IsWhole) (arg9 : Memref sig .tc .vmem S10000x128 .bf16) (harg9 : arg9.IsWhole) (hc0 : ¬cond0_0 i)
    (x0 : Vec F S10000x128 .f32) (x1 : Vec F S400x10000 .f32) (x2 : Vec F S128x128 .bf16) (x3 : Vec F S1x128 .f32) (x4 : Vec F S128x128 .bf16) (x5 : Vec F S1x128 .f32) (xs0 : Vec F S10000x128 .bf16) :
    Σ' (L6 : List (View.Piece (Elt F) S400x128 .bf16)), { L7 : List (View.Piece (Elt F) S400x10000 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0) -∗ K ⟨⟩))
          ⊢ wp frame (wpE (defs₀ (F := F)) Variants.none c none) E (cc0__l1_kernel i arg1 harg1 arg2 harg2 arg3 harg3 arg4 harg4 arg5 harg5 arg6 harg6 arg7 harg7 arg8 harg8 arg9 harg9) K } := by
  refine ⟨?_, ?_, fun E K => ?run⟩
  case run =>
    simp only [cc0__l1_kernel_eq_skeleton]; unfold cc0__l1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; isplitr; · ipureintro; exact harg9.read_unread _
    iexact HS0

end Cert.Kernel.Hand

end
-- ==== Proof.KR0Body.lean ====
import proofs.«104058_g24721831756232_cont_sun_m_69_41_alg».proof.Proof.KR0RunA
import proofs.«104058_g24721831756232_cont_sun_m_69_41_alg».proof.Proof.KR0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pallas_call: what its buffers hold point by point, and the body obligation

After the first point the scratch holds the dense part of layer one, computed from blocks that are the same at every
point (the whole of `x`, `W1`, `b1`), and no later point stores into it: so its contents after EVERY point are the
one array `sc0`. Each point's two output buffers are then functions of that point's blocks and of `sc0`. -/

section
variable (V : (c : Dev nD) → (b : Ref sig .tc) → Buf (Elt F) ((c : Thread nD τ).loc b))

/-- The first point. -/
abbrev t₀ : Fin cfg0.N := ⟨0, lt_of_lt_of_eq (by decide : 0 < 25) (show cfg0.N = 25 from N_0).symm⟩
theorem hc_t₀ : cond0_0 (grid0.coords t₀) := (hcond0_0 t₀).mpr rfl

/-- What the scratch holds after the first point (and ever after): the first point's stores read back. -/
def sc0 (c : Dev nD) : Vec F S10000x128 .bf16 :=
  VS0.read (Elt F) (VS0.writes (Elt F) VS0.junk (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.2.1)

/-- The first point's stores into the scratch cover it. -/
theorem scover0_A (c : Dev nD) (y : S10000x128.Idx) :
    ∃ pc ∈ (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.2.1, y ∈ pc.1.set :=
  View.cover_of_tiledL (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.2.1 S10000x128.size (by sl_kernel_rfl) y

/-- What the first point leaves in the two output buffers, -/
def out0_A_6 (c : Dev nD) : Vec F S400x128 .bf16 :=
  VO0_6.read (Elt F) (VO0_6.writes (Elt F) VO0_6.junk (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).1)
def out0_A_7 (c : Dev nD) : Vec F S400x10000 .bf16 :=
  VO0_7.read (Elt F) (VO0_7.writes (Elt F) VO0_7.junk (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.1)
theorem cover0_A_6 (c : Dev nD) (y : S400x128.Idx) : ∃ pc ∈ (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).1, y ∈ pc.1.set :=
  View.cover_of_tiledL (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).1 S400x128.size (by sl_kernel_rfl) y
theorem cover0_A_7 (c : Dev nD) (y : S400x10000.Idx) : ∃ pc ∈ (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.1, y ∈ pc.1.set :=
  View.cover_of_tiledL (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.1 S400x10000.size (by sl_kernel_rfl) y

/-- and a later point, from its blocks and the scratch. -/
def out0_B_6 (c : Dev nD) (t : Fin cfg0.N) (hc : ¬cond0_0 (grid0.coords t)) : Vec F S400x128 .bf16 :=
  VO0_6.read (Elt F) (VO0_6.writes (Elt F) VO0_6.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).1)
def out0_B_7 (c : Dev nD) (t : Fin cfg0.N) (hc : ¬cond0_0 (grid0.coords t)) : Vec F S400x10000 .bf16 :=
  VO0_7.read (Elt F) (VO0_7.writes (Elt F) VO0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).2.1)
theorem cover0_B_6 (c : Dev nD) (t : Fin cfg0.N) (hc : ¬cond0_0 (grid0.coords t)) (y : S400x128.Idx) : ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).1 S400x128.size (by sl_kernel_rfl) y
theorem cover0_B_7 (c : Dev nD) (t : Fin cfg0.N) (hc : ¬cond0_0 (grid0.coords t)) (y : S400x10000.Idx) : ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).2.1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).2.1 S400x10000.size (by sl_kernel_rfl) y

/-- The two output buffers after the body at point `t`. -/
def outs0 (c : Dev nD) (t : Fin cfg0.N) : Vec F S400x128 .bf16 × Vec F S400x10000 .bf16 :=
  if h : t.val = 0 then (out0_A_6 V c, out0_A_7 V c)
  else (out0_B_6 V c t (fun hc => h ((hcond0_0 t).mp hc)), out0_B_7 V c t (fun hc => h ((hcond0_0 t).mp hc)))

/-- The call's invariant before position `n`: before the first point the scratch (like every other scoped buffer the
    call does not stage) at anything; afterwards the scratch at `sc0`. -/
def PhiS0 (c : Dev nD) (n : ℕ) : sProp 𝕄 :=
  if n = 0 then Pipeline.ΦA spec0 c
  else iprop(iprop(owns (c : Thread nD τ) scM0 fullShare (sc0 V c) ∗ rest0 c) ∗ (∃ r, prngReg c r))

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outs0 V c t).1
    | ⟨7, _⟩ => (outs0 V c t).2
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outs0 V c t).1 := by dsimp only [dat0]
theorem after0_7 (c : Dev nD) (t : Fin cfg0.N) : (dat0 V c).after 7 t = (outs0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' buffers hold their blocks; the point is the first or it is not; the matching
    run applies; the scratch goes back into the invariant at `sc0`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) from rfl, show (dat0 V c).Φ t.castSucc = PhiS0 V c t.val from by dsimp only [dat0]; simp only [Fin.coe_castSucc]]
  rw [show PhiS0 V c (t.val + 1) = iprop(iprop(owns (c : Thread nD τ) scM0 fullShare (sc0 V c) ∗ rest0 c) ∗ (∃ r, prngReg c r)) from if_neg (Nat.succ_ne_zero _)]
  rw [show (dat0 V c).leavesExact 0 t = owns (c : Thread nD τ) (ms0_0 t) fullShare ((dat0 V c).after 0 t) from by
    unfold Dat.leavesExact; rw [liveAt0 0 t]]
  rw [show (dat0 V c).leavesExact 1 t = owns (c : Thread nD τ) (ms0_1 t) fullShare ((dat0 V c).after 1 t) from by
    unfold Dat.leavesExact; rw [liveAt0 1 t]]
  rw [show (dat0 V c).leavesExact 2 t = owns (c : Thread nD τ) (ms0_2 t) fullShare ((dat0 V c).after 2 t) from by
    unfold Dat.leavesExact; rw [liveAt0 2 t]]
  rw [show (dat0 V c).leavesExact 3 t = owns (c : Thread nD τ) (ms0_3 t) fullShare ((dat0 V c).after 3 t) from by
    unfold Dat.leavesExact; rw [liveAt0 3 t]]
  rw [show (dat0 V c).leavesExact 4 t = owns (c : Thread nD τ) (ms0_4 t) fullShare ((dat0 V c).after 4 t) from by
    unfold Dat.leavesExact; rw [liveAt0 4 t]]
  rw [show (dat0 V c).leavesExact 5 t = owns (c : Thread nD τ) (ms0_5 t) fullShare ((dat0 V c).after 5 t) from by
    unfold Dat.leavesExact; rw [liveAt0 5 t]]
  rw [show (dat0 V c).leavesExact 6 t = owns (c : Thread nD τ) (ms0_6 t) fullShare ((dat0 V c).after 6 t) from by
    unfold Dat.leavesExact; rw [liveAt0 6 t]]
  rw [show (dat0 V c).leavesExact 7 t = owns (c : Thread nD τ) (ms0_7 t) fullShare ((dat0 V c).after 7 t) from by
    unfold Dat.leavesExact; rw [liveAt0 7 t]]
  rw [after0_0, after0_1, after0_2, after0_3, after0_4, after0_5, after0_6, after0_7]
  by_cases hz : t.val = 0
  · obtain rfl : t = t₀ := Fin.ext hz
    rw [show PhiS0 V c (t₀ : Fin cfg0.N).val = Pipeline.ΦA spec0 c from if_pos rfl, PhiA0_eq]
    rw [show outs0 V c t₀ = (out0_A_6 V c, out0_A_7 V c) from dif_pos rfl]
    unfold out0_A_6 out0_A_7 sc0; (try dsimp only)
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A V c)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 V c)
    unfold owns; iexists _; isplitr
    swap; · iexact H7
    ipureintro; exact View.read_writes_of_cover _ _ _ _ _ (cover0_A_7 V c)
  · have hc : ¬cond0_0 (grid0.coords t) := fun hc => hz ((hcond0_0 t).mp hc)
    rw [show PhiS0 V c t.val = iprop(iprop(owns (c : Thread nD τ) scM0 fullShare (sc0 V c) ∗ rest0 c) ∗ (∃ r, prngReg c r)) from if_neg hz]
    rw [show outs0 V c t = (out0_B_6 V c t hc, out0_B_7 V c t hc) from dif_neg hz]
    unfold out0_B_6 out0_B_7; (try dsimp only)
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 V c t hc)
    unfold owns; iexists _; isplitr
    swap; · iexact H7
    ipureintro; exact View.read_writes_of_cover _ _ _ _ _ (cover0_B_7 V c t hc)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point, -/
theorem hin0 (c : Dev nD) : Pipeline.ΦA spec0 c ⊢ (dat0 V c).Φ 0 := by
  rw [show (dat0 V c).Φ 0 = PhiS0 V c 0 from rfl, show PhiS0 V c 0 = Pipeline.ΦA spec0 c from if_pos rfl]
  try exact Idealize.SL.BI.Entails.refl _

/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = PhiS0 V c cfg0.N from by dsimp only [dat0]; simp only [Fin.val_last],
    show PhiS0 V c cfg0.N = iprop(iprop(owns (c : Thread nD τ) scM0 fullShare (sc0 V c) ∗ rest0 c) ∗ (∃ r, prngReg c r)) from
      if_neg (by rw [show cfg0.N = 25 from N_0]; decide), PhiA0_eq]
  iintro ⟨⟨HS0, HR⟩, Hg⟩
  isplitl [HS0 HR]
  · isplitl [HS0]; · iexists _; iexact HS0
    iexact HR
  iexact Hg

end

end Cert.Kernel.Hand

end
-- ==== Proof.KR1Base.lean ====
import proofs.«104058_g24721831756232_cont_sun_m_69_41_alg».proof.Proof.Gen.Kernel.Launch
import proofs.«104058_g24721831756232_cont_sun_m_69_41_alg».proof.Proof.Gen.Kernel.Skeleton
import proofs.«104058_g24721831756232_cont_sun_m_69_41_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pallas_call (two passes over the 10 blocks of 1000 rows): what its body runs are stated over

Points 0–9 compute the third layer's dense part block by block into a scratch buffer; points 10–19 multiply each
row block of the adjacency by the finished scratch and store the result. -/

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-- "First pass" (the point is below 10) and "second pass" (it is not). -/
abbrev cond1_0 (i : grid1.Coords) : Prop := k1_cond1 i = 1#1
abbrev cond1_1 (i : grid1.Coords) : Prop := k1_cond2 i = 1#1
theorem hcond1_0 : ∀ t : Fin cfg1.N, cond1_0 (grid1.coords t) ↔ t.val < 10 :=
  (by decide +kernel : ∀ t : Fin grid1.N, cond1_0 (grid1.coords t) ↔ t.val < 10)
theorem hcond1_1 : ∀ t : Fin cfg1.N, cond1_1 (grid1.coords t) ↔ 10 ≤ t.val :=
  (by decide +kernel : ∀ t : Fin grid1.N, cond1_1 (grid1.coords t) ↔ 10 ≤ t.val)

/-- The inputs are never idle; the output is idle, and not written back, exactly in the first pass. -/
theorem liveAt1 : ∀ (w : Fin 5) (t : Fin cfg1.N), w.val < 4 → cfg1.idle w (grid1.coords t) = false := by decide +kernel
theorem idleAt1_4 : ∀ t : Fin cfg1.N, t.val < 10 → cfg1.idle 4 (grid1.coords t) = true := by decide +kernel
theorem liveAt1_4 : ∀ t : Fin cfg1.N, 10 ≤ t.val → cfg1.idle 4 (grid1.coords t) = false := by decide +kernel

abbrev ms1_0 (t : Fin cfg1.N) : Memref sig .tc .vmem S1000x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1000x128 .f32 := win1_4.stage (cfg1.slots t 4)
abbrev hs1_4 (t : Fin cfg1.N) : (ms1_4 t).IsWhole := hstage1_4 ((cfg1.slots t 4).cast nbuf1_4)
/-- The scratch that collects the third layer's dense part. -/
abbrev scM1 : Memref sig .tc .vmem S10000x128 .bf16 := Memref.whole cc1_scratch0
abbrev VS1 : View sig .tc .vmem S10000x128 .bf16 := (scM1 : Memref sig .tc .vmem S10000x128 .bf16).view
abbrev VO1_4 : View sig .tc .vmem S1000x128 .f32 := (Memref.whole cc1_stg4_0 : Memref sig .tc .vmem S1000x128 .f32).view

/-- The scoped buffers the second call does not use (the first call's), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- What the call's invariant holds before anything ran: the scratch and the other scoped buffers at anything,
    and the generator register — taken apart, -/
theorem PhiA1_in (c : Dev nD) :
    (Pipeline.ΦA spec1 c : sProp 𝕄)
      ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨H1, H2, H3, H4, H5, H6, H7, H8, H9, H10, H11, H12, H13⟩, Hg⟩
  isplitl [H13]; · iexact H13
  isplitr [Hg]; swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- and put together again. -/
theorem PhiA1_out (c : Dev nD) :
    iprop((∃ d, owns (c : Thread nD τ) scM1 fullShare d) ∗ rest1 c ∗ (∃ r, prngReg c r))
      ⊢ (Pipeline.ΦA spec1 c : sProp 𝕄) := by
  unfold Pipeline.ΦA rest1; rw [scopedRest1_eq]; simp only [scM1, owns_whole]
  iintro ⟨H13, ⟨H1, H2, H3, H4, H5, H6, H7, H8, H9, H10, H11, H12⟩, Hg⟩
  isplitr [Hg]; swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.Kernel.Hand

end
-- ==== Proof.KR1RunA.lean ====
import proofs.«104058_g24721831756232_cont_sun_m_69_41_alg».proof.Proof.KR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second call's body in the first pass

The body computes one block of 1000 rows of the third layer's dense part and stores it into the scratch at the
block's rows; the output buffer is not touched. -/

set_option maxHeartbeats 4000000 in
/-- The body at a first-pass point, on whole staging buffers: the four inputs, the output buffer and the scratch at
    their contents. It runs, gives the inputs and the output buffer back as they were, and leaves the scratch with the
    listed stores written. -/
noncomputable def kernelRun1_A (c : Dev nD) (i : grid1.Coords) (arg1 : Memref sig .tc .vmem S1000x10000 .bf16) (harg1 : arg1.IsWhole) (arg2 : Memref sig .tc .vmem S10000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S10000x128 .bf16) (harg6 : arg6.IsWhole) (hc0 : cond1_0 i) (hc1 : ¬cond1_1 i)
    (x0 : Vec F S1000x10000 .bf16) (x1 : Vec F S10000x128 .bf16) (x2 : Vec F S128x128 .bf16) (x3 : Vec F S1x128 .f32) (xs0 : Vec F S10000x128 .bf16) :
    { LS0 : List (View.Piece (Elt F) S10000x128 .bf16) //
      ∀ (xi4 : Vec F S1000x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ (arg6.view.loc (c : Thread nD τ) ↦[arg6.view.set]{fullShare} arg6.view.writes (Elt F) (harg6.unread xs0) LS0)) -∗ K ⟨⟩))
          ⊢ wp frame (wpE (defs₀ (F := F)) Variants.none c none) E (cc1__l23_kernel i arg1 harg1 arg2 harg2 arg3 harg3 arg4 harg4 arg5 harg5 arg6 harg6) K } := by
  refine ⟨?_, fun xi4 E K => ?run⟩
  case run =>
    simp only [cc1__l23_kernel_eq_skeleton]; unfold cc1__l23_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexact HS0

end Cert.Kernel.Hand

end
-- ==== Proof.KR1RunB.lean ====
import proofs.«104058_g24721831756232_cont_sun_m_69_41_alg».proof.Proof.KR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second call's body in the second pass

The body multiplies its block of 1000 rows of the adjacency by the whole scratch and stores the product into the
output buffer; the scratch is only read. -/

set_option maxHeartbeats 4000000 in
/-- The body at a second-pass point, on whole staging buffers: the four inputs and the scratch at their contents,
    the output buffer at anything. It runs, gives the inputs and the scratch back as they were, and leaves the output
    buffer with the listed stores written. -/
noncomputable def kernelRun1_B (c : Dev nD) (i : grid1.Coords) (arg1 : Memref sig .tc .vmem S1000x10000 .bf16) (harg1 : arg1.IsWhole) (arg2 : Memref sig .tc .vmem S10000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S10000x128 .bf16) (harg6 : arg6.IsWhole) (hc0 : ¬cond1_0 i) (hc1 : cond1_1 i)
    (x0 : Vec F S1000x10000 .bf16) (x1 : Vec F S10000x128 .bf16) (x2 : Vec F S128x128 .bf16) (x3 : Vec F S1x128 .f32) (xs0 : Vec F S10000x128 .bf16) :
    { L4 : List (View.Piece (Elt F) S1000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc1__l23_kernel i arg1 harg1 arg2 harg2 arg3 harg3 arg4 harg4 arg5 harg5 arg6 harg6) K } := by
  refine ⟨?_, fun E K => ?run⟩
  case run =>
    simp only [cc1__l23_kernel_eq_skeleton]; unfold cc1__l23_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.Kernel.Hand

end
-- ==== Proof.KR1Body.lean ====
import proofs.«104058_g24721831756232_cont_sun_m_69_41_alg».proof.Proof.KR1RunA
import proofs.«104058_g24721831756232_cont_sun_m_69_41_alg».proof.Proof.KR1RunB
import Idealize.ShloMosaic.Lib.WritesUnit
import Idealize.ShloMosaic.Lib.Pipeline.Value
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second pallas_call: the scratch through the first pass, the output in the second, and the body obligation

In the first pass point `t` (below 10) stores block `t` of the third layer's dense part into rows
`[1000·t, 1000·t + 1000)` of the scratch, and nothing into the output buffer — yet the pipeline writes that buffer
back at every point, so what the first pass puts into the result array is unknown, and the proof data is relational:
it names what the body leaves in the output buffer only in the second pass, where every block is written again.
After the first pass the scratch is one known array (`H3all`): its ten row blocks. -/

open Idealize.ShloMosaic.ValueIdx

theorem hz2 : (![0, 0] : Fin 2 → Nat) = fun _ => 0 := funext fun a => by fin_cases a <;> rfl

/-- A whole buffer held at the raw contents that read `x`, loaded whole, reads `x`. -/
theorem rd_whole {sp : Space} {S : Shape} {e : EltTy} {m : Memref sig .tc sp S e} (hm : m.IsWhole) {off : Fin S.rank → Nat}
    (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h]

/-- Where a first-pass point stores: rows `1000·t` on, every column. -/
theorem hoff1 : ∀ t : Fin cfg1.N, t.val < 10 → k1_off1 (grid1.coords t) (0 : Fin 2) = t.val * 1000 ∧ k1_off1 (grid1.coords t) (1 : Fin 2) = 0 :=
  (by decide +kernel : ∀ t : Fin grid1.N, t.val < 10 → k1_off1 (grid1.coords t) (0 : Fin 2) = t.val * 1000 ∧ k1_off1 (grid1.coords t) (1 : Fin 2) = 0)

/-- The rows a first-pass point stores into, as a rectangle of the scratch. -/
abbrev rectA (t : Fin cfg1.N) (h : t.val < 10) : Rect S10000x128 :=
  Rect.unit (s := S10000x128) (k1_off1 (grid1.coords t)) S1000x128.size (k1_off1_inb (grid1.coords t) ((hcond1_0 t).mpr h))

/-- The first-pass body's one store, as found by running it. -/
theorem runA1_pieces (c : Dev nD) (i : grid1.Coords) (arg1 : Memref sig .tc .vmem S1000x10000 .bf16) (harg1 : arg1.IsWhole) (arg2 : Memref sig .tc .vmem S10000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S10000x128 .bf16) (harg6 : arg6.IsWhole) (hc0 : cond1_0 i) (hc1 : ¬cond1_1 i)
    (x0 : Vec F S1000x10000 .bf16) (x1 : Vec F S10000x128 .bf16) (x2 : Vec F S128x128 .bf16) (x3 : Vec F S1x128 .f32) (xs0 : Vec F S10000x128 .bf16) :
    (kernelRun1_A c i arg1 harg1 arg2 harg2 arg3 harg3 arg4 harg4 arg5 harg5 arg6 harg6 hc0 hc1 x0 x1 x2 x3 xs0).1
      = [⟨Rect.unit (s := S10000x128) (k1_off1 i) S1000x128.size (k1_off1_inb i hc0), k1_pay1 x0 x1 x2 x3⟩] := by
  unfold kernelRun1_A; dsimp only
  rw [rd_whole harg1 hz2, rd_whole harg2 hz2, rd_whole harg3 hz2, rd_whole harg4 hz2]

section
variable (V : (c : Dev nD) → (b : Ref sig .tc) → Buf (Elt F) ((c : Thread nD τ).loc b))

/-- Block `t` of the third layer's dense part, from point `t`'s blocks. -/
def blk3 (c : Dev nD) (t : Fin cfg1.N) : Vec F S1000x128 .bf16 :=
  k1_pay1 (iblk1 V c 0 t) (iblk1 V c 1 t) (iblk1 V c 2 t) (iblk1 V c 3 t)

/-- The scratch's first `n` row blocks (at most ten) hold the dense part's blocks. -/
def Inv1 (c : Dev nD) (n : ℕ) (d : Vec F S10000x128 .bf16) : Prop :=
  ∀ (t : Fin cfg1.N) (h : t.val < 10), t.val < n → ∀ y : S1000x128.Idx, d ((rectA t h).emb y) = blk3 V c t y

/-- The whole scratch after the first pass. -/
def H3all (c : Dev nD) : Vec F S10000x128 .bf16 := fun idx =>
  blk3 V c ⟨(idx 0).val / 1000, by
      have h0 : (idx 0).val < 10000 := (idx 0).isLt
      have hN : cfg1.N = 20 := N_1
      omega⟩
    (ix2 (⟨(idx 0).val % 1000, Nat.mod_lt _ (by decide)⟩ : Fin 1000) (⟨(idx 1).val, (idx 1).isLt⟩ : Fin 128))

/-- Once all ten blocks are in, the scratch IS that array. -/
theorem inv1_full (c : Dev nD) (n : ℕ) (hn : 10 ≤ n) (d : Vec F S10000x128 .bf16) (h : Inv1 V c n d) : d = H3all V c := by
  funext idx
  have h0 : (idx 0).val < 10000 := (idx 0).isLt
  have hN : cfg1.N = 20 := N_1
  have ht : (idx 0).val / 1000 < 10 := by omega
  obtain ⟨ho0, ho1⟩ := hoff1 (⟨(idx 0).val / 1000, by omega⟩ : Fin cfg1.N) ht
  have hidx : idx = (rectA (⟨(idx 0).val / 1000, by omega⟩ : Fin cfg1.N) ht).emb
      (ix2 (⟨(idx 0).val % 1000, Nat.mod_lt _ (by decide)⟩ : Fin 1000) (⟨(idx 1).val, (idx 1).isLt⟩ : Fin 128)) := by
    funext a
    apply Fin.ext
    rw [Rect.emb_apply]
    match a with
    | ⟨0, _⟩ =>
      exact (show (idx 0).val = k1_off1 (grid1.coords (⟨(idx 0).val / 1000, by omega⟩ : Fin cfg1.N)) (0 : Fin 2) + 1 * ((idx 0).val % 1000) by
        rw [ho0]; show (idx 0).val = (idx 0).val / 1000 * 1000 + 1 * ((idx 0).val % 1000); omega)
    | ⟨1, _⟩ =>
      exact (show (idx 1).val = k1_off1 (grid1.coords (⟨(idx 0).val / 1000, by omega⟩ : Fin cfg1.N)) (1 : Fin 2) + 1 * (idx 1).val by
        rw [ho1]; omega)
  exact (congrArg d hidx).trans (h _ ht (by show (idx 0).val / 1000 < n; omega) _)

/-- The scratch is a whole buffer. -/
abbrev hwS1 : (scM1 : Memref sig .tc .vmem S10000x128 .bf16).IsWhole := Memref.isWhole_whole cc1_scratch0

set_option maxHeartbeats 1000000 in
/-- One more first-pass point: its store puts its block in, and keeps the blocks before it. -/
theorem inv1_step (c : Dev nD) (t : Fin cfg1.N) (ht : t.val < 10) (d : Vec F S10000x128 .bf16) (h : Inv1 V c t.val d)
    (L : List (View.Piece (Elt F) S10000x128 .bf16)) (hL : L = [⟨rectA t ht, blk3 V c t⟩]) :
    Inv1 V c (t.val + 1) (VS1.read (Elt F) (VS1.writes (Elt F) (hwS1.unread d) L)) := by
  subst hL
  intro t' ht' htn y
  by_cases e : t' = t
  · subst e
    exact View.read_writes_cons_emb VS1 (hwS1.unread d) (rectA t' ht) (blk3 V c t') [] y
  · have hlt : t'.val < t.val := by
      have : t'.val ≠ t.val := fun h => e (Fin.ext h)
      omega
    obtain ⟨ho0, -⟩ := hoff1 t ht
    obtain ⟨ho0', -⟩ := hoff1 t' ht'
    have hy0 : (y (0 : Fin 2)).val < 1000 := (y (0 : Fin 2)).isLt
    have hrow : ((rectA t' ht').emb y (0 : Fin 2)).val < k1_off1 (grid1.coords t) (0 : Fin 2) := by
      rw [Rect.emb_apply, ho0]
      show k1_off1 (grid1.coords t') (0 : Fin 2) + 1 * (y (0 : Fin 2)).val < t.val * 1000
      rw [ho0']; omega
    have hne := View.read_writes_cons_unit_of_not_mem VS1 (hwS1.unread d) (k1_off1_inb (grid1.coords t) ((hcond1_0 t).mpr ht))
      (blk3 V c t) [] ((rectA t' ht').emb y) rfl (0 : Fin 2) (Or.inl hrow)
    refine hne.trans ?_
    rw [View.writes_nil]
    exact (congrFun (hwS1.read_unread d) _).trans (h t' ht' hlt y)

/-- What a second-pass point leaves in the output buffer, from its block of the adjacency and the finished scratch. -/
def out1_B (c : Dev nD) (t : Fin cfg1.N) (h : 10 ≤ t.val) : Vec F S1000x128 .f32 :=
  VO1_4.read (Elt F) (VO1_4.writes (Elt F) VO1_4.junk
    (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun hc => absurd ((hcond1_0 t).mp hc) (by omega)) ((hcond1_1 t).mpr h) (iblk1 V c 0 t) (iblk1 V c 1 t) (iblk1 V c 2 t) (iblk1 V c 3 t) (H3all V c)).1)
theorem cover1_B (c : Dev nD) (t : Fin cfg1.N) (h : 10 ≤ t.val) (y : S1000x128.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun hc => absurd ((hcond1_0 t).mp hc) (by omega)) ((hcond1_1 t).mpr h) (iblk1 V c 0 t) (iblk1 V c 1 t) (iblk1 V c 2 t) (iblk1 V c 3 t) (H3all V c)).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun hc => absurd ((hcond1_0 t).mp hc) (by omega)) ((hcond1_1 t).mpr h) (iblk1 V c 0 t) (iblk1 V c 1 t) (iblk1 V c 2 t) (iblk1 V c 3 t) (H3all V c)).1 S1000x128.size (by sl_kernel_rfl) y

/-- The call's invariant before position `n`: before the first point the scratch at anything; afterwards at contents
    whose first `n` row blocks are the dense part's. -/
def PhiS1 (c : Dev nD) (n : ℕ) : sProp 𝕄 :=
  if n = 0 then Pipeline.ΦA spec1 c
  else iprop((∃ d, owns (c : Thread nD τ) scM1 fullShare d ∗ ⌜Inv1 V c n d⌝) ∗ rest1 c ∗ (∃ r, prngReg c r))

/-- The relational proof data of the second call on core `c`: the inputs are left as found; of the output buffer
    the body's result is named in the second pass only. -/
def rdat1 (c : Dev nD) : Pipeline.RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => X = Y
    | ⟨4, _⟩ => ∀ h : 10 ≤ t.val, X = out1_B V c t h
  Φ t := PhiS1 V c t.val
  q _ := fullShare
  owed _ := 0

theorem rA_eq1 (c : Dev nD) (w : Fin cfg1.W) : (rdat1 V c).A w = V c (Pipeline.arrRef spec1 w) := by
  dsimp only [rdat1]

/-- Input window 0's buffer holds its block wherever the body is handed it. -/
theorem finds1_0 (c : Dev nD) (t : Fin cfg1.N) (Y) (hY : (rdat1 V c).Finds 0 t Y) : Y = iblk1 V c 0 t := by
  obtain ⟨d, hd⟩ := Pipeline.RDat.finds_in_eq_fetched (rdat1 V c) 0 rfl (fun _ _ _ => rfl) (fun t Y X h => by dsimp only [rdat1] at h; exact h) t Y hY
  rw [hd]; unfold Pipeline.RDat.fetched Pipeline.RDat.blockOf iblk1; rw [rA_eq1]; try rfl
/-- Input window 1's buffer holds its block wherever the body is handed it. -/
theorem finds1_1 (c : Dev nD) (t : Fin cfg1.N) (Y) (hY : (rdat1 V c).Finds 1 t Y) : Y = iblk1 V c 1 t := by
  obtain ⟨d, hd⟩ := Pipeline.RDat.finds_in_eq_fetched (rdat1 V c) 1 rfl (fun _ _ _ => rfl) (fun t Y X h => by dsimp only [rdat1] at h; exact h) t Y hY
  rw [hd]; unfold Pipeline.RDat.fetched Pipeline.RDat.blockOf iblk1; rw [rA_eq1]; try rfl
/-- Input window 2's buffer holds its block wherever the body is handed it. -/
theorem finds1_2 (c : Dev nD) (t : Fin cfg1.N) (Y) (hY : (rdat1 V c).Finds 2 t Y) : Y = iblk1 V c 2 t := by
  obtain ⟨d, hd⟩ := Pipeline.RDat.finds_in_eq_fetched (rdat1 V c) 2 rfl (fun _ _ _ => rfl) (fun t Y X h => by dsimp only [rdat1] at h; exact h) t Y hY
  rw [hd]; unfold Pipeline.RDat.fetched Pipeline.RDat.blockOf iblk1; rw [rA_eq1]; try rfl
/-- Input window 3's buffer holds its block wherever the body is handed it. -/
theorem finds1_3 (c : Dev nD) (t : Fin cfg1.N) (Y) (hY : (rdat1 V c).Finds 3 t Y) : Y = iblk1 V c 3 t := by
  obtain ⟨d, hd⟩ := Pipeline.RDat.finds_in_eq_fetched (rdat1 V c) 3 rfl (fun _ _ _ => rfl) (fun t Y X h => by dsimp only [rdat1] at h; exact h) t Y hY
  rw [hd]; unfold Pipeline.RDat.fetched Pipeline.RDat.blockOf iblk1; rw [rA_eq1]; try rfl

set_option maxHeartbeats 4800000 in
/-- The body obligation of the relational data, at every point. -/
theorem body_obligation1 (c : Dev nD) : (rdat1 (F := F) V c).BodyObligation (defs₀ (F := F)) Variants.none () Set.univ := fun t Y hY => by
  rw [bigSep_W1, bigSep_W1]
  have e0 := finds1_0 V c t _ (hY 0)
  have e1 := finds1_1 V c t _ (hY 1)
  have e2 := finds1_2 V c t _ (hY 2)
  have e3 := finds1_3 V c t _ (hY 3)
  rw [e0, e1, e2, e3]
  rw [show (rdat1 V c).owesAt () t.succ = (rdat1 V c).owesAt () t.castSucc from rfl]
  rw [show (rdat1 V c).Φ t.succ = PhiS1 V c (t.val + 1) from rfl, show (rdat1 V c).Φ t.castSucc = PhiS1 V c t.val from by dsimp only [rdat1]; simp only [Fin.coe_castSucc]]
  rw [show PhiS1 V c (t.val + 1) = iprop((∃ d, owns (c : Thread nD τ) scM1 fullShare d ∗ ⌜Inv1 V c (t.val + 1) d⌝) ∗ rest1 c ∗ (∃ r, prngReg c r)) from if_neg (Nat.succ_ne_zero _)]
  show _ ⊢ wp frame (wpE (defs₀ (F := F)) Variants.none c none) Set.univ (bodyAt1 t) _
  unfold bodyAt1
  have hN : cfg1.N = 20 := N_1
  by_cases h10 : t.val < 10
  · -- the first pass
    have hc0 : cond1_0 (grid1.coords t) := (hcond1_0 t).mpr h10
    have hc1 : ¬cond1_1 (grid1.coords t) := fun hc => absurd ((hcond1_1 t).mp hc) (by omega)
    have hpre : PhiS1 V c t.val ⊢ iprop((∃ d, owns (c : Thread nD τ) scM1 fullShare d ∗ ⌜Inv1 V c t.val d⌝) ∗ rest1 c ∗ (∃ r, prngReg c r)) := by
      by_cases hz : t.val = 0
      · rw [show PhiS1 V c t.val = Pipeline.ΦA spec1 c from if_pos hz]
        refine (PhiA1_in c).trans ?_
        iintro ⟨⟨%d, HS⟩, HR, Hg⟩
        isplitl [HS]
        · iexists d; isplitl [HS]; · iexact HS
          ipureintro; intro t' ht' hlt; omega
        isplitl [HR]; · iexact HR
        iexact Hg
      · rw [show PhiS1 V c t.val = _ from if_neg hz]
    refine (sep_mono hpre .rfl).trans ?_
    iintro ⟨⟨⟨%d, HS0, %hInv⟩, HR, Hg⟩, Ho, H0, H1, H2, H3, H4⟩
    iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) d).2 (Y 4) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 HR Hg]
    · isplitl [HS0]
      · iexists _; isplitl [HS0]
        · unfold owns; iexists _; isplitr
          swap; · iexact HS0
          ipureintro; rfl
        ipureintro; exact inv1_step V c t h10 d hInv _ (runA1_pieces c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) d)
      isplitl [HR]; · iexact HR
      iexact Hg
    isplitl [Ho]; · iexact Ho
    isplitl [H0]
    · iexists _; isplitr; · ipureintro; dsimp only [rdat1]
      iexact H0
    isplitl [H1]
    · iexists _; isplitr; · ipureintro; dsimp only [rdat1]
      iexact H1
    isplitl [H2]
    · iexists _; isplitr; · ipureintro; dsimp only [rdat1]
      iexact H2
    isplitl [H3]
    · iexists _; isplitr; · ipureintro; dsimp only [rdat1]
      iexact H3
    iexists (Y 4); isplitr
    · ipureintro; dsimp only [rdat1]; intro h; omega
    iexact H4
  · -- the second pass
    have h10' : 10 ≤ t.val := Nat.le_of_not_lt h10
    have hc0 : ¬cond1_0 (grid1.coords t) := fun hc => absurd ((hcond1_0 t).mp hc) (by omega)
    have hc1 : cond1_1 (grid1.coords t) := (hcond1_1 t).mpr h10'
    rw [show PhiS1 V c t.val = iprop((∃ d, owns (c : Thread nD τ) scM1 fullShare d ∗ ⌜Inv1 V c t.val d⌝) ∗ rest1 c ∗ (∃ r, prngReg c r)) from if_neg (by omega)]
    iintro ⟨⟨⟨%d, HS0, %hInv⟩, HR, Hg⟩, Ho, H0, H1, H2, H3, H4⟩
    obtain rfl := inv1_full V c t.val h10' d hInv
    iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) (H3all V c)).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 HR Hg]
    · isplitl [HS0]
      · iexists _; isplitl [HS0]; · iexact HS0
        ipureintro; intro t' ht' _ y
        show H3all V c ((rectA t' ht').emb y) = blk3 V c t' y
        exact hInv t' ht' (by omega) y
      isplitl [HR]; · iexact HR
      iexact Hg
    isplitl [Ho]; · iexact Ho
    isplitl [H0]
    · iexists _; isplitr; · ipureintro; dsimp only [rdat1]
      iexact H0
    isplitl [H1]
    · iexists _; isplitr; · ipureintro; dsimp only [rdat1]
      iexact H1
    isplitl [H2]
    · iexists _; isplitr; · ipureintro; dsimp only [rdat1]
      iexact H2
    isplitl [H3]
    · iexists _; isplitr; · ipureintro; dsimp only [rdat1]
      iexact H3
    iexists (out1_B V c t h10'); isplitr
    · ipureintro; dsimp only [rdat1]; intro _; rfl
    unfold owns; iexists _; isplitr
    swap; · iexact H4
    ipureintro; unfold out1_B; exact View.read_writes_of_cover _ _ _ _ _ (cover1_B V c t h10')

/-- What the launch hands the call is the invariant before the first point, -/
theorem hin1 (c : Dev nD) : Pipeline.ΦA spec1 c ⊢ (rdat1 V c).Φ 0 := by
  rw [show (rdat1 V c).Φ 0 = PhiS1 V c 0 from rfl, show PhiS1 V c 0 = Pipeline.ΦA spec1 c from if_pos rfl]
  try exact Idealize.SL.BI.Entails.refl _

/-- and after the last point the invariant gives it back, the scratch's contents forgotten. -/
theorem hout1 (c : Dev nD) : (rdat1 V c).Φ (Fin.last cfg1.N) ⊢ Pipeline.ΦA spec1 c := by
  rw [show (rdat1 V c).Φ (Fin.last cfg1.N) = PhiS1 V c cfg1.N from by dsimp only [rdat1]; simp only [Fin.val_last],
    show PhiS1 V c cfg1.N = iprop((∃ d, owns (c : Thread nD τ) scM1 fullShare d ∗ ⌜Inv1 V c cfg1.N d⌝) ∗ rest1 c ∗ (∃ r, prngReg c r)) from
      if_neg (by rw [show cfg1.N = 20 from N_1]; decide)]
  have h1 : iprop((∃ d, owns (c : Thread nD τ) scM1 fullShare d ∗ ⌜Inv1 V c cfg1.N d⌝) ∗ rest1 c ∗ (∃ r, prngReg c r))
      ⊢ (iprop((∃ d, owns (c : Thread nD τ) scM1 fullShare d) ∗ rest1 c ∗ (∃ r, prngReg c r)) : sProp 𝕄) := by
    iintro ⟨⟨%d, HS0, -⟩, HR, Hg⟩
    isplitl [HS0]; · iexists _; iexact HS0
    isplitl [HR]; · iexact HR
    iexact Hg
  exact h1.trans (PhiA1_out c)

end

end Cert.Kernel.Hand

end
-- ==== Proof.KRun.lean ====
import proofs.«104058_g24721831756232_cont_sun_m_69_41_alg».proof.Proof.KR0Body
import proofs.«104058_g24721831756232_cont_sun_m_69_41_alg».proof.Proof.KR1Body
import proofs.«104058_g24721831756232_cont_sun_m_69_41_alg».proof.Proof.Gen.Kernel.Regions
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of @main: six host operations, then the two pallas_calls

The host operations reshape the three biases to one-row matrices and round the three weight matrices; the first call
then leaves the second layer's dense part and a copy of the adjacency in two arrays; the second call reads those two
and leaves the network's output in a third. Each call is entered from every unscoped buffer at known contents; the
first is left so again; the second leaves its result array at contents the relational proof data constrains, and
every other buffer as it found it. -/

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
/-- after the host operations (the first call's entry), -/
abbrev W1 : Dev nD → Valuation τ sig (Elt F) := fun c => StableHlo.after hostOps0 (W0 m ρ c)
/-- the same read at the TensorCore's references, -/
abbrev E1 : (c : Dev nD) → (b : Ref sig .tc) → Buf (Elt F) ((c : Thread nD τ).loc b) := fun c b => W1 m ρ c b
/-- and at the first call's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The second call's entry contents. -/
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Both calls' proof data: the first call's names every buffer's contents, read as relational data; the second
    call's is relational. -/
def rdats : (p : Fin 2) → (c : Dev nD) → Pipeline.RDat τ (Elt F) Unit ℕ (UR sig nD τ) ℕ (Pipeline.pin (pcfgs (F := F)) adm p) c
  | ⟨0, _⟩ => fun c => (dat0 (E1 m ρ) c).toR
  | ⟨1, _⟩ => fun c => rdat1 (E2 m ρ) c
/-- A family of exact proof data that is the first call's at index 0 (what the library's lemma about putting a call's
    arrays back among the unscoped buffers is stated over; its entry at index 1 is never used). -/
def pd0 : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => { A := fun w => E2 m ρ c (Pipeline.arrRef spec1 w), after := fun _ _ => Classical.arbitrary _, Φ := fun _ => iprop(emp), q := fun _ => fullShare, owed := fun _ => 0 }
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: the second call's arrays at contents its proof data allows after every
    write-back, every other unscoped buffer as that call found it, the generator register at some state. -/
abbrev Tₙ (c : Dev nD) : sProp 𝕄 :=
  iprop((rdats m ρ 1 c).arraysAt cfg1.N ∗ Pipeline.unscopedRest (Ix := Unit) (Name := ℕ) (U := UR sig nD τ) (Lvl := ℕ) spec1 c (E2 m ρ c) ∗ ∃ r, prngReg c r)

theorem share_full_r (p : Fin 2) (c : Dev nD) : ∀ w, (rdats m ρ p c).share w = fullShare := by
  match p with
  | ⟨0, _⟩ => intro w; unfold Pipeline.RDat.share; split <;> rfl
  | ⟨1, _⟩ => intro w; unfold Pipeline.RDat.share; split <;> rfl

/-! ## The calls as segments -/

set_option backward.isDefEq.respectTransparency.types false in
/-- The first call: entered from every unscoped buffer at `W1`, left at `W2`. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (E1 m ρ) c).loose).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.RDat.arrays_of_unscopedBufs (p := 0) (pcfgs (F := F)) adm (rdats m ρ) launch0.win launch0.arr_whole c
      (share_full_r m ρ 0 c) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m ρ) c)
    unfold Pipeline.ΦA
    iintro ⟨Hp, -, Hr⟩
    isplitl [Hr]; · iexact Hr
    iexact Hp
  hout c := by
    rw [Pipeline.ownSems0_none]
    refine BIBase.Entails.trans (hout0 (E1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd0 m ρ) ((pd0 m ρ 0 c).share_full fun _ => rfl)
      (E1 m ρ c) (E2 m ρ c) ((pd0 m ρ 0 c).arrAt · cfg0.N) (hF0 m ρ c) (hrest0 m ρ c)
    rw [Pipeline.unscopedBufs_held] at hjoin
    rw [show (rdats m ρ 0 c).arraysAt (Pipeline.pin (pcfgs (F := F)) adm 0).N = (pd0 m ρ 0 c).toR.arraysAt cfg0.N from rfl, Dat.toR_arraysAt_eq]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second call: entered from every unscoped buffer at `W2`; left with its arrays at what the proof data allows
    and every other buffer untouched. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (E2 m ρ) c
  hwaits := Pipeline.RDat.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.RDat.arrays_of_unscopedBufs (p := 1) (pcfgs (F := F)) adm (rdats m ρ) launch1.win launch1.arr_whole c
      (share_full_r m ρ 1 c) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m ρ) c)
    unfold Pipeline.ΦA
    iintro ⟨Hp, -, Hr⟩
    isplitl [Hr]; · iexact Hr
    iexact Hp
  hout c := by
    rw [Pipeline.ownSems0_none]
    refine BIBase.Entails.trans (hout1 (E2 m ρ) c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.RDat.Seg.run (segs m ρ) := (main_chain c).trans (by chain_rfl)

/-- What is read off the last thread state against a final memory: the second call's arrays hold contents its proof
    data allows, and every other unscoped buffer what that call found there. -/
def QYc (c : Dev nD) (s : MemSt nD τ sig (Elt F)) : Prop :=
  (∀ w, (rdats m ρ 1 c).ArrAt w cfg1.N (s.mem (((Pipeline.pin (pcfgs (F := F)) adm 1).spec w).arr.view.loc (c.tc : Thread nD τ))))
  ∧ ∀ b ∈ ((Finset.univ.filter fun b : Ref sig .tc => ¬ b.isScoped) \ Finset.univ.image (Pipeline.arrRef spec1)),
      s.mem ((c.tc : Thread nD τ).loc b) = E2 m ρ c b

set_option backward.isDefEq.respectTransparency.types false in
/-- THE RUN: every weakly fair execution of @main terminates, nothing faulting, and every final memory satisfies
    `QYc` on every core. -/
theorem run_main : θ_run defs (onTc (τ := τ) (main (F := F))) ⟨m, fun _ => 0, ρ⟩ (fun r => ∀ c : Dev nD, QYc m ρ c r.2) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := QYc m ρ)
    (hfin := fun c s' => by
      unfold QYc
      iintro ⟨⟨Ha, Hrest, -⟩, HSI⟩
      ihave H1 := (Pipeline.RDat.arrays_read (p := 1) (pcfgs (F := F)) adm (rdats m ρ) launch1.arr_whole c cfg1.N s') $$ [Ha HSI]
      · isplitl [Ha] <;> iassumption
      icases H1 with ⟨%h1, HSI⟩
      unfold Pipeline.unscopedRest
      ihave H2 := (pointsTo_read_all ((Finset.univ.filter fun b : Ref sig .tc => ¬ b.isScoped) \ Finset.univ.image (Pipeline.arrRef spec1))
        (fun b => ((c.tc : Thread nD τ).loc b)) (E2 m ρ c) s') $$ [Hrest HSI]
      · isplitl [Hrest] <;> iassumption
      icases H2 with ⟨%h2, HSI⟩
      imodintro
      isplitr
      · ipureintro; exact ⟨h1, h2⟩
      iexact HSI)
    (hQ := fun s h c => h c)

end Cert.Kernel.Hand

end
-- ==== Proof.KFrame.lean ====
import proofs.«104058_g24721831756232_cont_sun_m_69_41_alg».proof.Proof.KRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # What the run leaves: the arguments as launched, and the result array block by block -/

open Idealize.ShloMosaic.ValueIdx

variable (m : (ℓ : Loc nD τ sig) → Buf (Elt F) ℓ) (ρ : Dev nD → PrngReg)

/-- No host operation writes a buffer outside its six results. -/
theorem E1_of (c : Dev nD) (r : Ref sig .tc) (h : r ∉ Gen.hostOps0_W) : E1 m ρ c r = m ((c : Thread nD τ).loc r) :=
  Gen.V1_of m c r h
/-- The first call changes only its two result arrays: a buffer that is none of its windows' arrays, -/
theorem E2_of_ne (c : Dev nD) (b : Ref sig .tc) (hb : ∀ w, Pipeline.arrRef spec0 w ≠ b) : E2 m ρ c b = E1 m ρ c b :=
  W2_of_ne m ρ c b hb
/-- and an input window's array, are as it found them. -/
theorem E2_arr_in (c : Dev nD) (w : Fin cfg0.W) (hin : (cfg0.win w).isOut = false) :
    E2 m ρ c (Pipeline.arrRef spec0 w) = E1 m ρ c (Pipeline.arrRef spec0 w) :=
  (W2_arr m ρ c w).trans (((dat0 (E1 m ρ) c).arrAt_in w hin _).trans (A_eq0 (E1 m ρ) c w))

theorem mem_rest1 (b : Ref sig .tc) (h1 : ¬ b.isScoped) (h2 : b ∉ Finset.univ.image (Pipeline.arrRef spec1)) :
    b ∈ ((Finset.univ.filter fun b : Ref sig .tc => ¬ b.isScoped) \ Finset.univ.image (Pipeline.arrRef spec1)) :=
  Finset.mem_sdiff.mpr ⟨Finset.mem_filter.mpr ⟨Finset.mem_univ _, h1⟩, h2⟩

/-- Every argument array ends as launched. -/
theorem kept (c : Dev nD) (s : MemSt nD τ sig (Elt F)) (h : QYc m ρ c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7) :=
  ⟨(h.2 main_arg0 (mem_rest1 _ (by decide) (by decide))).trans ((E2_arr_in m ρ c 0 rfl).trans (E1_of m ρ c main_arg0 (by decide))),
   (h.2 main_arg1 (mem_rest1 _ (by decide) (by decide))).trans ((E2_arr_in m ρ c 1 rfl).trans (E1_of m ρ c main_arg1 (by decide))),
   (h.2 main_arg2 (mem_rest1 _ (by decide) (by decide))).trans ((E2_of_ne m ρ c main_arg2 (by decide)).trans (E1_of m ρ c main_arg2 (by decide))),
   (h.2 main_arg3 (mem_rest1 _ (by decide) (by decide))).trans ((E2_of_ne m ρ c main_arg3 (by decide)).trans (E1_of m ρ c main_arg3 (by decide))),
   (h.2 main_arg4 (mem_rest1 _ (by decide) (by decide))).trans ((E2_of_ne m ρ c main_arg4 (by decide)).trans (E1_of m ρ c main_arg4 (by decide))),
   (h.2 main_arg5 (mem_rest1 _ (by decide) (by decide))).trans ((E2_of_ne m ρ c main_arg5 (by decide)).trans (E1_of m ρ c main_arg5 (by decide))),
   (h.2 main_arg6 (mem_rest1 _ (by decide) (by decide))).trans ((E2_of_ne m ρ c main_arg6 (by decide)).trans (E1_of m ρ c main_arg6 (by decide))),
   (h.2 main_arg7 (mem_rest1 _ (by decide) (by decide))).trans ((E2_of_ne m ρ c main_arg7 (by decide)).trans (E1_of m ρ c main_arg7 (by decide)))⟩

/-- THE FRAME: every weakly fair execution of @main terminates, nothing faulting, with the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept m ρ c r.2 (h c)) (run_main m ρ)

end Cert.Kernel.Hand

end
-- ==== Proof.R0Base.lean ====
import proofs.«104058_g24721831756232_cont_sun_m_69_41_alg».proof.Proof.Gen.KernelIdeal.Launch
import proofs.«104058_g24721831756232_cont_sun_m_69_41_alg».proof.Proof.Gen.KernelIdeal.Skeleton
import proofs.«104058_g24721831756232_cont_sun_m_69_41_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pallas_call (25 row blocks of the adjacency): what its body runs are stated over

The first call walks the 25 blocks of 400 rows of the adjacency matrix. At its first point it also fills a
scratch buffer with the first layer's dense part `x·W1 + b1`, which every point then multiplies its rows of the
adjacency by. -/

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-- The body's one branch: "this is the first row block". -/
abbrev cond0_0 (i : grid0.Coords) : Prop := (Scalar.cmpi .ne (Scalar.extui (Scalar.cmpi .eq (BitVec.ofNat 32 (i 0).val) 0#32)) 0#32) = 1#1
/-- It holds at point 0 and nowhere else. -/
theorem hcond0_0 : ∀ t : Fin cfg0.N, cond0_0 (grid0.coords t) ↔ t.val = 0 :=
  (by decide +kernel : ∀ t : Fin grid0.N, cond0_0 (grid0.coords t) ↔ t.val = 0)

/-- No window of the first call is ever idle. -/
theorem liveAt0 : ∀ (w : Fin 8) (t : Fin cfg0.N), cfg0.idle w (grid0.coords t) = false := by decide +kernel

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x10000 .bf16 := win0_7.stage (cfg0.slots t 7)
abbrev hs0_7 (t : Fin cfg0.N) : (ms0_7 t).IsWhole := hstage0_7 ((cfg0.slots t 7).cast nbuf0_7)
/-- The scratch that holds the first layer's dense part. -/
abbrev scM0 : Memref sig .tc .vmem S10000x128 .bf16 := Memref.whole cc0_scratch0
abbrev VS0 : View sig .tc .vmem S10000x128 .bf16 := (scM0 : Memref sig .tc .vmem S10000x128 .bf16).view
abbrev VO0_6 : View sig .tc .vmem S400x128 .bf16 := (Memref.whole cc0_stg6_0 : Memref sig .tc .vmem S400x128 .bf16).view
abbrev VO0_7 : View sig .tc .vmem S400x10000 .bf16 := (Memref.whole cc0_stg7_0 : Memref sig .tc .vmem S400x10000 .bf16).view

/-- The scoped buffers the first call does not use (the second call's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the call's invariant holds before anything ran: the scratch and the other scoped buffers at anything,
    and the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.KernelIdeal.Hand

end
-- ==== Proof.R0RunA.lean ====
import proofs.«104058_g24721831756232_cont_sun_m_69_41_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first call's body at the first row block

Here the branch is taken: the body fills the scratch with the dense part of layer one, then does what every point
does. What each buffer it stores into ends with is found by running it. -/

set_option maxHeartbeats 4000000 in
/-- The body at the first point, on whole staging buffers: the six inputs at their contents, the two outputs and
    the scratch at anything. It runs, gives the inputs back as they were, and leaves each output and the scratch with
    the listed stores written (last first). -/
noncomputable def kernelRun0_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S400x10000 .bf16) (harg8 : arg8.IsWhole) (arg9 : Memref sig .tc .vmem S10000x128 .bf16) (harg9 : arg9.IsWhole) (hc0 : cond0_0 i)
    (x0 : Vec F S10000x128 .f32) (x1 : Vec F S400x10000 .f32) (x2 : Vec F S128x128 .bf16) (x3 : Vec F S1x128 .f32) (x4 : Vec F S128x128 .bf16) (x5 : Vec F S1x128 .f32) :
    Σ' (L6 : List (View.Piece (Elt F) S400x128 .bf16)) (L7 : List (View.Piece (Elt F) S400x10000 .bf16)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__l1_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__l1_kernel_eq_skeleton]; unfold cc0__l1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Hand

end
-- ==== Proof.R0RunB.lean ====
import proofs.«104058_g24721831756232_cont_sun_m_69_41_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first call's body at every later row block

Here the branch is not taken: the scratch is only read. -/

set_option maxHeartbeats 4000000 in
/-- The body at a later point, on whole staging buffers: the six inputs and the scratch at their contents, the two
    outputs at anything. It runs, gives the inputs and the scratch back as they were, and leaves each output with the
    listed stores written (last first). -/
noncomputable def kernelRun0_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S400x10000 .bf16) (harg8 : arg8.IsWhole) (arg9 : Memref sig .tc .vmem S10000x128 .bf16) (harg9 : arg9.IsWhole) (hc0 : ¬cond0_0 i)
    (x0 : Vec F S10000x128 .f32) (x1 : Vec F S400x10000 .f32) (x2 : Vec F S128x128 .bf16) (x3 : Vec F S1x128 .f32) (x4 : Vec F S128x128 .bf16) (x5 : Vec F S1x128 .f32) (xs0 : Vec F S10000x128 .bf16) :
    Σ' (L6 : List (View.Piece (Elt F) S400x128 .bf16)), { L7 : List (View.Piece (Elt F) S400x10000 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0) -∗ K ⟨⟩))
          ⊢ wp frame (wpE (defs₀ (F := F)) Variants.none c none) E (cc0__l1_kernel i arg1 harg1 arg2 harg2 arg3 harg3 arg4 harg4 arg5 harg5 arg6 harg6 arg7 harg7 arg8 harg8 arg9 harg9) K } := by
  refine ⟨?_, ?_, fun E K => ?run⟩
  case run =>
    simp only [cc0__l1_kernel_eq_skeleton]; unfold cc0__l1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; isplitr; · ipureintro; exact harg9.read_unread _
    iexact HS0

end Cert.KernelIdeal.Hand

end
-- ==== Proof.R0Body.lean ====
import proofs.«104058_g24721831756232_cont_sun_m_69_41_alg».proof.Proof.R0RunA
import proofs.«104058_g24721831756232_cont_sun_m_69_41_alg».proof.Proof.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pallas_call: what its buffers hold point by point, and the body obligation

After the first point the scratch holds the dense part of layer one, computed from blocks that are the same at every
point (the whole of `x`, `W1`, `b1`), and no later point stores into it: so its contents after EVERY point are the
one array `sc0`. Each point's two output buffers are then functions of that point's blocks and of `sc0`. -/

section
variable (V : (c : Dev nD) → (b : Ref sig .tc) → Buf (Elt F) ((c : Thread nD τ).loc b))

/-- The first point. -/
abbrev t₀ : Fin cfg0.N := ⟨0, lt_of_lt_of_eq (by decide : 0 < 25) (show cfg0.N = 25 from N_0).symm⟩
theorem hc_t₀ : cond0_0 (grid0.coords t₀) := (hcond0_0 t₀).mpr rfl

/-- What the scratch holds after the first point (and ever after): the first point's stores read back. -/
def sc0 (c : Dev nD) : Vec F S10000x128 .bf16 :=
  VS0.read (Elt F) (VS0.writes (Elt F) VS0.junk (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.2.1)

/-- The first point's stores into the scratch cover it. -/
theorem scover0_A (c : Dev nD) (y : S10000x128.Idx) :
    ∃ pc ∈ (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.2.1, y ∈ pc.1.set :=
  View.cover_of_tiledL (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.2.1 S10000x128.size (by sl_kernel_rfl) y

/-- What the first point leaves in the two output buffers, -/
def out0_A_6 (c : Dev nD) : Vec F S400x128 .bf16 :=
  VO0_6.read (Elt F) (VO0_6.writes (Elt F) VO0_6.junk (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).1)
def out0_A_7 (c : Dev nD) : Vec F S400x10000 .bf16 :=
  VO0_7.read (Elt F) (VO0_7.writes (Elt F) VO0_7.junk (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.1)
theorem cover0_A_6 (c : Dev nD) (y : S400x128.Idx) : ∃ pc ∈ (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).1, y ∈ pc.1.set :=
  View.cover_of_tiledL (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).1 S400x128.size (by sl_kernel_rfl) y
theorem cover0_A_7 (c : Dev nD) (y : S400x10000.Idx) : ∃ pc ∈ (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.1, y ∈ pc.1.set :=
  View.cover_of_tiledL (kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.1 S400x10000.size (by sl_kernel_rfl) y

/-- and a later point, from its blocks and the scratch. -/
def out0_B_6 (c : Dev nD) (t : Fin cfg0.N) (hc : ¬cond0_0 (grid0.coords t)) : Vec F S400x128 .bf16 :=
  VO0_6.read (Elt F) (VO0_6.writes (Elt F) VO0_6.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).1)
def out0_B_7 (c : Dev nD) (t : Fin cfg0.N) (hc : ¬cond0_0 (grid0.coords t)) : Vec F S400x10000 .bf16 :=
  VO0_7.read (Elt F) (VO0_7.writes (Elt F) VO0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).2.1)
theorem cover0_B_6 (c : Dev nD) (t : Fin cfg0.N) (hc : ¬cond0_0 (grid0.coords t)) (y : S400x128.Idx) : ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).1 S400x128.size (by sl_kernel_rfl) y
theorem cover0_B_7 (c : Dev nD) (t : Fin cfg0.N) (hc : ¬cond0_0 (grid0.coords t)) (y : S400x10000.Idx) : ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).2.1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).2.1 S400x10000.size (by sl_kernel_rfl) y

/-- The two output buffers after the body at point `t`. -/
def outs0 (c : Dev nD) (t : Fin cfg0.N) : Vec F S400x128 .bf16 × Vec F S400x10000 .bf16 :=
  if h : t.val = 0 then (out0_A_6 V c, out0_A_7 V c)
  else (out0_B_6 V c t (fun hc => h ((hcond0_0 t).mp hc)), out0_B_7 V c t (fun hc => h ((hcond0_0 t).mp hc)))

/-- The call's invariant before position `n`: before the first point the scratch (like every other scoped buffer the
    call does not stage) at anything; afterwards the scratch at `sc0`. -/
def PhiS0 (c : Dev nD) (n : ℕ) : sProp 𝕄 :=
  if n = 0 then Pipeline.ΦA spec0 c
  else iprop(iprop(owns (c : Thread nD τ) scM0 fullShare (sc0 V c) ∗ rest0 c) ∗ (∃ r, prngReg c r))

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outs0 V c t).1
    | ⟨7, _⟩ => (outs0 V c t).2
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outs0 V c t).1 := by dsimp only [dat0]
theorem after0_7 (c : Dev nD) (t : Fin cfg0.N) : (dat0 V c).after 7 t = (outs0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' buffers hold their blocks; the point is the first or it is not; the matching
    run applies; the scratch goes back into the invariant at `sc0`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) from rfl, show (dat0 V c).Φ t.castSucc = PhiS0 V c t.val from by dsimp only [dat0]; simp only [Fin.coe_castSucc]]
  rw [show PhiS0 V c (t.val + 1) = iprop(iprop(owns (c : Thread nD τ) scM0 fullShare (sc0 V c) ∗ rest0 c) ∗ (∃ r, prngReg c r)) from if_neg (Nat.succ_ne_zero _)]
  rw [show (dat0 V c).leavesExact 0 t = owns (c : Thread nD τ) (ms0_0 t) fullShare ((dat0 V c).after 0 t) from by
    unfold Dat.leavesExact; rw [liveAt0 0 t]]
  rw [show (dat0 V c).leavesExact 1 t = owns (c : Thread nD τ) (ms0_1 t) fullShare ((dat0 V c).after 1 t) from by
    unfold Dat.leavesExact; rw [liveAt0 1 t]]
  rw [show (dat0 V c).leavesExact 2 t = owns (c : Thread nD τ) (ms0_2 t) fullShare ((dat0 V c).after 2 t) from by
    unfold Dat.leavesExact; rw [liveAt0 2 t]]
  rw [show (dat0 V c).leavesExact 3 t = owns (c : Thread nD τ) (ms0_3 t) fullShare ((dat0 V c).after 3 t) from by
    unfold Dat.leavesExact; rw [liveAt0 3 t]]
  rw [show (dat0 V c).leavesExact 4 t = owns (c : Thread nD τ) (ms0_4 t) fullShare ((dat0 V c).after 4 t) from by
    unfold Dat.leavesExact; rw [liveAt0 4 t]]
  rw [show (dat0 V c).leavesExact 5 t = owns (c : Thread nD τ) (ms0_5 t) fullShare ((dat0 V c).after 5 t) from by
    unfold Dat.leavesExact; rw [liveAt0 5 t]]
  rw [show (dat0 V c).leavesExact 6 t = owns (c : Thread nD τ) (ms0_6 t) fullShare ((dat0 V c).after 6 t) from by
    unfold Dat.leavesExact; rw [liveAt0 6 t]]
  rw [show (dat0 V c).leavesExact 7 t = owns (c : Thread nD τ) (ms0_7 t) fullShare ((dat0 V c).after 7 t) from by
    unfold Dat.leavesExact; rw [liveAt0 7 t]]
  rw [after0_0, after0_1, after0_2, after0_3, after0_4, after0_5, after0_6, after0_7]
  by_cases hz : t.val = 0
  · obtain rfl : t = t₀ := Fin.ext hz
    rw [show PhiS0 V c (t₀ : Fin cfg0.N).val = Pipeline.ΦA spec0 c from if_pos rfl, PhiA0_eq]
    rw [show outs0 V c t₀ = (out0_A_6 V c, out0_A_7 V c) from dif_pos rfl]
    unfold out0_A_6 out0_A_7 sc0; (try dsimp only)
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A V c)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 V c)
    unfold owns; iexists _; isplitr
    swap; · iexact H7
    ipureintro; exact View.read_writes_of_cover _ _ _ _ _ (cover0_A_7 V c)
  · have hc : ¬cond0_0 (grid0.coords t) := fun hc => hz ((hcond0_0 t).mp hc)
    rw [show PhiS0 V c t.val = iprop(iprop(owns (c : Thread nD τ) scM0 fullShare (sc0 V c) ∗ rest0 c) ∗ (∃ r, prngReg c r)) from if_neg hz]
    rw [show outs0 V c t = (out0_B_6 V c t hc, out0_B_7 V c t hc) from dif_neg hz]
    unfold out0_B_6 out0_B_7; (try dsimp only)
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 V c t hc)
    unfold owns; iexists _; isplitr
    swap; · iexact H7
    ipureintro; exact View.read_writes_of_cover _ _ _ _ _ (cover0_B_7 V c t hc)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point, -/
theorem hin0 (c : Dev nD) : Pipeline.ΦA spec0 c ⊢ (dat0 V c).Φ 0 := by
  rw [show (dat0 V c).Φ 0 = PhiS0 V c 0 from rfl, show PhiS0 V c 0 = Pipeline.ΦA spec0 c from if_pos rfl]
  try exact Idealize.SL.BI.Entails.refl _

/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = PhiS0 V c cfg0.N from by dsimp only [dat0]; simp only [Fin.val_last],
    show PhiS0 V c cfg0.N = iprop(iprop(owns (c : Thread nD τ) scM0 fullShare (sc0 V c) ∗ rest0 c) ∗ (∃ r, prngReg c r)) from
      if_neg (by rw [show cfg0.N = 25 from N_0]; decide), PhiA0_eq]
  iintro ⟨⟨HS0, HR⟩, Hg⟩
  isplitl [HS0 HR]
  · isplitl [HS0]; · iexists _; iexact HS0
    iexact HR
  iexact Hg

end

end Cert.KernelIdeal.Hand

end
-- ==== Proof.R1Base.lean ====
import proofs.«104058_g24721831756232_cont_sun_m_69_41_alg».proof.Proof.Gen.KernelIdeal.Launch
import proofs.«104058_g24721831756232_cont_sun_m_69_41_alg».proof.Proof.Gen.KernelIdeal.Skeleton
import proofs.«104058_g24721831756232_cont_sun_m_69_41_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pallas_call (two passes over the 10 blocks of 1000 rows): what its body runs are stated over

Points 0–9 compute the third layer's dense part block by block into a scratch buffer; points 10–19 multiply each
row block of the adjacency by the finished scratch and store the result. -/

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-- "First pass" (the point is below 10) and "second pass" (it is not). -/
abbrev cond1_0 (i : grid1.Coords) : Prop := k1_cond1 i = 1#1
abbrev cond1_1 (i : grid1.Coords) : Prop := k1_cond2 i = 1#1
theorem hcond1_0 : ∀ t : Fin cfg1.N, cond1_0 (grid1.coords t) ↔ t.val < 10 :=
  (by decide +kernel : ∀ t : Fin grid1.N, cond1_0 (grid1.coords t) ↔ t.val < 10)
theorem hcond1_1 : ∀ t : Fin cfg1.N, cond1_1 (grid1.coords t) ↔ 10 ≤ t.val :=
  (by decide +kernel : ∀ t : Fin grid1.N, cond1_1 (grid1.coords t) ↔ 10 ≤ t.val)

/-- The inputs are never idle; the output is idle, and not written back, exactly in the first pass. -/
theorem liveAt1 : ∀ (w : Fin 5) (t : Fin cfg1.N), w.val < 4 → cfg1.idle w (grid1.coords t) = false := by decide +kernel
theorem idleAt1_4 : ∀ t : Fin cfg1.N, t.val < 10 → cfg1.idle 4 (grid1.coords t) = true := by decide +kernel
theorem liveAt1_4 : ∀ t : Fin cfg1.N, 10 ≤ t.val → cfg1.idle 4 (grid1.coords t) = false := by decide +kernel

abbrev ms1_0 (t : Fin cfg1.N) : Memref sig .tc .vmem S1000x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1000x128 .f32 := win1_4.stage (cfg1.slots t 4)
abbrev hs1_4 (t : Fin cfg1.N) : (ms1_4 t).IsWhole := hstage1_4 ((cfg1.slots t 4).cast nbuf1_4)
/-- The scratch that collects the third layer's dense part. -/
abbrev scM1 : Memref sig .tc .vmem S10000x128 .bf16 := Memref.whole cc1_scratch0
abbrev VS1 : View sig .tc .vmem S10000x128 .bf16 := (scM1 : Memref sig .tc .vmem S10000x128 .bf16).view
abbrev VO1_4 : View sig .tc .vmem S1000x128 .f32 := (Memref.whole cc1_stg4_0 : Memref sig .tc .vmem S1000x128 .f32).view

/-- The scoped buffers the second call does not use (the first call's), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- What the call's invariant holds before anything ran: the scratch and the other scoped buffers at anything,
    and the generator register — taken apart, -/
theorem PhiA1_in (c : Dev nD) :
    (Pipeline.ΦA spec1 c : sProp 𝕄)
      ⊢ iprop((∃ d, owns (c : Thread nD τ) scM1 fullShare d) ∗ rest1 c ∗ (∃ r, prngReg c r)) := by
  unfold Pipeline.ΦA rest1; rw [scopedRest1_eq]; simp only [scM1, owns_whole]
  iintro ⟨⟨H1, H2, H3, H4, H5, H6, H7, H8, H9, H10, H11, H12, H13⟩, Hg⟩
  isplitl [H13]; · iexact H13
  isplitr [Hg]; swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- and put together again. -/
theorem PhiA1_out (c : Dev nD) :
    iprop((∃ d, owns (c : Thread nD τ) scM1 fullShare d) ∗ rest1 c ∗ (∃ r, prngReg c r))
      ⊢ (Pipeline.ΦA spec1 c : sProp 𝕄) := by
  unfold Pipeline.ΦA rest1; rw [scopedRest1_eq]; simp only [scM1, owns_whole]
  iintro ⟨H13, ⟨H1, H2, H3, H4, H5, H6, H7, H8, H9, H10, H11, H12⟩, Hg⟩
  isplitr [Hg]; swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Hand

end
-- ==== Proof.R1RunA.lean ====
import proofs.«104058_g24721831756232_cont_sun_m_69_41_alg».proof.Proof.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second call's body in the first pass

The body computes one block of 1000 rows of the third layer's dense part and stores it into the scratch at the
block's rows; the output buffer is not touched. -/

set_option maxHeartbeats 4000000 in
/-- The body at a first-pass point, on whole staging buffers: the four inputs, the output buffer and the scratch at
    their contents. It runs, gives the inputs and the output buffer back as they were, and leaves the scratch with the
    listed stores written. -/
noncomputable def kernelRun1_A (c : Dev nD) (i : grid1.Coords) (arg1 : Memref sig .tc .vmem S1000x10000 .bf16) (harg1 : arg1.IsWhole) (arg2 : Memref sig .tc .vmem S10000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S10000x128 .bf16) (harg6 : arg6.IsWhole) (hc0 : cond1_0 i) (hc1 : ¬cond1_1 i)
    (x0 : Vec F S1000x10000 .bf16) (x1 : Vec F S10000x128 .bf16) (x2 : Vec F S128x128 .bf16) (x3 : Vec F S1x128 .f32) (xs0 : Vec F S10000x128 .bf16) :
    { LS0 : List (View.Piece (Elt F) S10000x128 .bf16) //
      ∀ (xi4 : Vec F S1000x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ (arg6.view.loc (c : Thread nD τ) ↦[arg6.view.set]{fullShare} arg6.view.writes (Elt F) (harg6.unread xs0) LS0)) -∗ K ⟨⟩))
          ⊢ wp frame (wpE (defs₀ (F := F)) Variants.none c none) E (cc1__l23_kernel i arg1 harg1 arg2 harg2 arg3 harg3 arg4 harg4 arg5 harg5 arg6 harg6) K } := by
  refine ⟨?_, fun xi4 E K => ?run⟩
  case run =>
    simp only [cc1__l23_kernel_eq_skeleton]; unfold cc1__l23_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexact HS0

end Cert.KernelIdeal.Hand

end
-- ==== Proof.R1RunB.lean ====
import proofs.«104058_g24721831756232_cont_sun_m_69_41_alg».proof.Proof.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second call's body in the second pass

The body multiplies its block of 1000 rows of the adjacency by the whole scratch and stores the product into the
output buffer; the scratch is only read. -/

set_option maxHeartbeats 4000000 in
/-- The body at a second-pass point, on whole staging buffers: the four inputs and the scratch at their contents,
    the output buffer at anything. It runs, gives the inputs and the scratch back as they were, and leaves the output
    buffer with the listed stores written. -/
noncomputable def kernelRun1_B (c : Dev nD) (i : grid1.Coords) (arg1 : Memref sig .tc .vmem S1000x10000 .bf16) (harg1 : arg1.IsWhole) (arg2 : Memref sig .tc .vmem S10000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S10000x128 .bf16) (harg6 : arg6.IsWhole) (hc0 : ¬cond1_0 i) (hc1 : cond1_1 i)
    (x0 : Vec F S1000x10000 .bf16) (x1 : Vec F S10000x128 .bf16) (x2 : Vec F S128x128 .bf16) (x3 : Vec F S1x128 .f32) (xs0 : Vec F S10000x128 .bf16) :
    { L4 : List (View.Piece (Elt F) S1000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc1__l23_kernel i arg1 harg1 arg2 harg2 arg3 harg3 arg4 harg4 arg5 harg5 arg6 harg6) K } := by
  refine ⟨?_, fun E K => ?run⟩
  case run =>
    simp only [cc1__l23_kernel_eq_skeleton]; unfold cc1__l23_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.KernelIdeal.Hand

end
-- ==== Proof.R1Body.lean ====
import proofs.«104058_g24721831756232_cont_sun_m_69_41_alg».proof.Proof.R1RunA
import proofs.«104058_g24721831756232_cont_sun_m_69_41_alg».proof.Proof.R1RunB
import Idealize.ShloMosaic.Lib.WritesUnit
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second pallas_call: the scratch through the first pass, the output in the second, and the body obligation

In the first pass point `t` (below 10) stores block `t` of the third layer's dense part into rows
`[1000·t, 1000·t + 1000)` of the scratch, and nothing into the output buffer — yet the pipeline writes that buffer
back at every point, so what the first pass puts into the result array is unknown, and the proof data is relational:
it names what the body leaves in the output buffer only in the second pass, where every block is written again.
After the first pass the scratch is one known array (`H3all`): its ten row blocks. -/

open Idealize.ShloMosaic.ValueIdx

theorem hz2 : (![0, 0] : Fin 2 → Nat) = fun _ => 0 := funext fun a => by fin_cases a <;> rfl

/-- A whole buffer held at the raw contents that read `x`, loaded whole, reads `x`. -/
theorem rd_whole {sp : Space} {S : Shape} {e : EltTy} {m : Memref sig .tc sp S e} (hm : m.IsWhole) {off : Fin S.rank → Nat}
    (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h]

/-- Where a first-pass point stores: rows `1000·t` on, every column. -/
theorem hoff1 : ∀ t : Fin cfg1.N, t.val < 10 → k1_off1 (grid1.coords t) (0 : Fin 2) = t.val * 1000 ∧ k1_off1 (grid1.coords t) (1 : Fin 2) = 0 :=
  (by decide +kernel : ∀ t : Fin grid1.N, t.val < 10 → k1_off1 (grid1.coords t) (0 : Fin 2) = t.val * 1000 ∧ k1_off1 (grid1.coords t) (1 : Fin 2) = 0)

/-- The rows a first-pass point stores into, as a rectangle of the scratch. -/
abbrev rectA (t : Fin cfg1.N) (h : t.val < 10) : Rect S10000x128 :=
  Rect.unit (s := S10000x128) (k1_off1 (grid1.coords t)) S1000x128.size (k1_off1_inb (grid1.coords t) ((hcond1_0 t).mpr h))

/-- The first-pass body's one store, as found by running it. -/
theorem runA1_pieces (c : Dev nD) (i : grid1.Coords) (arg1 : Memref sig .tc .vmem S1000x10000 .bf16) (harg1 : arg1.IsWhole) (arg2 : Memref sig .tc .vmem S10000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S10000x128 .bf16) (harg6 : arg6.IsWhole) (hc0 : cond1_0 i) (hc1 : ¬cond1_1 i)
    (x0 : Vec F S1000x10000 .bf16) (x1 : Vec F S10000x128 .bf16) (x2 : Vec F S128x128 .bf16) (x3 : Vec F S1x128 .f32) (xs0 : Vec F S10000x128 .bf16) :
    (kernelRun1_A c i arg1 harg1 arg2 harg2 arg3 harg3 arg4 harg4 arg5 harg5 arg6 harg6 hc0 hc1 x0 x1 x2 x3 xs0).1
      = [⟨Rect.unit (s := S10000x128) (k1_off1 i) S1000x128.size (k1_off1_inb i hc0), k1_pay1 x0 x1 x2 x3⟩] := by
  unfold kernelRun1_A; dsimp only
  rw [rd_whole harg1 hz2, rd_whole harg2 hz2, rd_whole harg3 hz2, rd_whole harg4 hz2]

section
variable (V : (c : Dev nD) → (b : Ref sig .tc) → Buf (Elt F) ((c : Thread nD τ).loc b))

/-- Block `t` of the third layer's dense part, from point `t`'s blocks. -/
def blk3 (c : Dev nD) (t : Fin cfg1.N) : Vec F S1000x128 .bf16 :=
  k1_pay1 (iblk1 V c 0 t) (iblk1 V c 1 t) (iblk1 V c 2 t) (iblk1 V c 3 t)

/-- The scratch's first `n` row blocks (at most ten) hold the dense part's blocks. -/
def Inv1 (c : Dev nD) (n : ℕ) (d : Vec F S10000x128 .bf16) : Prop :=
  ∀ (t : Fin cfg1.N) (h : t.val < 10), t.val < n → ∀ y : S1000x128.Idx, d ((rectA t h).emb y) = blk3 V c t y

/-- The whole scratch after the first pass. -/
def H3all (c : Dev nD) : Vec F S10000x128 .bf16 := fun idx =>
  blk3 V c ⟨(idx 0).val / 1000, by
      have h0 : (idx 0).val < 10000 := (idx 0).isLt
      have hN : cfg1.N = 20 := N_1
      omega⟩
    (ix2 (⟨(idx 0).val % 1000, Nat.mod_lt _ (by decide)⟩ : Fin 1000) (⟨(idx 1).val, (idx 1).isLt⟩ : Fin 128))

/-- Once all ten blocks are in, the scratch IS that array. -/
theorem inv1_full (c : Dev nD) (n : ℕ) (hn : 10 ≤ n) (d : Vec F S10000x128 .bf16) (h : Inv1 V c n d) : d = H3all V c := by
  funext idx
  have h0 : (idx 0).val < 10000 := (idx 0).isLt
  have hN : cfg1.N = 20 := N_1
  have ht : (idx 0).val / 1000 < 10 := by omega
  obtain ⟨ho0, ho1⟩ := hoff1 (⟨(idx 0).val / 1000, by omega⟩ : Fin cfg1.N) ht
  have hidx : idx = (rectA (⟨(idx 0).val / 1000, by omega⟩ : Fin cfg1.N) ht).emb
      (ix2 (⟨(idx 0).val % 1000, Nat.mod_lt _ (by decide)⟩ : Fin 1000) (⟨(idx 1).val, (idx 1).isLt⟩ : Fin 128)) := by
    funext a
    apply Fin.ext
    rw [Rect.emb_apply]
    match a with
    | ⟨0, _⟩ =>
      exact (show (idx 0).val = k1_off1 (grid1.coords (⟨(idx 0).val / 1000, by omega⟩ : Fin cfg1.N)) (0 : Fin 2) + 1 * ((idx 0).val % 1000) by
        rw [ho0]; show (idx 0).val = (idx 0).val / 1000 * 1000 + 1 * ((idx 0).val % 1000); omega)
    | ⟨1, _⟩ =>
      exact (show (idx 1).val = k1_off1 (grid1.coords (⟨(idx 0).val / 1000, by omega⟩ : Fin cfg1.N)) (1 : Fin 2) + 1 * (idx 1).val by
        rw [ho1]; omega)
  exact (congrArg d hidx).trans (h _ ht (by show (idx 0).val / 1000 < n; omega) _)

/-- The scratch is a whole buffer. -/
abbrev hwS1 : (scM1 : Memref sig .tc .vmem S10000x128 .bf16).IsWhole := Memref.isWhole_whole cc1_scratch0

set_option maxHeartbeats 1000000 in
/-- One more first-pass point: its store puts its block in, and keeps the blocks before it. -/
theorem inv1_step (c : Dev nD) (t : Fin cfg1.N) (ht : t.val < 10) (d : Vec F S10000x128 .bf16) (h : Inv1 V c t.val d)
    (L : List (View.Piece (Elt F) S10000x128 .bf16)) (hL : L = [⟨rectA t ht, blk3 V c t⟩]) :
    Inv1 V c (t.val + 1) (VS1.read (Elt F) (VS1.writes (Elt F) (hwS1.unread d) L)) := by
  subst hL
  intro t' ht' htn y
  by_cases e : t' = t
  · subst e
    exact View.read_writes_cons_emb VS1 (hwS1.unread d) (rectA t' ht) (blk3 V c t') [] y
  · have hlt : t'.val < t.val := by
      have : t'.val ≠ t.val := fun h => e (Fin.ext h)
      omega
    obtain ⟨ho0, -⟩ := hoff1 t ht
    obtain ⟨ho0', -⟩ := hoff1 t' ht'
    have hy0 : (y (0 : Fin 2)).val < 1000 := (y (0 : Fin 2)).isLt
    have hrow : ((rectA t' ht').emb y (0 : Fin 2)).val < k1_off1 (grid1.coords t) (0 : Fin 2) := by
      rw [Rect.emb_apply, ho0]
      show k1_off1 (grid1.coords t') (0 : Fin 2) + 1 * (y (0 : Fin 2)).val < t.val * 1000
      rw [ho0']; omega
    have hne := View.read_writes_cons_unit_of_not_mem VS1 (hwS1.unread d) (k1_off1_inb (grid1.coords t) ((hcond1_0 t).mpr ht))
      (blk3 V c t) [] ((rectA t' ht').emb y) rfl (0 : Fin 2) (Or.inl hrow)
    refine hne.trans ?_
    rw [View.writes_nil]
    exact (congrFun (hwS1.read_unread d) _).trans (h t' ht' hlt y)

/-- What a second-pass point leaves in the output buffer, from its block of the adjacency and the finished scratch. -/
def out1_B (c : Dev nD) (t : Fin cfg1.N) (h : 10 ≤ t.val) : Vec F S1000x128 .f32 :=
  VO1_4.read (Elt F) (VO1_4.writes (Elt F) VO1_4.junk
    (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun hc => absurd ((hcond1_0 t).mp hc) (by omega)) ((hcond1_1 t).mpr h) (iblk1 V c 0 t) (iblk1 V c 1 t) (iblk1 V c 2 t) (iblk1 V c 3 t) (H3all V c)).1)
theorem cover1_B (c : Dev nD) (t : Fin cfg1.N) (h : 10 ≤ t.val) (y : S1000x128.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun hc => absurd ((hcond1_0 t).mp hc) (by omega)) ((hcond1_1 t).mpr h) (iblk1 V c 0 t) (iblk1 V c 1 t) (iblk1 V c 2 t) (iblk1 V c 3 t) (H3all V c)).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun hc => absurd ((hcond1_0 t).mp hc) (by omega)) ((hcond1_1 t).mpr h) (iblk1 V c 0 t) (iblk1 V c 1 t) (iblk1 V c 2 t) (iblk1 V c 3 t) (H3all V c)).1 S1000x128.size (by sl_kernel_rfl) y

/-- The call's invariant before position `n`: before the first point the scratch at anything; afterwards at contents
    whose first `n` row blocks are the dense part's. -/
def PhiS1 (c : Dev nD) (n : ℕ) : sProp 𝕄 :=
  if n = 0 then Pipeline.ΦA spec1 c
  else iprop((∃ d, owns (c : Thread nD τ) scM1 fullShare d ∗ ⌜Inv1 V c n d⌝) ∗ rest1 c ∗ (∃ r, prngReg c r))

/-- The relational proof data of the second call on core `c`: the inputs are left as found; of the output buffer
    the body's result is named in the second pass only. -/
def rdat1 (c : Dev nD) : Pipeline.RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => X = Y
    | ⟨4, _⟩ => ∀ h : 10 ≤ t.val, X = out1_B V c t h
  Φ t := PhiS1 V c t.val
  q _ := fullShare
  owed _ := 0

theorem rA_eq1 (c : Dev nD) (w : Fin cfg1.W) : (rdat1 V c).A w = V c (Pipeline.arrRef spec1 w) := by
  dsimp only [rdat1]

/-- Input window 0's buffer holds its block wherever the body is handed it. -/
theorem finds1_0 (c : Dev nD) (t : Fin cfg1.N) (Y) (hY : (rdat1 V c).Finds 0 t Y) : Y = iblk1 V c 0 t := by
  obtain ⟨d, hd⟩ := Pipeline.RDat.finds_in_eq_fetched (rdat1 V c) 0 rfl (fun _ _ _ => rfl) (fun t Y X h => by dsimp only [rdat1] at h; exact h) t Y hY
  rw [hd]; unfold Pipeline.RDat.fetched Pipeline.RDat.blockOf iblk1; rw [rA_eq1]; try rfl
/-- Input window 1's buffer holds its block wherever the body is handed it. -/
theorem finds1_1 (c : Dev nD) (t : Fin cfg1.N) (Y) (hY : (rdat1 V c).Finds 1 t Y) : Y = iblk1 V c 1 t := by
  obtain ⟨d, hd⟩ := Pipeline.RDat.finds_in_eq_fetched (rdat1 V c) 1 rfl (fun _ _ _ => rfl) (fun t Y X h => by dsimp only [rdat1] at h; exact h) t Y hY
  rw [hd]; unfold Pipeline.RDat.fetched Pipeline.RDat.blockOf iblk1; rw [rA_eq1]; try rfl
/-- Input window 2's buffer holds its block wherever the body is handed it. -/
theorem finds1_2 (c : Dev nD) (t : Fin cfg1.N) (Y) (hY : (rdat1 V c).Finds 2 t Y) : Y = iblk1 V c 2 t := by
  obtain ⟨d, hd⟩ := Pipeline.RDat.finds_in_eq_fetched (rdat1 V c) 2 rfl (fun _ _ _ => rfl) (fun t Y X h => by dsimp only [rdat1] at h; exact h) t Y hY
  rw [hd]; unfold Pipeline.RDat.fetched Pipeline.RDat.blockOf iblk1; rw [rA_eq1]; try rfl
/-- Input window 3's buffer holds its block wherever the body is handed it. -/
theorem finds1_3 (c : Dev nD) (t : Fin cfg1.N) (Y) (hY : (rdat1 V c).Finds 3 t Y) : Y = iblk1 V c 3 t := by
  obtain ⟨d, hd⟩ := Pipeline.RDat.finds_in_eq_fetched (rdat1 V c) 3 rfl (fun _ _ _ => rfl) (fun t Y X h => by dsimp only [rdat1] at h; exact h) t Y hY
  rw [hd]; unfold Pipeline.RDat.fetched Pipeline.RDat.blockOf iblk1; rw [rA_eq1]; try rfl

set_option maxHeartbeats 4800000 in
/-- The body obligation of the relational data, at every point. -/
theorem body_obligation1 (c : Dev nD) : (rdat1 (F := F) V c).BodyObligation (defs₀ (F := F)) Variants.none () Set.univ := fun t Y hY => by
  rw [bigSep_W1, bigSep_W1]
  have e0 := finds1_0 V c t _ (hY 0)
  have e1 := finds1_1 V c t _ (hY 1)
  have e2 := finds1_2 V c t _ (hY 2)
  have e3 := finds1_3 V c t _ (hY 3)
  rw [e0, e1, e2, e3]
  rw [show (rdat1 V c).owesAt () t.succ = (rdat1 V c).owesAt () t.castSucc from rfl]
  rw [show (rdat1 V c).Φ t.succ = PhiS1 V c (t.val + 1) from rfl, show (rdat1 V c).Φ t.castSucc = PhiS1 V c t.val from by dsimp only [rdat1]; simp only [Fin.coe_castSucc]]
  rw [show PhiS1 V c (t.val + 1) = iprop((∃ d, owns (c : Thread nD τ) scM1 fullShare d ∗ ⌜Inv1 V c (t.val + 1) d⌝) ∗ rest1 c ∗ (∃ r, prngReg c r)) from if_neg (Nat.succ_ne_zero _)]
  show _ ⊢ wp frame (wpE (defs₀ (F := F)) Variants.none c none) Set.univ (bodyAt1 t) _
  unfold bodyAt1
  have hN : cfg1.N = 20 := N_1
  by_cases h10 : t.val < 10
  · -- the first pass
    have hc0 : cond1_0 (grid1.coords t) := (hcond1_0 t).mpr h10
    have hc1 : ¬cond1_1 (grid1.coords t) := fun hc => absurd ((hcond1_1 t).mp hc) (by omega)
    have hpre : PhiS1 V c t.val ⊢ iprop((∃ d, owns (c : Thread nD τ) scM1 fullShare d ∗ ⌜Inv1 V c t.val d⌝) ∗ rest1 c ∗ (∃ r, prngReg c r)) := by
      by_cases hz : t.val = 0
      · rw [show PhiS1 V c t.val = Pipeline.ΦA spec1 c from if_pos hz]
        refine (PhiA1_in c).trans ?_
        iintro ⟨⟨%d, HS⟩, HR, Hg⟩
        isplitl [HS]
        · iexists d; isplitl [HS]; · iexact HS
          ipureintro; intro t' ht' hlt; omega
        isplitl [HR]; · iexact HR
        iexact Hg
      · rw [show PhiS1 V c t.val = _ from if_neg hz]
    refine (sep_mono hpre .rfl).trans ?_
    iintro ⟨⟨⟨%d, HS0, %hInv⟩, HR, Hg⟩, Ho, H0, H1, H2, H3, H4⟩
    iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) d).2 (Y 4) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 HR Hg]
    · isplitl [HS0]
      · iexists _; isplitl [HS0]
        · unfold owns; iexists _; isplitr
          swap; · iexact HS0
          ipureintro; rfl
        ipureintro; exact inv1_step V c t h10 d hInv _ (runA1_pieces c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) d)
      isplitl [HR]; · iexact HR
      iexact Hg
    isplitl [Ho]; · iexact Ho
    isplitl [H0]
    · iexists _; isplitr; · ipureintro; dsimp only [rdat1]
      iexact H0
    isplitl [H1]
    · iexists _; isplitr; · ipureintro; dsimp only [rdat1]
      iexact H1
    isplitl [H2]
    · iexists _; isplitr; · ipureintro; dsimp only [rdat1]
      iexact H2
    isplitl [H3]
    · iexists _; isplitr; · ipureintro; dsimp only [rdat1]
      iexact H3
    iexists (Y 4); isplitr
    · ipureintro; dsimp only [rdat1]; intro h; omega
    iexact H4
  · -- the second pass
    have h10' : 10 ≤ t.val := Nat.le_of_not_lt h10
    have hc0 : ¬cond1_0 (grid1.coords t) := fun hc => absurd ((hcond1_0 t).mp hc) (by omega)
    have hc1 : cond1_1 (grid1.coords t) := (hcond1_1 t).mpr h10'
    rw [show PhiS1 V c t.val = iprop((∃ d, owns (c : Thread nD τ) scM1 fullShare d ∗ ⌜Inv1 V c t.val d⌝) ∗ rest1 c ∗ (∃ r, prngReg c r)) from if_neg (by omega)]
    iintro ⟨⟨⟨%d, HS0, %hInv⟩, HR, Hg⟩, Ho, H0, H1, H2, H3, H4⟩
    obtain rfl := inv1_full V c t.val h10' d hInv
    iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) (H3all V c)).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 HR Hg]
    · isplitl [HS0]
      · iexists _; isplitl [HS0]; · iexact HS0
        ipureintro; intro t' ht' _ y
        show H3all V c ((rectA t' ht').emb y) = blk3 V c t' y
        exact hInv t' ht' (by omega) y
      isplitl [HR]; · iexact HR
      iexact Hg
    isplitl [Ho]; · iexact Ho
    isplitl [H0]
    · iexists _; isplitr; · ipureintro; dsimp only [rdat1]
      iexact H0
    isplitl [H1]
    · iexists _; isplitr; · ipureintro; dsimp only [rdat1]
      iexact H1
    isplitl [H2]
    · iexists _; isplitr; · ipureintro; dsimp only [rdat1]
      iexact H2
    isplitl [H3]
    · iexists _; isplitr; · ipureintro; dsimp only [rdat1]
      iexact H3
    iexists (out1_B V c t h10'); isplitr
    · ipureintro; dsimp only [rdat1]; intro _; rfl
    unfold owns; iexists _; isplitr
    swap; · iexact H4
    ipureintro; unfold out1_B; exact View.read_writes_of_cover _ _ _ _ _ (cover1_B V c t h10')

/-- What the launch hands the call is the invariant before the first point, -/
theorem hin1 (c : Dev nD) : Pipeline.ΦA spec1 c ⊢ (rdat1 V c).Φ 0 := by
  rw [show (rdat1 V c).Φ 0 = PhiS1 V c 0 from rfl, show PhiS1 V c 0 = Pipeline.ΦA spec1 c from if_pos rfl]
  try exact Idealize.SL.BI.Entails.refl _

/-- and after the last point the invariant gives it back, the scratch's contents forgotten. -/
theorem hout1 (c : Dev nD) : (rdat1 V c).Φ (Fin.last cfg1.N) ⊢ Pipeline.ΦA spec1 c := by
  rw [show (rdat1 V c).Φ (Fin.last cfg1.N) = PhiS1 V c cfg1.N from by dsimp only [rdat1]; simp only [Fin.val_last],
    show PhiS1 V c cfg1.N = iprop((∃ d, owns (c : Thread nD τ) scM1 fullShare d ∗ ⌜Inv1 V c cfg1.N d⌝) ∗ rest1 c ∗ (∃ r, prngReg c r)) from
      if_neg (by rw [show cfg1.N = 20 from N_1]; decide)]
  have h1 : iprop((∃ d, owns (c : Thread nD τ) scM1 fullShare d ∗ ⌜Inv1 V c cfg1.N d⌝) ∗ rest1 c ∗ (∃ r, prngReg c r))
      ⊢ (iprop((∃ d, owns (c : Thread nD τ) scM1 fullShare d) ∗ rest1 c ∗ (∃ r, prngReg c r)) : sProp 𝕄) := by
    iintro ⟨⟨%d, HS0, -⟩, HR, Hg⟩
    isplitl [HS0]; · iexists _; iexact HS0
    isplitl [HR]; · iexact HR
    iexact Hg
  exact h1.trans (PhiA1_out c)

end

end Cert.KernelIdeal.Hand

end
-- ==== Proof.Run.lean ====
import proofs.«104058_g24721831756232_cont_sun_m_69_41_alg».proof.Proof.R0Body
import proofs.«104058_g24721831756232_cont_sun_m_69_41_alg».proof.Proof.R1Body
import proofs.«104058_g24721831756232_cont_sun_m_69_41_alg».proof.Proof.Gen.KernelIdeal.Regions
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of @main: six host operations, then the two pallas_calls

The host operations reshape the three biases to one-row matrices and round the three weight matrices; the first call
then leaves the second layer's dense part and a copy of the adjacency in two arrays; the second call reads those two
and leaves the network's output in a third. Each call is entered from every unscoped buffer at known contents; the
first is left so again; the second leaves its result array at contents the relational proof data constrains, and
every other buffer as it found it. -/

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
/-- after the host operations (the first call's entry), -/
abbrev W1 : Dev nD → Valuation τ sig (Elt F) := fun c => StableHlo.after hostOps0 (W0 m ρ c)
/-- the same read at the TensorCore's references, -/
abbrev E1 : (c : Dev nD) → (b : Ref sig .tc) → Buf (Elt F) ((c : Thread nD τ).loc b) := fun c b => W1 m ρ c b
/-- and at the first call's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The second call's entry contents. -/
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Both calls' proof data: the first call's names every buffer's contents, read as relational data; the second
    call's is relational. -/
def rdats : (p : Fin 2) → (c : Dev nD) → Pipeline.RDat τ (Elt F) Unit ℕ (UR sig nD τ) ℕ (Pipeline.pin (pcfgs (F := F)) adm p) c
  | ⟨0, _⟩ => fun c => (dat0 (E1 m ρ) c).toR
  | ⟨1, _⟩ => fun c => rdat1 (E2 m ρ) c
/-- A family of exact proof data that is the first call's at index 0 (what the library's lemma about putting a call's
    arrays back among the unscoped buffers is stated over; its entry at index 1 is never used). -/
def pd0 : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => { A := fun w => E2 m ρ c (Pipeline.arrRef spec1 w), after := fun _ _ => Classical.arbitrary _, Φ := fun _ => iprop(emp), q := fun _ => fullShare, owed := fun _ => 0 }
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: the second call's arrays at contents its proof data allows after every
    write-back, every other unscoped buffer as that call found it, the generator register at some state. -/
abbrev Tₙ (c : Dev nD) : sProp 𝕄 :=
  iprop((rdats m ρ 1 c).arraysAt cfg1.N ∗ Pipeline.unscopedRest (Ix := Unit) (Name := ℕ) (U := UR sig nD τ) (Lvl := ℕ) spec1 c (E2 m ρ c) ∗ ∃ r, prngReg c r)

theorem share_full_r (p : Fin 2) (c : Dev nD) : ∀ w, (rdats m ρ p c).share w = fullShare := by
  match p with
  | ⟨0, _⟩ => intro w; unfold Pipeline.RDat.share; split <;> rfl
  | ⟨1, _⟩ => intro w; unfold Pipeline.RDat.share; split <;> rfl

/-! ## The calls as segments -/

set_option backward.isDefEq.respectTransparency.types false in
/-- The first call: entered from every unscoped buffer at `W1`, left at `W2`. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (E1 m ρ) c).loose).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.RDat.arrays_of_unscopedBufs (p := 0) (pcfgs (F := F)) adm (rdats m ρ) launch0.win launch0.arr_whole c
      (share_full_r m ρ 0 c) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m ρ) c)
    unfold Pipeline.ΦA
    iintro ⟨Hp, -, Hr⟩
    isplitl [Hr]; · iexact Hr
    iexact Hp
  hout c := by
    rw [Pipeline.ownSems0_none]
    refine BIBase.Entails.trans (hout0 (E1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd0 m ρ) ((pd0 m ρ 0 c).share_full fun _ => rfl)
      (E1 m ρ c) (E2 m ρ c) ((pd0 m ρ 0 c).arrAt · cfg0.N) (hF0 m ρ c) (hrest0 m ρ c)
    rw [Pipeline.unscopedBufs_held] at hjoin
    rw [show (rdats m ρ 0 c).arraysAt (Pipeline.pin (pcfgs (F := F)) adm 0).N = (pd0 m ρ 0 c).toR.arraysAt cfg0.N from rfl, Dat.toR_arraysAt_eq]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second call: entered from every unscoped buffer at `W2`; left with its arrays at what the proof data allows
    and every other buffer untouched. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (E2 m ρ) c
  hwaits := Pipeline.RDat.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.RDat.arrays_of_unscopedBufs (p := 1) (pcfgs (F := F)) adm (rdats m ρ) launch1.win launch1.arr_whole c
      (share_full_r m ρ 1 c) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m ρ) c)
    unfold Pipeline.ΦA
    iintro ⟨Hp, -, Hr⟩
    isplitl [Hr]; · iexact Hr
    iexact Hp
  hout c := by
    rw [Pipeline.ownSems0_none]
    refine BIBase.Entails.trans (hout1 (E2 m ρ) c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.RDat.Seg.run (segs m ρ) := (main_chain c).trans (by chain_rfl)

/-- What is read off the last thread state against a final memory: the second call's arrays hold contents its proof
    data allows, and every other unscoped buffer what that call found there. -/
def QYc (c : Dev nD) (s : MemSt nD τ sig (Elt F)) : Prop :=
  (∀ w, (rdats m ρ 1 c).ArrAt w cfg1.N (s.mem (((Pipeline.pin (pcfgs (F := F)) adm 1).spec w).arr.view.loc (c.tc : Thread nD τ))))
  ∧ ∀ b ∈ ((Finset.univ.filter fun b : Ref sig .tc => ¬ b.isScoped) \ Finset.univ.image (Pipeline.arrRef spec1)),
      s.mem ((c.tc : Thread nD τ).loc b) = E2 m ρ c b

set_option backward.isDefEq.respectTransparency.types false in
/-- THE RUN: every weakly fair execution of @main terminates, nothing faulting, and every final memory satisfies
    `QYc` on every core. -/
theorem run_main : θ_run defs (onTc (τ := τ) (main (F := F))) ⟨m, fun _ => 0, ρ⟩ (fun r => ∀ c : Dev nD, QYc m ρ c r.2) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := QYc m ρ)
    (hfin := fun c s' => by
      unfold QYc
      iintro ⟨⟨Ha, Hrest, -⟩, HSI⟩
      ihave H1 := (Pipeline.RDat.arrays_read (p := 1) (pcfgs (F := F)) adm (rdats m ρ) launch1.arr_whole c cfg1.N s') $$ [Ha HSI]
      · isplitl [Ha] <;> iassumption
      icases H1 with ⟨%h1, HSI⟩
      unfold Pipeline.unscopedRest
      ihave H2 := (pointsTo_read_all ((Finset.univ.filter fun b : Ref sig .tc => ¬ b.isScoped) \ Finset.univ.image (Pipeline.arrRef spec1))
        (fun b => ((c.tc : Thread nD τ).loc b)) (E2 m ρ c) s') $$ [Hrest HSI]
      · isplitl [Hrest] <;> iassumption
      icases H2 with ⟨%h2, HSI⟩
      imodintro
      isplitr
      · ipureintro; exact ⟨h1, h2⟩
      iexact HSI)
    (hQ := fun s h c => h c)

end Cert.KernelIdeal.Hand

end
-- ==== Proof.Frame.lean ====
import proofs.«104058_g24721831756232_cont_sun_m_69_41_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What the run leaves: the arguments as launched, and the result array block by block -/

open Idealize.ShloMosaic.ValueIdx

variable (m : (ℓ : Loc nD τ sig) → Buf (Elt F) ℓ) (ρ : Dev nD → PrngReg)

/-- No host operation writes a buffer outside its six results. -/
theorem E1_of (c : Dev nD) (r : Ref sig .tc) (h : r ∉ Gen.hostOps0_W) : E1 m ρ c r = m ((c : Thread nD τ).loc r) :=
  Gen.V1_of m c r h
/-- The first call changes only its two result arrays: a buffer that is none of its windows' arrays, -/
theorem E2_of_ne (c : Dev nD) (b : Ref sig .tc) (hb : ∀ w, Pipeline.arrRef spec0 w ≠ b) : E2 m ρ c b = E1 m ρ c b :=
  W2_of_ne m ρ c b hb
/-- and an input window's array, are as it found them. -/
theorem E2_arr_in (c : Dev nD) (w : Fin cfg0.W) (hin : (cfg0.win w).isOut = false) :
    E2 m ρ c (Pipeline.arrRef spec0 w) = E1 m ρ c (Pipeline.arrRef spec0 w) :=
  (W2_arr m ρ c w).trans (((dat0 (E1 m ρ) c).arrAt_in w hin _).trans (A_eq0 (E1 m ρ) c w))

theorem mem_rest1 (b : Ref sig .tc) (h1 : ¬ b.isScoped) (h2 : b ∉ Finset.univ.image (Pipeline.arrRef spec1)) :
    b ∈ ((Finset.univ.filter fun b : Ref sig .tc => ¬ b.isScoped) \ Finset.univ.image (Pipeline.arrRef spec1)) :=
  Finset.mem_sdiff.mpr ⟨Finset.mem_filter.mpr ⟨Finset.mem_univ _, h1⟩, h2⟩

/-- Every argument array ends as launched. -/
theorem kept (c : Dev nD) (s : MemSt nD τ sig (Elt F)) (h : QYc m ρ c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7) :=
  ⟨(h.2 main_arg0 (mem_rest1 _ (by decide) (by decide))).trans ((E2_arr_in m ρ c 0 rfl).trans (E1_of m ρ c main_arg0 (by decide))),
   (h.2 main_arg1 (mem_rest1 _ (by decide) (by decide))).trans ((E2_arr_in m ρ c 1 rfl).trans (E1_of m ρ c main_arg1 (by decide))),
   (h.2 main_arg2 (mem_rest1 _ (by decide) (by decide))).trans ((E2_of_ne m ρ c main_arg2 (by decide)).trans (E1_of m ρ c main_arg2 (by decide))),
   (h.2 main_arg3 (mem_rest1 _ (by decide) (by decide))).trans ((E2_of_ne m ρ c main_arg3 (by decide)).trans (E1_of m ρ c main_arg3 (by decide))),
   (h.2 main_arg4 (mem_rest1 _ (by decide) (by decide))).trans ((E2_of_ne m ρ c main_arg4 (by decide)).trans (E1_of m ρ c main_arg4 (by decide))),
   (h.2 main_arg5 (mem_rest1 _ (by decide) (by decide))).trans ((E2_of_ne m ρ c main_arg5 (by decide)).trans (E1_of m ρ c main_arg5 (by decide))),
   (h.2 main_arg6 (mem_rest1 _ (by decide) (by decide))).trans ((E2_of_ne m ρ c main_arg6 (by decide)).trans (E1_of m ρ c main_arg6 (by decide))),
   (h.2 main_arg7 (mem_rest1 _ (by decide) (by decide))).trans ((E2_of_ne m ρ c main_arg7 (by decide)).trans (E1_of m ρ c main_arg7 (by decide)))⟩

/-- THE FRAME: every weakly fair execution of @main terminates, nothing faulting, with the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept m ρ c r.2 (h c)) (run_main m ρ)

end Cert.KernelIdeal.Hand

end
-- ==== Proof.ArrRead1.lean ====
import proofs.«104058_g24721831756232_cont_sun_m_69_41_alg».proof.Proof.R1Base
import Idealize.ShloMosaic.Lib.Pipeline.Cells
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # What the second call's result array holds at the end, read at an index

The output window's block at point `t` is rows `1000·(t mod 10) … 1000·(t mod 10) + 999` of the result array, and
every point writes its block back. The second-pass points `10 … 19` visit the ten blocks once each, after every
first-pass point, so whatever the first pass wrote is overwritten: if the body leaves `o t` in the output buffer
at every second-pass point `t`, row `r` of the array ends as row `r mod 1000` of `o (10 + r / 1000)`. -/

/-- The output window's block index at point `t` is `(t mod 10, 0)`. -/
theorem idx1_4 : ∀ t : Fin cfg1.N, win1_4.index t (0 : Fin 2) = t.val % 10 ∧ win1_4.index t (1 : Fin 2) = 0 :=
  (by decide +kernel : ∀ t : Fin grid1.N, win1_4.index t (0 : Fin 2) = t.val % 10 ∧ win1_4.index t (1 : Fin 2) = 0)

/-- An index of the array is in point `t`'s block iff each coordinate is in the block's range on its axis. -/
theorem mem_blk1_4 (t : Fin cfg1.N) (i : S10000x128.Idx) :
    i ∈ ((cfg1.win 4).blk t).view.set ↔ ∀ a : Fin 2, win1_4.index t a * S1000x128.size a ≤ (i a).val ∧ (i a).val < win1_4.index t a * S1000x128.size a + S1000x128.size a := by
  show i ∈ ((View.whole main_v7).slice (win1_4.rect t)).set ↔ _
  rw [View.set_slice_whole, Rect.mem_set_unit]
  exact Iff.rfl

/-- After the write-backs of the points below `n`, every second-pass point `u < n` still has its block in the array:
    the element under the block's index `y` is `o u` at `y`. The write-back of point `n` puts `o n` there when
    `u = n`; when `u < n` it writes rows `1000·(n mod 10) …`, which are not rows of block `u mod 10`, since two
    different points of `10 … 19` differ mod 10. -/
theorem arrAt1_4_inv {c : Dev nD} (rd : Pipeline.RDat τ (Elt F) Unit ℕ (UR sig nD τ) ℕ cfg1 c)
    (o : Fin cfg1.N → Vec F S1000x128 .f32)
    (hafter : ∀ (t : Fin cfg1.N) (Y X : Vec F S1000x128 .f32), rd.after 4 t Y X → 10 ≤ t.val → X = o t) :
    ∀ (n : Nat), n ≤ cfg1.N → ∀ (G : Buf (Elt F) ((cfg1.win 4).arr.view.loc (c.tc : Thread nD τ))), rd.ArrAt 4 n G →
      ∀ (u : Fin cfg1.N), 10 ≤ u.val → u.val < n → ∀ y : ((cfg1.win 4).xblock (cfg1.grid.coords u)).Idx,
        G (((cfg1.win 4).blk u).view.emb y)
          = _root_.cast (congrArg (Elt F) ((cfg1.win 4).blk u).view.elt_eq.symm) ((cfg1.win 4).cut (cfg1.grid.coords u) (o u) y)
  | 0, _, _, _, _, _, hu, _ => absurd hu (Nat.not_lt_zero _)
  | n + 1, hn, G, hG, u, h10, hu, y => by
    have hN : cfg1.N = 20 := N_1
    have hnN : n < cfg1.N := by omega
    rw [show n + 1 = (⟨n, hnN⟩ : Fin cfg1.N).val + 1 from rfl, rd.ArrAt_succ 4 ⟨n, hnN⟩, if_pos (flush1_4 ⟨n, hnN⟩)] at hG
    obtain ⟨G₀, X, hG₀, ⟨Y, hY, hYX⟩, rfl⟩ := hG
    by_cases hun : u.val = n
    · -- the block just written back: what the body left, which is `o n`
      have e : u = ⟨n, hnN⟩ := Fin.ext hun
      subst e
      rw [View.write_emb_of_mem _ _ (Finset.mem_univ y), hafter _ Y X hYX h10]
    · -- an earlier second-pass block: its rows are not among the rows written now
      have hlt : u.val < n := by omega
      rw [View.write_of_not_mem]
      · exact arrAt1_4_inv rd o hafter n (by omega) G₀ hG₀ u h10 hlt y
      · rw [View.setOn_univ, mem_blk1_4]
        intro h
        have h0 : win1_4.index ⟨n, hnN⟩ (0 : Fin 2) * 1000 ≤ (((cfg1.win 4).blk u).view.emb y (0 : Fin 2)).val
            ∧ (((cfg1.win 4).blk u).view.emb y (0 : Fin 2)).val < win1_4.index ⟨n, hnN⟩ (0 : Fin 2) * 1000 + 1000 := h 0
        have e0 : (((cfg1.win 4).blk u).view.emb y (0 : Fin 2)).val = win1_4.index u (0 : Fin 2) * 1000 + 1 * (y (0 : Fin 2)).val := rfl
        have hy : (y (0 : Fin 2)).val < 1000 := (y (0 : Fin 2)).isLt
        have i1 := (idx1_4 u).1
        have i2 := (idx1_4 ⟨n, hnN⟩).1
        rw [e0, i1, i2] at h0
        have : (⟨n, hnN⟩ : Fin cfg1.N).val = n := rfl
        omega

/-- The result array after the whole grid, read at row `r` and column `q`: row `r mod 1000` of what the body left at
    the second-pass point `10 + r / 1000`. -/
theorem arrAt1_4_read {c : Dev nD} (rd : Pipeline.RDat τ (Elt F) Unit ℕ (UR sig nD τ) ℕ cfg1 c)
    (o : Fin cfg1.N → Vec F S1000x128 .f32)
    (hafter : ∀ (t : Fin cfg1.N) (Y X : Vec F S1000x128 .f32), rd.after 4 t Y X → 10 ≤ t.val → X = o t)
    (G : Buf (Elt F) ((cfg1.win 4).arr.view.loc (c.tc : Thread nD τ))) (hG : rd.ArrAt 4 cfg1.N G)
    (r : Fin 10000) (q : Fin 128) :
    (cfg1.win 4).arr.view.read (Elt F) G (ValueIdx.ix2 r q)
      = o ⟨10 + r.val / 1000, (by have h : cfg1.N = 20 := N_1; have := r.isLt; omega)⟩
          (ValueIdx.ix2 (⟨r.val % 1000, Nat.mod_lt _ (by decide)⟩ : Fin 1000) q) := by
  have hN : cfg1.N = 20 := N_1
  have hr : r.val < 10000 := r.isLt
  have hu : 10 + r.val / 1000 < cfg1.N := by omega
  have key := arrAt1_4_inv rd o hafter cfg1.N (Nat.le_refl _) G hG ⟨10 + r.val / 1000, hu⟩ (Nat.le_add_right _ _) hu
    (ValueIdx.ix2 (⟨r.val % 1000, Nat.mod_lt _ (by decide)⟩ : Fin 1000) q)
  -- the element of block `r / 1000` at row `r mod 1000` sits at row `r` of the array
  have hemb : ((cfg1.win 4).blk ⟨10 + r.val / 1000, hu⟩).view.emb (ValueIdx.ix2 (⟨r.val % 1000, Nat.mod_lt _ (by decide)⟩ : Fin 1000) q)
      = (cfg1.win 4).arr.view.emb (ValueIdx.ix2 r q) := by
    have i1 := idx1_4 ⟨10 + r.val / 1000, hu⟩
    funext a
    apply Fin.ext
    match a with
    | ⟨0, _⟩ =>
      show win1_4.index ⟨10 + r.val / 1000, hu⟩ (0 : Fin 2) * 1000 + 1 * (r.val % 1000) = r.val
      rw [i1.1]
      show (10 + r.val / 1000) % 10 * 1000 + 1 * (r.val % 1000) = r.val
      omega
    | ⟨1, _⟩ =>
      show win1_4.index ⟨10 + r.val / 1000, hu⟩ (1 : Fin 2) * 128 + 1 * q.val = q.val
      rw [i1.2]
      omega
  rw [View.read_apply, ← hemb, key, cast_cast, cast_eq]
  rfl

end Cert.KernelIdeal.Hand

end
-- ==== Proof.OutRead.lean ====
import proofs.«104058_g24721831756232_cont_sun_m_69_41_alg».proof.Proof.Frame
import proofs.«104058_g24721831756232_cont_sun_m_69_41_alg».proof.Proof.ArrRead1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The result array at the end, read at an index -/

open Idealize.ShloMosaic.ValueIdx

variable (m : (ℓ : Loc nD τ sig) → Buf (Elt F) ℓ) (ρ : Dev nD → PrngReg)

/-- The result array at the end, row `r`: what the second-pass point `10 + r / 1000` left at row `r % 1000`. -/
theorem out_read (c : Dev nD) (s : MemSt nD τ sig (Elt F)) (h : QYc m ρ c s) (r : Fin 10000) (q : Fin 128) :
    (cfg1.win 4).arr.view.read (Elt F) (s.mem ((cfg1.win 4).arr.view.loc (c.tc : Thread nD τ))) (ix2 r q)
      = out1_B (E2 m ρ) c ⟨10 + r.val / 1000, (by have h : cfg1.N = 20 := N_1; have := r.isLt; omega)⟩ (Nat.le_add_right 10 _)
          (ix2 (⟨r.val % 1000, Nat.mod_lt _ (by decide)⟩ : Fin 1000) q) := by
  have hr := arrAt1_4_read (rdat1 (E2 m ρ) c)
    (fun t => if h10 : 10 ≤ t.val then out1_B (E2 m ρ) c t h10 else VO1_4.read (Elt F) VO1_4.junk)
    (fun t Y X ha h10 => by
      dsimp only [rdat1] at ha
      rw [ha h10, dif_pos h10])
    _ (h.1 4) r q
  refine hr.trans ?_
  rw [dif_pos (show 10 ≤ 10 + r.val / 1000 from Nat.le_add_right 10 _)]

end Cert.KernelIdeal.Hand

end
-- ==== Proof.R0Value.lean ====
import proofs.«104058_g24721831756232_cont_sun_m_69_41_alg».proof.Proof.R0Body
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pallas_call: its buffers as payloads of blocks, and its two result arrays read at an index

Each buffer the body stores into is stored whole, once, through the rectangle of all its indices at zero offsets; a
whole buffer loaded whole reads its contents. So what the body leaves in a buffer is the payload of the contents of the
buffers it loaded, and the scratch read back after its one store is that store's payload. -/

/-- The zero offsets of a matrix, as the constant function. -/
theorem zero_off2 : (![0, 0] : Fin 2 → Nat) = fun _ => 0 := funext fun a => by fin_cases a <;> rfl

/-- A whole buffer holding `x`, loaded whole, reads `x`. -/
theorem readAt_whole_unread {S : Shape} {e : EltTy} (m : Memref sig .tc .vmem S e) (hm : m.IsWhole)
    {off : Fin S.rank → Nat} (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h]

/-! ## What each run leaves, over the contents of the loaded buffers -/

/-- At the first point the scratch is left with the first payload of the features, the first weights and the first
    bias. -/
theorem runA_scratch (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S400x10000 .bf16) (harg8 : arg8.IsWhole) (arg9 : Memref sig .tc .vmem S10000x128 .bf16) (harg9 : arg9.IsWhole) (hc0 : cond0_0 i) (x0 : Vec F S10000x128 .f32) (x1 : Vec F S400x10000 .f32) (x2 : Vec F S128x128 .bf16) (x3 : Vec F S1x128 .f32) (x4 : Vec F S128x128 .bf16) (x5 : Vec F S1x128 .f32) :
    View.canon (kernelRun0_A c i arg1 harg1 arg2 harg2 arg3 harg3 arg4 harg4 arg5 harg5 arg6 harg6 arg7 harg7 arg8 harg8 arg9 harg9 hc0 x0 x1 x2 x3 x4 x5).2.2.1 = k0_pay1 x0 x2 x3 := by
  unfold kernelRun0_A
  dsimp only
  sl_unfold_words
  rw [View.canon_unit_zero zero_off2]
  simp only [readAt_whole_unread (S := S10000x128) _ _ zero_off2, readAt_whole_unread (S := S400x10000) _ _ zero_off2, readAt_whole_unread (S := S128x128) _ _ zero_off2, readAt_whole_unread (S := S1x128) _ _ zero_off2]

/-- At the first point the first output is left with the third payload of the adjacency block, of the scratch just
    stored (read back: its one store's payload), and of the second weights and bias. -/
theorem runA_out6 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S400x10000 .bf16) (harg8 : arg8.IsWhole) (arg9 : Memref sig .tc .vmem S10000x128 .bf16) (harg9 : arg9.IsWhole) (hc0 : cond0_0 i) (x0 : Vec F S10000x128 .f32) (x1 : Vec F S400x10000 .f32) (x2 : Vec F S128x128 .bf16) (x3 : Vec F S1x128 .f32) (x4 : Vec F S128x128 .bf16) (x5 : Vec F S1x128 .f32) :
    View.canon (kernelRun0_A c i arg1 harg1 arg2 harg2 arg3 harg3 arg4 harg4 arg5 harg5 arg6 harg6 arg7 harg7 arg8 harg8 arg9 harg9 hc0 x0 x1 x2 x3 x4 x5).1 = k0_pay3 x1 (k0_pay1 x0 x2 x3) x4 x5 := by
  unfold kernelRun0_A
  dsimp only
  sl_unfold_words
  rw [View.canon_unit_zero zero_off2, View.readCov_unit_zero _ zero_off2]
  simp only [readAt_whole_unread (S := S10000x128) _ _ zero_off2, readAt_whole_unread (S := S400x10000) _ _ zero_off2, readAt_whole_unread (S := S128x128) _ _ zero_off2, readAt_whole_unread (S := S1x128) _ _ zero_off2]

/-- At the first point the second output is left with the second payload of the adjacency block. -/
theorem runA_out7 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S400x10000 .bf16) (harg8 : arg8.IsWhole) (arg9 : Memref sig .tc .vmem S10000x128 .bf16) (harg9 : arg9.IsWhole) (hc0 : cond0_0 i) (x0 : Vec F S10000x128 .f32) (x1 : Vec F S400x10000 .f32) (x2 : Vec F S128x128 .bf16) (x3 : Vec F S1x128 .f32) (x4 : Vec F S128x128 .bf16) (x5 : Vec F S1x128 .f32) :
    View.canon (kernelRun0_A c i arg1 harg1 arg2 harg2 arg3 harg3 arg4 harg4 arg5 harg5 arg6 harg6 arg7 harg7 arg8 harg8 arg9 harg9 hc0 x0 x1 x2 x3 x4 x5).2.1 = k0_pay2 x1 := by
  unfold kernelRun0_A
  dsimp only
  sl_unfold_words
  rw [View.canon_unit_zero zero_off2]
  simp only [readAt_whole_unread (S := S10000x128) _ _ zero_off2, readAt_whole_unread (S := S400x10000) _ _ zero_off2, readAt_whole_unread (S := S128x128) _ _ zero_off2, readAt_whole_unread (S := S1x128) _ _ zero_off2]

/-- At a later point the first output is left with the third payload of the adjacency block, of the scratch as the
    point finds it, and of the second weights and bias. -/
theorem runB_out6 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S400x10000 .bf16) (harg8 : arg8.IsWhole) (arg9 : Memref sig .tc .vmem S10000x128 .bf16) (harg9 : arg9.IsWhole) (hc0 : ¬cond0_0 i) (x0 : Vec F S10000x128 .f32) (x1 : Vec F S400x10000 .f32) (x2 : Vec F S128x128 .bf16) (x3 : Vec F S1x128 .f32) (x4 : Vec F S128x128 .bf16) (x5 : Vec F S1x128 .f32) (xs0 : Vec F S10000x128 .bf16) :
    View.canon (kernelRun0_B c i arg1 harg1 arg2 harg2 arg3 harg3 arg4 harg4 arg5 harg5 arg6 harg6 arg7 harg7 arg8 harg8 arg9 harg9 hc0 x0 x1 x2 x3 x4 x5 xs0).1 = k0_pay3 x1 xs0 x4 x5 := by
  unfold kernelRun0_B
  dsimp only
  sl_unfold_words
  rw [View.canon_unit_zero zero_off2]
  simp only [readAt_whole_unread (S := S10000x128) _ _ zero_off2, readAt_whole_unread (S := S400x10000) _ _ zero_off2, readAt_whole_unread (S := S128x128) _ _ zero_off2, readAt_whole_unread (S := S1x128) _ _ zero_off2]

/-- At a later point the second output is left with the second payload of the adjacency block. -/
theorem runB_out7 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S400x128 .bf16) (harg7 : arg7.IsWhole) (arg8 : Memref sig .tc .vmem S400x10000 .bf16) (harg8 : arg8.IsWhole) (arg9 : Memref sig .tc .vmem S10000x128 .bf16) (harg9 : arg9.IsWhole) (hc0 : ¬cond0_0 i) (x0 : Vec F S10000x128 .f32) (x1 : Vec F S400x10000 .f32) (x2 : Vec F S128x128 .bf16) (x3 : Vec F S1x128 .f32) (x4 : Vec F S128x128 .bf16) (x5 : Vec F S1x128 .f32) (xs0 : Vec F S10000x128 .bf16) :
    View.canon (kernelRun0_B c i arg1 harg1 arg2 harg2 arg3 harg3 arg4 harg4 arg5 harg5 arg6 harg6 arg7 harg7 arg8 harg8 arg9 harg9 hc0 x0 x1 x2 x3 x4 x5 xs0).2.1 = k0_pay2 x1 := by
  unfold kernelRun0_B
  dsimp only
  sl_unfold_words
  rw [View.canon_unit_zero zero_off2]
  simp only [readAt_whole_unread (S := S10000x128) _ _ zero_off2, readAt_whole_unread (S := S400x10000) _ _ zero_off2, readAt_whole_unread (S := S128x128) _ _ zero_off2, readAt_whole_unread (S := S1x128) _ _ zero_off2]

/-! ## The buffers after each point, as payloads of the point's blocks -/

section
variable (V : (c : Dev nD) → (b : Ref sig .tc) → Buf (Elt F) ((c : Thread nD τ).loc b))

/-- The scratch after the first point (and ever after) is the first payload of the first point's blocks of the
    features, the first weights and the first bias. -/
theorem sc0_eq (c : Dev nD) : sc0 V c = k0_pay1 (iblk0 V c 0 t₀) (iblk0 V c 2 t₀) (iblk0 V c 3 t₀) := by
  unfold sc0
  exact (View.read_writes_junk_eq_canon VS0 _).trans
    (runA_scratch c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀))

/-- The first output after the first point: the scratch the body reads back is `sc0` itself. -/
theorem out0_A_6_eq (c : Dev nD) :
    out0_A_6 V c = k0_pay3 (iblk0 V c 1 t₀) (sc0 V c) (iblk0 V c 4 t₀) (iblk0 V c 5 t₀) := by
  rw [sc0_eq]
  unfold out0_A_6
  exact (View.read_writes_junk_eq_canon VO0_6 _).trans
    (runA_out6 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀))

/-- The second output after the first point. -/
theorem out0_A_7_eq (c : Dev nD) : out0_A_7 V c = k0_pay2 (iblk0 V c 1 t₀) := by
  unfold out0_A_7
  exact (View.read_writes_junk_eq_canon VO0_7 _).trans
    (runA_out7 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0 (Memref.isWhole_whole _) hc_t₀ (iblk0 V c 0 t₀) (iblk0 V c 1 t₀) (iblk0 V c 2 t₀) (iblk0 V c 3 t₀) (iblk0 V c 4 t₀) (iblk0 V c 5 t₀))

/-- The first output after a later point. -/
theorem out0_B_6_eq (c : Dev nD) (t : Fin cfg0.N) (hc : ¬cond0_0 (grid0.coords t)) :
    out0_B_6 V c t hc = k0_pay3 (iblk0 V c 1 t) (sc0 V c) (iblk0 V c 4 t) (iblk0 V c 5 t) := by
  unfold out0_B_6
  exact (View.read_writes_junk_eq_canon VO0_6 _).trans
    (runB_out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c))

/-- The second output after a later point. -/
theorem out0_B_7_eq (c : Dev nD) (t : Fin cfg0.N) (hc : ¬cond0_0 (grid0.coords t)) :
    out0_B_7 V c t hc = k0_pay2 (iblk0 V c 1 t) := by
  unfold out0_B_7
  exact (View.read_writes_junk_eq_canon VO0_7 _).trans
    (runB_out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) hc (iblk0 V c 0 t) (iblk0 V c 1 t) (iblk0 V c 2 t) (iblk0 V c 3 t) (iblk0 V c 4 t) (iblk0 V c 5 t) (sc0 V c))

/-- The two outputs after any point: the third payload of the point's adjacency block, the scratch and the second
    weights and bias; and the second payload of the adjacency block. -/
theorem outs0_eq (c : Dev nD) (t : Fin cfg0.N) :
    outs0 V c t = (k0_pay3 (iblk0 V c 1 t) (sc0 V c) (iblk0 V c 4 t) (iblk0 V c 5 t), k0_pay2 (iblk0 V c 1 t)) := by
  by_cases hz : t.val = 0
  · obtain rfl : t = t₀ := Fin.ext hz
    rw [show outs0 V c t₀ = (out0_A_6 V c, out0_A_7 V c) from dif_pos rfl, out0_A_6_eq, out0_A_7_eq]
  · have hc : ¬cond0_0 (grid0.coords t) := fun hc => hz ((hcond0_0 t).mp hc)
    rw [show outs0 V c t = (out0_B_6 V c t hc, out0_B_7 V c t hc) from dif_neg hz, out0_B_6_eq, out0_B_7_eq]

/-! ## The two result arrays at the end of the call, read at an index

The two output windows walk the 25 blocks of 400 rows of their arrays, one block per point, written back at every
point; the blocks tile the arrays. So each array ends holding, at row `r`, row `r % 400` of what point `r / 400` left in
the window's output buffer. -/

/-- The row block of a row of the arrays: 25 blocks of 400 rows. -/
theorem row_block_lt (r : ℕ) (h : r < 10000) : r / 400 < cfg0.N := by
  rw [show cfg0.N = 25 from N_0]; omega

/-- The printed index maps of the two output windows, decided over the grid: the block of point `t` is row block `t`,
    column block `0`. -/
theorem idx_facts6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx_facts7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- The first result array as one function of its index: row `r`, column `k` is row `r % 400`, column `k` of what
    point `r / 400` leaves in the first output buffer. -/
def G6 (c : Dev nD) : S10000x128.Idx → Elt F .bf16 := fun idx =>
  (outs0 V c ⟨(idx 0).val / 400, row_block_lt _ (idx 0).isLt⟩).1
    (ValueIdx.ix2 (⟨(idx 0).val % 400, Nat.mod_lt _ (by decide)⟩ : Fin 400) (⟨(idx 1).val, (idx 1).isLt⟩ : Fin 128))

/-- At row `t * 400 + p` it reads row `p` of what point `t` leaves. -/
theorem G6_at (c : Dev nD) (t : Fin cfg0.N) (p : Fin 400) (q : Fin 128) (idx : S10000x128.Idx)
    (h0 : (idx 0).val = t.val * 400 + p.val) (h1 : (idx 1).val = q.val) :
    G6 V c idx = (outs0 V c t).1 (ValueIdx.ix2 p q) := by
  unfold G6
  have e : (⟨(idx 0).val / 400, row_block_lt _ (idx 0).isLt⟩ : Fin cfg0.N) = t :=
    Fin.ext (by show (idx 0).val / 400 = t.val; have := p.isLt; omega)
  have ep : (⟨(idx 0).val % 400, Nat.mod_lt _ (by decide)⟩ : Fin 400) = p :=
    Fin.ext (by show (idx 0).val % 400 = p.val; have := p.isLt; omega)
  have eq : (⟨(idx 1).val, (idx 1).isLt⟩ : Fin 128) = q := Fin.ext h1
  rw [e, ep, eq]

/-- What point `t` writes back to the first result array is block `t` of that function: an element of the block sits
    in the array at row `t * 400 +` its row and at its own column. -/
theorem flushed6_eq (c : Dev nD) (t : Fin cfg0.N) :
    (dat0 V c).flushed 6 t = ((cfg0.win 6).blk t).view.read (Elt F) (G6 V c) := by
  show (cfg0.win 6).cut (grid0.coords t) ((dat0 V c).after 6 t) = _
  rw [after0_6]
  funext y
  obtain ⟨e0, e1⟩ := idx_facts6 t
  show (outs0 V c t).1 (win0_6.xinj (grid0.coords t) y) = G6 V c (((cfg0.win 6).blk t).view.emb y)
  refine ((G6_at V c t ⟨(y 0).val, (y 0).isLt⟩ ⟨(y 1).val, (y 1).isLt⟩ (((cfg0.win 6).blk t).view.emb y) ?_ ?_).trans ?_).symm
  · show win0_6.index t (0 : Fin 2) * 400 + 1 * (y 0).val = t.val * 400 + (y 0).val
    rw [e0]; omega
  · show win0_6.index t (1 : Fin 2) * 128 + 1 * (y 1).val = (y 1).val
    rw [e1]; omega
  · exact congrArg (outs0 V c t).1 (funext fun a => by
      match a with
      | ⟨0, _⟩ => rfl
      | ⟨1, _⟩ => rfl)

/-- An index of the first result array is in point `t`'s block iff each coordinate is in the block's range. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v6_0).slice (win0_6.rect t)).set ↔ _
  rw [View.set_slice_whole, Rect.mem_set_unit]
  exact Iff.rfl

/-- Every index of the first result array is in some point's block: row `r` is in the block of point `r / 400`. -/
theorem cover6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  refine ⟨⟨(i 0).val / 400, row_block_lt _ hi0⟩, flush0_6 _, ?_⟩
  rw [mem_blk6]
  obtain ⟨e0, e1⟩ := idx_facts6 ⟨(i 0).val / 400, row_block_lt _ hi0⟩
  intro a
  match a with
  | ⟨0, _⟩ =>
    show win0_6.index ⟨(i 0).val / 400, row_block_lt _ hi0⟩ (0 : Fin 2) * 400 ≤ (i 0).val ∧ (i 0).val < win0_6.index ⟨(i 0).val / 400, row_block_lt _ hi0⟩ (0 : Fin 2) * 400 + 400
    rw [e0]; show (i 0).val / 400 * 400 ≤ (i 0).val ∧ (i 0).val < (i 0).val / 400 * 400 + 400; omega
  | ⟨1, _⟩ =>
    show win0_6.index ⟨(i 0).val / 400, row_block_lt _ hi0⟩ (1 : Fin 2) * 128 ≤ (i 1).val ∧ (i 1).val < win0_6.index ⟨(i 0).val / 400, row_block_lt _ hi0⟩ (1 : Fin 2) * 128 + 128
    rw [e1]; omega

/-- So the first result array ends holding that function. -/
theorem final6 (c : Dev nD) : (dat0 V c).arrAt 6 cfg0.N = G6 V c :=
  (dat0 V c).arrAt_eq_of_cover 6 (G6 V c) (fun t _ => flushed6_eq V c t) cover6

/-- The first result array after the call, read at row `r` and column `q`: row `r % 400` of what point `r / 400` leaves
    in the first output buffer. -/
theorem arr0_6_read (c : Dev nD) (r : Fin 10000) (q : Fin 128) :
    (cfg0.win 6).arr.view.read (Elt F) ((dat0 V c).arrAt 6 cfg0.N) (ValueIdx.ix2 r q)
      = (outs0 V c ⟨r.val / 400, row_block_lt _ r.isLt⟩).1 (ValueIdx.ix2 (⟨r.val % 400, Nat.mod_lt _ (by decide)⟩ : Fin 400) q) := by
  rw [final6]
  rfl

/-- The second result array as one function of its index: row `r`, column `k` is row `r % 400`, column `k` of what
    point `r / 400` leaves in the second output buffer. -/
def G7 (c : Dev nD) : S10000x10000.Idx → Elt F .bf16 := fun idx =>
  (outs0 V c ⟨(idx 0).val / 400, row_block_lt _ (idx 0).isLt⟩).2
    (ValueIdx.ix2 (⟨(idx 0).val % 400, Nat.mod_lt _ (by decide)⟩ : Fin 400) (⟨(idx 1).val, (idx 1).isLt⟩ : Fin 10000))

/-- At row `t * 400 + p` it reads row `p` of what point `t` leaves. -/
theorem G7_at (c : Dev nD) (t : Fin cfg0.N) (p : Fin 400) (q : Fin 10000) (idx : S10000x10000.Idx)
    (h0 : (idx 0).val = t.val * 400 + p.val) (h1 : (idx 1).val = q.val) :
    G7 V c idx = (outs0 V c t).2 (ValueIdx.ix2 p q) := by
  unfold G7
  have e : (⟨(idx 0).val / 400, row_block_lt _ (idx 0).isLt⟩ : Fin cfg0.N) = t :=
    Fin.ext (by show (idx 0).val / 400 = t.val; have := p.isLt; omega)
  have ep : (⟨(idx 0).val % 400, Nat.mod_lt _ (by decide)⟩ : Fin 400) = p :=
    Fin.ext (by show (idx 0).val % 400 = p.val; have := p.isLt; omega)
  have eq : (⟨(idx 1).val, (idx 1).isLt⟩ : Fin 10000) = q := Fin.ext h1
  rw [e, ep, eq]

/-- What point `t` writes back to the second result array is block `t` of that function: an element of the block sits
    in the array at row `t * 400 +` its row and at its own column. -/
theorem flushed7_eq (c : Dev nD) (t : Fin cfg0.N) :
    (dat0 V c).flushed 7 t = ((cfg0.win 7).blk t).view.read (Elt F) (G7 V c) := by
  show (cfg0.win 7).cut (grid0.coords t) ((dat0 V c).after 7 t) = _
  rw [after0_7]
  funext y
  obtain ⟨e0, e1⟩ := idx_facts7 t
  show (outs0 V c t).2 (win0_7.xinj (grid0.coords t) y) = G7 V c (((cfg0.win 7).blk t).view.emb y)
  refine ((G7_at V c t ⟨(y 0).val, (y 0).isLt⟩ ⟨(y 1).val, (y 1).isLt⟩ (((cfg0.win 7).blk t).view.emb y) ?_ ?_).trans ?_).symm
  · show win0_7.index t (0 : Fin 2) * 400 + 1 * (y 0).val = t.val * 400 + (y 0).val
    rw [e0]; omega
  · show win0_7.index t (1 : Fin 2) * 10000 + 1 * (y 1).val = (y 1).val
    rw [e1]; omega
  · exact congrArg (outs0 V c t).2 (funext fun a => by
      match a with
      | ⟨0, _⟩ => rfl
      | ⟨1, _⟩ => rfl)

/-- An index of the second result array is in point `t`'s block iff each coordinate is in the block's range. -/
theorem mem_blk7 (t : Fin cfg0.N) (i : S10000x10000.Idx) :
    i ∈ ((cfg0.win 7).blk t).view.set ↔ ∀ a : Fin 2, win0_7.index t a * S400x10000.size a ≤ (i a).val ∧ (i a).val < win0_7.index t a * S400x10000.size a + S400x10000.size a := by
  show i ∈ ((View.whole main_v6_1).slice (win0_7.rect t)).set ↔ _
  rw [View.set_slice_whole, Rect.mem_set_unit]
  exact Iff.rfl

/-- Every index of the second result array is in some point's block: row `r` is in the block of point `r / 400`. -/
theorem cover7 (i : S10000x10000.Idx) :
    ∃ t : Fin cfg0.N, (cfg0.win 7).flush t = true ∧ i ∈ ((cfg0.win 7).blk t).view.set := by
  have hi0 : (i 0).val < 10000 := (i 0).isLt
  have hi1 : (i 1).val < 10000 := (i 1).isLt
  refine ⟨⟨(i 0).val / 400, row_block_lt _ hi0⟩, flush0_7 _, ?_⟩
  rw [mem_blk7]
  obtain ⟨e0, e1⟩ := idx_facts7 ⟨(i 0).val / 400, row_block_lt _ hi0⟩
  intro a
  match a with
  | ⟨0, _⟩ =>
    show win0_7.index ⟨(i 0).val / 400, row_block_lt _ hi0⟩ (0 : Fin 2) * 400 ≤ (i 0).val ∧ (i 0).val < win0_7.index ⟨(i 0).val / 400, row_block_lt _ hi0⟩ (0 : Fin 2) * 400 + 400
    rw [e0]; show (i 0).val / 400 * 400 ≤ (i 0).val ∧ (i 0).val < (i 0).val / 400 * 400 + 400; omega
  | ⟨1, _⟩ =>
    show win0_7.index ⟨(i 0).val / 400, row_block_lt _ hi0⟩ (1 : Fin 2) * 10000 ≤ (i 1).val ∧ (i 1).val < win0_7.index ⟨(i 0).val / 400, row_block_lt _ hi0⟩ (1 : Fin 2) * 10000 + 10000
    rw [e1]; omega

/-- So the second result array ends holding that function. -/
theorem final7 (c : Dev nD) : (dat0 V c).arrAt 7 cfg0.N = G7 V c :=
  (dat0 V c).arrAt_eq_of_cover 7 (G7 V c) (fun t _ => flushed7_eq V c t) cover7

/-- The second result array after the call, read at row `r` and column `k`: row `r % 400` of what point `r / 400` leaves
    in the second output buffer. -/
theorem arr0_7_read (c : Dev nD) (r : Fin 10000) (k : Fin 10000) :
    (cfg0.win 7).arr.view.read (Elt F) ((dat0 V c).arrAt 7 cfg0.N) (ValueIdx.ix2 r k)
      = (outs0 V c ⟨r.val / 400, row_block_lt _ r.isLt⟩).2 (ValueIdx.ix2 (⟨r.val % 400, Nat.mod_lt _ (by decide)⟩ : Fin 400) k) := by
  rw [final7]
  rfl

end

end Cert.KernelIdeal.Hand

end
-- ==== Proof.R1Value.lean ====
import proofs.«104058_g24721831756232_cont_sun_m_69_41_alg».proof.Proof.R1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second call's output buffer in the second pass, as a payload of blocks -/

/-- The second-pass body's one store, as found by running it: the whole output buffer. -/
theorem runB1_pieces (c : Dev nD) (i : grid1.Coords) (arg1 : Memref sig .tc .vmem S1000x10000 .bf16) (harg1 : arg1.IsWhole) (arg2 : Memref sig .tc .vmem S10000x128 .bf16) (harg2 : arg2.IsWhole) (arg3 : Memref sig .tc .vmem S128x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S10000x128 .bf16) (harg6 : arg6.IsWhole) (hc0 : ¬cond1_0 i) (hc1 : cond1_1 i)
    (x0 : Vec F S1000x10000 .bf16) (x1 : Vec F S10000x128 .bf16) (x2 : Vec F S128x128 .bf16) (x3 : Vec F S1x128 .f32) (xs0 : Vec F S10000x128 .bf16) :
    (kernelRun1_B c i arg1 harg1 arg2 harg2 arg3 harg3 arg4 harg4 arg5 harg5 arg6 harg6 hc0 hc1 x0 x1 x2 x3 xs0).1
      = [⟨Rect.unit (s := S1000x128) ![0, 0] S1000x128.size Gen.inb_S1000x128_S1000x128_0_0, k1_pay2 x0 xs0⟩] := by
  unfold kernelRun1_B; dsimp only
  rw [rd_whole harg1 hz2, rd_whole harg6 hz2]

section
variable (V : (c : Dev nD) → (b : Ref sig .tc) → Buf (Elt F) ((c : Thread nD τ).loc b))

/-- What a second-pass point leaves in the output buffer: its block of the adjacency times the finished scratch. -/
theorem out1_B_eq (c : Dev nD) (t : Fin cfg1.N) (h : 10 ≤ t.val) :
    out1_B V c t h = k1_pay2 (iblk1 V c 0 t) (H3all V c) := by
  unfold out1_B
  rw [runB1_pieces c (grid1.coords t) (ms1_0 t) (hs1_0 t) (ms1_1 t) (hs1_1 t) (ms1_2 t) (hs1_2 t) (ms1_3 t) (hs1_3 t) (ms1_4 t) (hs1_4 t) scM1 (Memref.isWhole_whole _) _ _ (iblk1 V c 0 t) (iblk1 V c 1 t) (iblk1 V c 2 t) (iblk1 V c 3 t) (H3all V c), View.read_writes_junk_eq_canon,
    View.canon_unit_zero hz2]

end

end Cert.KernelIdeal.Hand

end
-- ==== Proof.BlockRead.lean ====
import proofs.«104058_g24721831756232_cont_sun_m_69_41_alg».proof.Proof.R0Base
import proofs.«104058_g24721831756232_cont_sun_m_69_41_alg».proof.Proof.R1Base
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Each window's block at a point, read at an index of its array

A window's block at grid point `t` is the rectangle of its array that starts, on each axis, at the block index times the
block's size. Most windows here take their whole array at every point (block index zero on both axes), so their block at an
index is the array at that index. The two adjacency windows walk row blocks: the first call's window takes rows
`400·t … 400·t + 399` at point `t`, the second call's rows `1000·(t mod 10) … 1000·(t mod 10) + 999`. -/

theorem BlockRead.lt_N0 (t : Fin cfg0.N) : t.val < 25 := by
  have h := t.isLt; have hN : cfg0.N = 25 := Gen.N_0; omega

theorem BlockRead.lt_N1 (t : Fin cfg1.N) : t.val < 20 := by
  have h := t.isLt; have hN : cfg1.N = 20 := Gen.N_1; omega

theorem BlockRead.idx0_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- Window 0 of call 0 takes its whole array at every point: its block read at an index is the array there. -/
theorem iblk0_0 (c : Dev nD) (t : Fin cfg0.N) (i : S10000x128.Idx) :
    iblk0 V c 0 t i = (V c main_arg0 : (⟨S10000x128, .f32⟩ : BufTy).Contents (Elt F)) i := by
  obtain ⟨e0, e1⟩ := BlockRead.idx0_0 t
  unfold iblk0
  rw [View.read_apply]
  show (V c main_arg0 : (⟨S10000x128, .f32⟩ : BufTy).Contents (Elt F)) _ = (V c main_arg0 : (⟨S10000x128, .f32⟩ : BufTy).Contents (Elt F)) _
  congr 1
  funext a
  apply Fin.ext
  match a with
  | ⟨0, _⟩ => show win0_0.index t (0 : Fin 2) * 10000 + 1 * (i 0).val = (i 0).val; rw [e0]; omega
  | ⟨1, _⟩ => show win0_0.index t (1 : Fin 2) * 128 + 1 * (i 1).val = (i 1).val; rw [e1]; omega

/-- The first call's adjacency window: block index `t` on the rows, zero on the columns. -/
theorem BlockRead.idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row `p` of the first call's adjacency block at point `t` is row `400·t + p` of the adjacency. -/
theorem iblk0_1 (c : Dev nD) (t : Fin cfg0.N) (p : Fin 400) (k : Fin 10000) :
    iblk0 V c 1 t (ix2 p k) = (V c main_arg1 : (⟨S10000x10000, .f32⟩ : BufTy).Contents (Elt F)) (ix2 (⟨400 * t.val + p.val, by have := BlockRead.lt_N0 t; omega⟩ : Fin 10000) k) := by
  obtain ⟨e0, e1⟩ := BlockRead.idx0_1 t
  unfold iblk0
  rw [View.read_apply]
  show (V c main_arg1 : (⟨S10000x10000, .f32⟩ : BufTy).Contents (Elt F)) _ = (V c main_arg1 : (⟨S10000x10000, .f32⟩ : BufTy).Contents (Elt F)) _
  congr 1
  funext a
  apply Fin.ext
  match a with
  | ⟨0, _⟩ => show win0_1.index t (0 : Fin 2) * 400 + 1 * p.val = 400 * t.val + p.val; rw [e0]; omega
  | ⟨1, _⟩ => show win0_1.index t (1 : Fin 2) * 10000 + 1 * k.val = k.val; rw [e1]; omega

theorem BlockRead.idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 2 of call 0 takes its whole array at every point: its block read at an index is the array there. -/
theorem iblk0_2 (c : Dev nD) (t : Fin cfg0.N) (i : S128x128.Idx) :
    iblk0 V c 2 t i = (V c main_v3 : (⟨S128x128, .bf16⟩ : BufTy).Contents (Elt F)) i := by
  obtain ⟨e0, e1⟩ := BlockRead.idx0_2 t
  unfold iblk0
  rw [View.read_apply]
  show (V c main_v3 : (⟨S128x128, .bf16⟩ : BufTy).Contents (Elt F)) _ = (V c main_v3 : (⟨S128x128, .bf16⟩ : BufTy).Contents (Elt F)) _
  congr 1
  funext a
  apply Fin.ext
  match a with
  | ⟨0, _⟩ => show win0_2.index t (0 : Fin 2) * 128 + 1 * (i 0).val = (i 0).val; rw [e0]; omega
  | ⟨1, _⟩ => show win0_2.index t (1 : Fin 2) * 128 + 1 * (i 1).val = (i 1).val; rw [e1]; omega

theorem BlockRead.idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3 of call 0 takes its whole array at every point: its block read at an index is the array there. -/
theorem iblk0_3 (c : Dev nD) (t : Fin cfg0.N) (i : S1x128.Idx) :
    iblk0 V c 3 t i = (V c main_v0 : (⟨S1x128, .f32⟩ : BufTy).Contents (Elt F)) i := by
  obtain ⟨e0, e1⟩ := BlockRead.idx0_3 t
  unfold iblk0
  rw [View.read_apply]
  show (V c main_v0 : (⟨S1x128, .f32⟩ : BufTy).Contents (Elt F)) _ = (V c main_v0 : (⟨S1x128, .f32⟩ : BufTy).Contents (Elt F)) _
  congr 1
  funext a
  apply Fin.ext
  match a with
  | ⟨0, _⟩ => show win0_3.index t (0 : Fin 2) * 1 + 1 * (i 0).val = (i 0).val; rw [e0]; omega
  | ⟨1, _⟩ => show win0_3.index t (1 : Fin 2) * 128 + 1 * (i 1).val = (i 1).val; rw [e1]; omega

theorem BlockRead.idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4 of call 0 takes its whole array at every point: its block read at an index is the array there. -/
theorem iblk0_4 (c : Dev nD) (t : Fin cfg0.N) (i : S128x128.Idx) :
    iblk0 V c 4 t i = (V c main_v4 : (⟨S128x128, .bf16⟩ : BufTy).Contents (Elt F)) i := by
  obtain ⟨e0, e1⟩ := BlockRead.idx0_4 t
  unfold iblk0
  rw [View.read_apply]
  show (V c main_v4 : (⟨S128x128, .bf16⟩ : BufTy).Contents (Elt F)) _ = (V c main_v4 : (⟨S128x128, .bf16⟩ : BufTy).Contents (Elt F)) _
  congr 1
  funext a
  apply Fin.ext
  match a with
  | ⟨0, _⟩ => show win0_4.index t (0 : Fin 2) * 128 + 1 * (i 0).val = (i 0).val; rw [e0]; omega
  | ⟨1, _⟩ => show win0_4.index t (1 : Fin 2) * 128 + 1 * (i 1).val = (i 1).val; rw [e1]; omega

theorem BlockRead.idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5 of call 0 takes its whole array at every point: its block read at an index is the array there. -/
theorem iblk0_5 (c : Dev nD) (t : Fin cfg0.N) (i : S1x128.Idx) :
    iblk0 V c 5 t i = (V c main_v1 : (⟨S1x128, .f32⟩ : BufTy).Contents (Elt F)) i := by
  obtain ⟨e0, e1⟩ := BlockRead.idx0_5 t
  unfold iblk0
  rw [View.read_apply]
  show (V c main_v1 : (⟨S1x128, .f32⟩ : BufTy).Contents (Elt F)) _ = (V c main_v1 : (⟨S1x128, .f32⟩ : BufTy).Contents (Elt F)) _
  congr 1
  funext a
  apply Fin.ext
  match a with
  | ⟨0, _⟩ => show win0_5.index t (0 : Fin 2) * 1 + 1 * (i 0).val = (i 0).val; rw [e0]; omega
  | ⟨1, _⟩ => show win0_5.index t (1 : Fin 2) * 128 + 1 * (i 1).val = (i 1).val; rw [e1]; omega

/-- The second call's adjacency window: block index `t mod 10` on the rows (both passes walk the same ten row blocks), zero
    on the columns. -/
theorem BlockRead.idx1_0 : ∀ t : Fin cfg1.N, win1_0.index t (0 : Fin 2) = t.val % 10 ∧ win1_0.index t (1 : Fin 2) = 0 :=
  (by decide +kernel : ∀ t : Fin grid1.N, win1_0.index t (0 : Fin 2) = t.val % 10 ∧ win1_0.index t (1 : Fin 2) = 0)

/-- Row `p` of the second call's adjacency block at point `t` is row `1000·(t mod 10) + p` of the adjacency. -/
theorem iblk1_0 (c : Dev nD) (t : Fin cfg1.N) (p : Fin 1000) (k : Fin 10000) :
    iblk1 V c 0 t (ix2 p k) = (V c main_v6_1 : (⟨S10000x10000, .bf16⟩ : BufTy).Contents (Elt F)) (ix2 (⟨1000 * (t.val % 10) + p.val, by have := Nat.mod_lt t.val (show 10 > 0 by decide); omega⟩ : Fin 10000) k) := by
  obtain ⟨e0, e1⟩ := BlockRead.idx1_0 t
  unfold iblk1
  rw [View.read_apply]
  show (V c main_v6_1 : (⟨S10000x10000, .bf16⟩ : BufTy).Contents (Elt F)) _ = (V c main_v6_1 : (⟨S10000x10000, .bf16⟩ : BufTy).Contents (Elt F)) _
  congr 1
  funext a
  apply Fin.ext
  match a with
  | ⟨0, _⟩ => show win1_0.index t (0 : Fin 2) * 1000 + 1 * p.val = 1000 * (t.val % 10) + p.val; rw [e0]; omega
  | ⟨1, _⟩ => show win1_0.index t (1 : Fin 2) * 10000 + 1 * k.val = k.val; rw [e1]; omega

theorem BlockRead.idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- Window 1 of call 1 takes its whole array at every point: its block read at an index is the array there. -/
theorem iblk1_1 (c : Dev nD) (t : Fin cfg1.N) (i : S10000x128.Idx) :
    iblk1 V c 1 t i = (V c main_v6_0 : (⟨S10000x128, .bf16⟩ : BufTy).Contents (Elt F)) i := by
  obtain ⟨e0, e1⟩ := BlockRead.idx1_1 t
  unfold iblk1
  rw [View.read_apply]
  show (V c main_v6_0 : (⟨S10000x128, .bf16⟩ : BufTy).Contents (Elt F)) _ = (V c main_v6_0 : (⟨S10000x128, .bf16⟩ : BufTy).Contents (Elt F)) _
  congr 1
  funext a
  apply Fin.ext
  match a with
  | ⟨0, _⟩ => show win1_1.index t (0 : Fin 2) * 10000 + 1 * (i 0).val = (i 0).val; rw [e0]; omega
  | ⟨1, _⟩ => show win1_1.index t (1 : Fin 2) * 128 + 1 * (i 1).val = (i 1).val; rw [e1]; omega

theorem BlockRead.idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- Window 2 of call 1 takes its whole array at every point: its block read at an index is the array there. -/
theorem iblk1_2 (c : Dev nD) (t : Fin cfg1.N) (i : S128x128.Idx) :
    iblk1 V c 2 t i = (V c main_v5 : (⟨S128x128, .bf16⟩ : BufTy).Contents (Elt F)) i := by
  obtain ⟨e0, e1⟩ := BlockRead.idx1_2 t
  unfold iblk1
  rw [View.read_apply]
  show (V c main_v5 : (⟨S128x128, .bf16⟩ : BufTy).Contents (Elt F)) _ = (V c main_v5 : (⟨S128x128, .bf16⟩ : BufTy).Contents (Elt F)) _
  congr 1
  funext a
  apply Fin.ext
  match a with
  | ⟨0, _⟩ => show win1_2.index t (0 : Fin 2) * 128 + 1 * (i 0).val = (i 0).val; rw [e0]; omega
  | ⟨1, _⟩ => show win1_2.index t (1 : Fin 2) * 128 + 1 * (i 1).val = (i 1).val; rw [e1]; omega

theorem BlockRead.idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- Window 3 of call 1 takes its whole array at every point: its block read at an index is the array there. -/
theorem iblk1_3 (c : Dev nD) (t : Fin cfg1.N) (i : S1x128.Idx) :
    iblk1 V c 3 t i = (V c main_v2 : (⟨S1x128, .f32⟩ : BufTy).Contents (Elt F)) i := by
  obtain ⟨e0, e1⟩ := BlockRead.idx1_3 t
  unfold iblk1
  rw [View.read_apply]
  show (V c main_v2 : (⟨S1x128, .f32⟩ : BufTy).Contents (Elt F)) _ = (V c main_v2 : (⟨S1x128, .f32⟩ : BufTy).Contents (Elt F)) _
  congr 1
  funext a
  apply Fin.ext
  match a with
  | ⟨0, _⟩ => show win1_3.index t (0 : Fin 2) * 1 + 1 * (i 0).val = (i 0).val; rw [e0]; omega
  | ⟨1, _⟩ => show win1_3.index t (1 : Fin 2) * 128 + 1 * (i 1).val = (i 1).val; rw [e1]; omega

end

end Cert.KernelIdeal.Hand

end
-- ==== Proof.Payloads.lean ====
import proofs.«104058_g24721831756232_cont_sun_m_69_41_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! # Each kernel payload read at an index, at the ideal values

At the ideal values a float is an extended real, every arithmetic operation is the exact one and a change of float
format is the identity. So each payload, read at a row `p` and a column `q`, is a plain expression in sums and
products of extended reals: a matrix product into a zero accumulator is the sum of the products over the contracted
axis, a cast to the same shape changes nothing, a `[1,128]` row broadcast over the rows reads its one row, and a
maximum with the zero splat is `max _ 0`. -/

/-- A `[M,K] × [K,N]` matrix product with the plain dimension numbers (left contracted on its columns, right on its
    rows, no batch axis) into a zero accumulator reads, at `(p, q)`, the sum over `k` of `l (p, k) * r (k, q)`:
    the contraction index is its one coordinate, and the operand indices at `(p, q)` and `k` are `(p, k)` and
    `(k, q)`. -/
theorem matmul_plain_zero {M K N : Nat} {φ₁ φ₂ : FTy}
    (l : FVec Ideal ⟨2, ![M, K]⟩ φ₁) (r : FVec Ideal ⟨2, ![K, N]⟩ φ₂) (p : Fin M) (q : Fin N) :
    matmul (F := Ideal) (DotDims.plain M K N) none l r (constant (F := Ideal) ⟨2, ![M, N]⟩ .f32 0x00000000#32) (ix2 p q)
      = ∑ k : Fin K, l (ix2 p k) * r (ix2 k q) := by
  refine (Ideal.matmul_constant_zero_apply (DotDims.plain M K N) none l r (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-! ## The five products of the two kernels: each record is the plain one at its sizes -/

/-- `[10000,128] × [128,128]` into zero. -/
theorem mm_10000x128_128x128 {φ₁ φ₂ : FTy} (l : FVec Ideal S10000x128 φ₁) (r : FVec Ideal S128x128 φ₂)
    (p : Fin 10000) (q : Fin 128) :
    matmul (F := Ideal) dot_S10000x128_S128x128_S10000x128_1_0_0_1_n_n none l r
        (constant (F := Ideal) S10000x128 .f32 0x00000000#32) (ix2 p q)
      = ∑ k : Fin 128, l (ix2 p k) * r (ix2 k q) :=
  matmul_plain_zero l r p q

/-- `[400,10000] × [10000,128]` into zero. -/
theorem mm_400x10000_10000x128 {φ₁ φ₂ : FTy} (l : FVec Ideal S400x10000 φ₁) (r : FVec Ideal S10000x128 φ₂)
    (p : Fin 400) (q : Fin 128) :
    matmul (F := Ideal) dot_S400x10000_S10000x128_S400x128_1_0_0_1_n_n none l r
        (constant (F := Ideal) S400x128 .f32 0x00000000#32) (ix2 p q)
      = ∑ j : Fin 10000, l (ix2 p j) * r (ix2 j q) :=
  matmul_plain_zero l r p q

/-- `[400,128] × [128,128]` into zero. -/
theorem mm_400x128_128x128 {φ₁ φ₂ : FTy} (l : FVec Ideal S400x128 φ₁) (r : FVec Ideal S128x128 φ₂)
    (p : Fin 400) (q : Fin 128) :
    matmul (F := Ideal) dot_S400x128_S128x128_S400x128_1_0_0_1_n_n none l r
        (constant (F := Ideal) S400x128 .f32 0x00000000#32) (ix2 p q)
      = ∑ k : Fin 128, l (ix2 p k) * r (ix2 k q) :=
  matmul_plain_zero l r p q

/-- `[1000,10000] × [10000,128]` into zero. -/
theorem mm_1000x10000_10000x128 {φ₁ φ₂ : FTy} (l : FVec Ideal S1000x10000 φ₁) (r : FVec Ideal S10000x128 φ₂)
    (p : Fin 1000) (q : Fin 128) :
    matmul (F := Ideal) dot_S1000x10000_S10000x128_S1000x128_1_0_0_1_n_n none l r
        (constant (F := Ideal) S1000x128 .f32 0x00000000#32) (ix2 p q)
      = ∑ j : Fin 10000, l (ix2 p j) * r (ix2 j q) :=
  matmul_plain_zero l r p q

/-- `[1000,128] × [128,128]` into zero. -/
theorem mm_1000x128_128x128 {φ₁ φ₂ : FTy} (l : FVec Ideal S1000x128 φ₁) (r : FVec Ideal S128x128 φ₂)
    (p : Fin 1000) (q : Fin 128) :
    matmul (F := Ideal) dot_S1000x128_S128x128_S1000x128_1_0_0_1_n_n none l r
        (constant (F := Ideal) S1000x128 .f32 0x00000000#32) (ix2 p q)
      = ∑ k : Fin 128, l (ix2 p k) * r (ix2 k q) :=
  matmul_plain_zero l r p q

/-- The scalar zero the kernels take the maximum with is the extended real `0`. -/
theorem scalar_zero : (Scalar.ofBits (F := Ideal) .f32 0x00000000#32 : Ideal .f32) = (0 : EReal) :=
  Ideal.ofBits_zero_f32

/-! ## The first kernel -/

/-- The first kernel's first payload: the feature rows times the first weight matrix, plus the bias row. -/
theorem pay0_1 (x : FVec Ideal S10000x128 .f32) (w : FVec Ideal S128x128 .bf16) (b : FVec Ideal S1x128 .f32)
    (p : Fin 10000) (q : Fin 128) :
    k0_pay1 (F := Ideal) x w b (ix2 p q) = (∑ k : Fin 128, x (ix2 p k) * w (ix2 k q)) + b (ix2 (0 : Fin 1) q) := by
  unfold k0_pay1
  simp only [shapeCast_self]
  exact congrArg₂ (· + ·) (mm_10000x128_128x128 _ w p q) (broadcastTo_1b_ab_apply b _ p q)

/-- The first kernel's second payload: the adjacency block, unchanged by the change of format. -/
theorem pay0_2 (a : FVec Ideal S400x10000 .f32) (i : S400x10000.Idx) : k0_pay2 (F := Ideal) a i = a i := rfl

/-- The first kernel's third payload: the adjacency block times the stored features, rectified, times the second
    weight matrix, plus the bias row. -/
theorem pay0_3 (a : FVec Ideal S400x10000 .f32) (s : FVec Ideal S10000x128 .bf16) (w : FVec Ideal S128x128 .bf16)
    (b : FVec Ideal S1x128 .f32) (p : Fin 400) (q : Fin 128) :
    k0_pay3 (F := Ideal) a s w b (ix2 p q)
      = (∑ k : Fin 128, max (∑ j : Fin 10000, a (ix2 p j) * s (ix2 j k)) 0 * w (ix2 k q)) + b (ix2 (0 : Fin 1) q) := by
  unfold k0_pay3
  simp only [shapeCast_self]
  refine congrArg₂ (· + ·) ((mm_400x128_128x128 _ w p q).trans ?_) (broadcastTo_1b_ab_apply b _ p q)
  refine Finset.sum_congr rfl fun k _ => congrArg (· * w (ix2 k q)) ?_
  exact congrArg₂ max (mm_400x10000_10000x128 (k0_pay2 (F := Ideal) a) s p k) scalar_zero

/-! ## The second kernel -/

/-- The second kernel's first payload: the adjacency rows times the hidden features, rectified, times the weight
    matrix, plus the bias row. -/
theorem pay1_1 (a : FVec Ideal S1000x10000 .bf16) (h : FVec Ideal S10000x128 .bf16) (w : FVec Ideal S128x128 .bf16)
    (b : FVec Ideal S1x128 .f32) (p : Fin 1000) (q : Fin 128) :
    k1_pay1 (F := Ideal) a h w b (ix2 p q)
      = (∑ k : Fin 128, max (∑ j : Fin 10000, a (ix2 p j) * h (ix2 j k)) 0 * w (ix2 k q)) + b (ix2 (0 : Fin 1) q) := by
  unfold k1_pay1
  simp only [shapeCast_self]
  refine congrArg₂ (· + ·) ((mm_1000x128_128x128 _ w p q).trans ?_) (broadcastTo_1b_ab_apply b _ p q)
  refine Finset.sum_congr rfl fun k _ => congrArg (· * w (ix2 k q)) ?_
  exact congrArg₂ max (mm_1000x10000_10000x128 a h p k) scalar_zero

/-- The second kernel's second payload: the adjacency rows times the stored features. -/
theorem pay1_2 (a : FVec Ideal S1000x10000 .bf16) (s : FVec Ideal S10000x128 .bf16) (p : Fin 1000) (q : Fin 128) :
    k1_pay2 (F := Ideal) a s (ix2 p q) = ∑ j : Fin 10000, a (ix2 p j) * s (ix2 j q) := by
  unfold k1_pay2
  simp only [shapeCast_self]
  exact mm_1000x10000_10000x128 a s p q

/-! ## The host operations in front of the kernels -/

/-- A weight matrix converted to the narrower format is the same matrix. -/
theorem convert_id (W : (⟨S128x128, .f32⟩ : BufTy).Contents (Elt Ideal)) (i : S128x128.Idx) :
    (truncf (F := Ideal) .bf16 W bitsLt_bf16_f32 : (⟨S128x128, .bf16⟩ : BufTy).Contents (Elt Ideal)) i = W i := rfl

/-- A bias vector reshaped to one row reads, at `(0, q)`, the vector at `q`. -/
theorem reshape_row (b : (⟨S128, .f32⟩ : BufTy).Contents (Elt Ideal)) (q : Fin 128) :
    (shapeCast S1x128 b shapeCasts_S128_S1x128 : (⟨S1x128, .f32⟩ : BufTy).Contents (Elt Ideal)) (ix2 (0 : Fin 1) q)
      = b (ix1 q) :=
  shapeCast_a_1a_apply b shapeCasts_S128_S1x128 (0 : Fin 1) q

end Cert.KernelIdeal.Pay

end
-- ==== Proof.Spec.lean ====
import Idealize.ShloMosaic.Lib.ValueIdx
import Idealize.ShloMosaic.PureOps.Ideal.Laws

/-! # Three stacked dense graph-convolution layers, as one function of the inputs

`out = A · (relu (A · (relu (A · (x·W1 + b1))·W2 + b2))·W3 + b3)` on the extended reals, entry by entry: every
matrix product a sum over the literal index set of the contracted axis, every bias added after its product, and
`relu h = max h 0`. Both programs compute exactly this arrangement; no law of the extended reals beyond the
definitions is needed to compare them. -/

noncomputable section

namespace Cert.GcnSpec

open Idealize.ShloMosaic Idealize.ShloMosaic.ValueIdx

/-- A matrix, and a vector, of extended reals over literal index sets. -/
abbrev Mat (a b : Nat) : Type := (⟨2, ![a, b]⟩ : Shape).Idx → EReal
abbrev Vc (a : Nat) : Type := (⟨1, ![a]⟩ : Shape).Idx → EReal

/-- One dense layer applied to a row: `(h·W)[p,q] + b[q]`. -/
def dense (h : Fin 10000 → Fin 128 → EReal) (W : Mat 128 128) (b : Vc 128) (p : Fin 10000) (q : Fin 128) : EReal :=
  (∑ k : Fin 128, h p k * W (ix2 k q)) + b (ix1 q)

/-- Aggregation over the graph: `(A·P)[p,q]`. -/
def agg (A : Mat 10000 10000) (P : Fin 10000 → Fin 128 → EReal) (p : Fin 10000) (q : Fin 128) : EReal :=
  ∑ k : Fin 10000, A (ix2 p k) * P k q

/-- `relu`, entry by entry. -/
def relu (h : Fin 10000 → Fin 128 → EReal) (p : Fin 10000) (q : Fin 128) : EReal := max (h p q) 0

/-- The first layer's dense part, `x·W1 + b1`. -/
def P1 (x : Mat 10000 128) (W1 : Mat 128 128) (b1 : Vc 128) : Fin 10000 → Fin 128 → EReal :=
  dense (fun p k => x (ix2 p k)) W1 b1
/-- The second layer's dense part, `relu (A·P1)·W2 + b2`. -/
def P2 (x : Mat 10000 128) (A : Mat 10000 10000) (W1 : Mat 128 128) (b1 : Vc 128) (W2 : Mat 128 128) (b2 : Vc 128) :
    Fin 10000 → Fin 128 → EReal :=
  dense (relu (agg A (P1 x W1 b1))) W2 b2
/-- The third layer's dense part, `relu (A·P2)·W3 + b3`. -/
def P3 (x : Mat 10000 128) (A : Mat 10000 10000) (W1 : Mat 128 128) (b1 : Vc 128) (W2 : Mat 128 128) (b2 : Vc 128)
    (W3 : Mat 128 128) (b3 : Vc 128) : Fin 10000 → Fin 128 → EReal :=
  dense (relu (agg A (P2 x A W1 b1 W2 b2))) W3 b3

/-- The network's output as one array: `A·P3`, read at an index by its two coordinates. -/
def G (x : Mat 10000 128) (A : Mat 10000 10000) (W1 : Mat 128 128) (b1 : Vc 128) (W2 : Mat 128 128) (b2 : Vc 128)
    (W3 : Mat 128 128) (b3 : Vc 128) : Mat 10000 128 :=
  fun i => agg A (P3 x A W1 b1 W2 b2 W3 b3) (i 0) (i 1)

end Cert.GcnSpec

end
-- ==== Proof.Bridge.lean ====
import proofs.«104058_g24721831756232_cont_sun_m_69_41_alg».proof.Proof.OutRead
import proofs.«104058_g24721831756232_cont_sun_m_69_41_alg».proof.Proof.R0Value
import proofs.«104058_g24721831756232_cont_sun_m_69_41_alg».proof.Proof.R1Value
import proofs.«104058_g24721831756232_cont_sun_m_69_41_alg».proof.Proof.BlockRead
import proofs.«104058_g24721831756232_cont_sun_m_69_41_alg».proof.Proof.Payloads
import proofs.«104058_g24721831756232_cont_sun_m_69_41_alg».proof.Proof.Spec
import Idealize.ShloMosaic.Lib.StableHlo.Run

set_option maxRecDepth 16384

/-! # The kernel program's result, on the extended reals, is the specification

Stage by stage, every buffer the two calls fill is read at an index and found to hold the specification's entry:
the first call's scratch is the first layer's dense part `P1`; its first result array is the second layer's dense
part `P2` (row `i` is computed by the point `i / 400` from rows `400·(i/400) …` of the adjacency, that is from
row `i`); its second result array is the adjacency itself; the second call's scratch is the third layer's dense part
`P3`; and row `r` of the result is `∑ j, A[r,j] · P3[j,·]`. No law of the extended reals is used: both sides
are the same arrangement of sums, maxima and products. -/

noncomputable section

namespace Cert.KernelIdeal.Bridge

open Idealize.ShloMosaic Idealize.ShloMosaic.TcCoe Idealize.SL.Sem
open Idealize.ShloMosaic.ValueIdx
open Cert.KernelIdeal Cert.KernelIdeal.Gen Cert.KernelIdeal.Hand Cert.KernelIdeal.Pay Cert.GcnSpec

variable (m : (ℓ : Loc nD τ sig) → Buf (Elt Ideal) ℓ) (ρ : Dev nD → PrngReg) (c : Dev nD)

/-- The eight arguments as launched. -/
abbrev aX : Mat 10000 128 := m ((c.tc : Thread nD τ).loc main_arg0)
abbrev aA : Mat 10000 10000 := m ((c.tc : Thread nD τ).loc main_arg1)
abbrev aW1 : Mat 128 128 := m ((c.tc : Thread nD τ).loc main_arg2)
abbrev aB1 : Vc 128 := m ((c.tc : Thread nD τ).loc main_arg3)
abbrev aW2 : Mat 128 128 := m ((c.tc : Thread nD τ).loc main_arg4)
abbrev aB2 : Vc 128 := m ((c.tc : Thread nD τ).loc main_arg5)
abbrev aW3 : Mat 128 128 := m ((c.tc : Thread nD τ).loc main_arg6)
abbrev aB3 : Vc 128 := m ((c.tc : Thread nD τ).loc main_arg7)

/-! ## What the host operations leave -/

theorem E1_v0 : (E1 m ρ c main_v0 : (⟨S1x128, .f32⟩ : BufTy).Contents (Elt Ideal))
    = shapeCast S1x128 (m ((c.tc : Thread nD τ).loc main_arg3)) shapeCasts_S128_S1x128 := by
  dsimp only [E1, W1, W0, hostOps0]; after_results <;> rfl
theorem E1_v1 : (E1 m ρ c main_v1 : (⟨S1x128, .f32⟩ : BufTy).Contents (Elt Ideal))
    = shapeCast S1x128 (m ((c.tc : Thread nD τ).loc main_arg5)) shapeCasts_S128_S1x128 := by
  dsimp only [E1, W1, W0, hostOps0]; after_results <;> rfl
theorem E1_v2 : (E1 m ρ c main_v2 : (⟨S1x128, .f32⟩ : BufTy).Contents (Elt Ideal))
    = shapeCast S1x128 (m ((c.tc : Thread nD τ).loc main_arg7)) shapeCasts_S128_S1x128 := by
  dsimp only [E1, W1, W0, hostOps0]; after_results <;> rfl
theorem E1_v3 : (E1 m ρ c main_v3 : (⟨S128x128, .bf16⟩ : BufTy).Contents (Elt Ideal))
    = truncf (F := Ideal) .bf16 (m ((c.tc : Thread nD τ).loc main_arg2)) bitsLt_bf16_f32 := by
  dsimp only [E1, W1, W0, hostOps0]; after_results <;> rfl
theorem E1_v4 : (E1 m ρ c main_v4 : (⟨S128x128, .bf16⟩ : BufTy).Contents (Elt Ideal))
    = truncf (F := Ideal) .bf16 (m ((c.tc : Thread nD τ).loc main_arg4)) bitsLt_bf16_f32 := by
  dsimp only [E1, W1, W0, hostOps0]; after_results <;> rfl
theorem E1_v5 : (E1 m ρ c main_v5 : (⟨S128x128, .bf16⟩ : BufTy).Contents (Elt Ideal))
    = truncf (F := Ideal) .bf16 (m ((c.tc : Thread nD τ).loc main_arg6)) bitsLt_bf16_f32 := by
  dsimp only [E1, W1, W0, hostOps0]; after_results <;> rfl

/-- The rounded weights and the one-row biases, read at an index, are the arguments' entries. -/
theorem w1_at (a b : Fin 128) : (E1 m ρ c main_v3 : (⟨S128x128, .bf16⟩ : BufTy).Contents (Elt Ideal)) (ix2 a b) = aW1 m c (ix2 a b) := by
  exact (congrFun (E1_v3 m ρ c) _).trans (convert_id _ _)
theorem w2_at (a b : Fin 128) : (E1 m ρ c main_v4 : (⟨S128x128, .bf16⟩ : BufTy).Contents (Elt Ideal)) (ix2 a b) = aW2 m c (ix2 a b) := by
  exact (congrFun (E1_v4 m ρ c) _).trans (convert_id _ _)
theorem w3_at (a b : Fin 128) : (E1 m ρ c main_v5 : (⟨S128x128, .bf16⟩ : BufTy).Contents (Elt Ideal)) (ix2 a b) = aW3 m c (ix2 a b) := by
  exact (congrFun (E1_v5 m ρ c) _).trans (convert_id _ _)
theorem b1_at (q : Fin 128) : (E1 m ρ c main_v0 : (⟨S1x128, .f32⟩ : BufTy).Contents (Elt Ideal)) (ix2 (0 : Fin 1) q) = aB1 m c (ix1 q) := by
  exact (congrFun (E1_v0 m ρ c) _).trans (reshape_row _ q)
theorem b2_at (q : Fin 128) : (E1 m ρ c main_v1 : (⟨S1x128, .f32⟩ : BufTy).Contents (Elt Ideal)) (ix2 (0 : Fin 1) q) = aB2 m c (ix1 q) := by
  exact (congrFun (E1_v1 m ρ c) _).trans (reshape_row _ q)
theorem b3_at (q : Fin 128) : (E1 m ρ c main_v2 : (⟨S1x128, .f32⟩ : BufTy).Contents (Elt Ideal)) (ix2 (0 : Fin 1) q) = aB3 m c (ix1 q) := by
  exact (congrFun (E1_v2 m ρ c) _).trans (reshape_row _ q)
theorem x_at (i : S10000x128.Idx) : (E1 m ρ c main_arg0 : (⟨S10000x128, .f32⟩ : BufTy).Contents (Elt Ideal)) i = aX m c i :=
  congrFun (E1_of m ρ c main_arg0 (by decide)) i
theorem a_at (i : S10000x10000.Idx) : (E1 m ρ c main_arg1 : (⟨S10000x10000, .f32⟩ : BufTy).Contents (Elt Ideal)) i = aA m c i :=
  congrFun (E1_of m ρ c main_arg1 (by decide)) i

/-! ## The first call -/

/-- The scratch is the first layer's dense part. -/
theorem sc0_val (j : Fin 10000) (k : Fin 128) :
    sc0 (E1 m ρ) c (ix2 j k) = P1 (aX m c) (aW1 m c) (aB1 m c) j k := by
  rw [sc0_eq]
  refine (pay0_1 _ _ _ j k).trans ?_
  unfold P1 dense
  rw [iblk0_3, b1_at]
  refine congrArg (· + _) (Finset.sum_congr rfl fun k' _ => ?_)
  rw [iblk0_0, iblk0_2, x_at, w1_at]

/-- A row of the adjacency, through the block that holds it. -/
theorem a_row (t : Fin cfg0.N) (p : Fin 400) (i : Fin 10000) (hi : i.val = 400 * t.val + p.val) (j : Fin 10000) :
    iblk0 (E1 m ρ) c 1 t (ix2 p j) = aA m c (ix2 i j) := by
  rw [iblk0_1, a_at]
  exact congrArg (fun r => aA m c (ix2 r j)) (Fin.ext hi.symm)

/-- The point that computes row `i`, and the row's place in its block. -/
abbrev pt0 (i : Fin 10000) : Fin cfg0.N := ⟨i.val / 400, by have h : cfg0.N = 25 := N_0; have := i.isLt; omega⟩
abbrev rw0 (i : Fin 10000) : Fin 400 := ⟨i.val % 400, Nat.mod_lt _ (by decide)⟩

/-- The first result array is the second layer's dense part. -/
theorem h2_val (i : Fin 10000) (k : Fin 128) :
    (E2 m ρ c main_v6_0 : (⟨S10000x128, .bf16⟩ : BufTy).Contents (Elt Ideal)) (ix2 i k)
      = P2 (aX m c) (aA m c) (aW1 m c) (aB1 m c) (aW2 m c) (aB2 m c) i k := by
  have e : (E2 m ρ c main_v6_0 : (⟨S10000x128, .bf16⟩ : BufTy).Contents (Elt Ideal)) (ix2 i k)
      = (cfg0.win 6).arr.view.read (Elt Ideal) ((dat0 (E1 m ρ) c).arrAt 6 cfg0.N) (ix2 i k) := by
    rw [← W2_arr m ρ c 6]; rfl
  rw [e, arr0_6_read, outs0_eq]
  refine (pay0_3 _ _ _ _ (rw0 i) k).trans ?_
  unfold P2 dense relu agg
  rw [iblk0_5, b2_at]
  refine congrArg (· + _) (Finset.sum_congr rfl fun k' _ => ?_)
  rw [iblk0_4, w2_at]
  refine congrArg (fun z => max z 0 * _) (Finset.sum_congr rfl fun j _ => ?_)
  rw [a_row m ρ c (pt0 i) (rw0 i) i (by show i.val = 400 * (i.val / 400) + i.val % 400; omega) j, sc0_val]

/-- The second result array is the adjacency. -/
theorem abf_val (r : Fin 10000) (j : Fin 10000) :
    (E2 m ρ c main_v6_1 : (⟨S10000x10000, .bf16⟩ : BufTy).Contents (Elt Ideal)) (ix2 r j) = aA m c (ix2 r j) := by
  have e : (E2 m ρ c main_v6_1 : (⟨S10000x10000, .bf16⟩ : BufTy).Contents (Elt Ideal)) (ix2 r j)
      = (cfg0.win 7).arr.view.read (Elt Ideal) ((dat0 (E1 m ρ) c).arrAt 7 cfg0.N) (ix2 r j) := by
    rw [← W2_arr m ρ c 7]; rfl
  rw [e, arr0_7_read, outs0_eq]
  refine (pay0_2 _ _).trans ?_
  exact a_row m ρ c (pt0 r) (rw0 r) r (by show r.val = 400 * (r.val / 400) + r.val % 400; omega) j

/-! ## The second call -/

/-- A row of the adjacency's copy, through the block of the second call that holds it. -/
theorem abf_row (t : Fin cfg1.N) (p : Fin 1000) (r : Fin 10000) (hr : r.val = 1000 * (t.val % 10) + p.val) (j : Fin 10000) :
    iblk1 (E2 m ρ) c 0 t (ix2 p j) = aA m c (ix2 r j) := by
  rw [iblk1_0]
  refine Eq.trans (congrArg (fun r' => (E2 m ρ c main_v6_1 : (⟨S10000x10000, .bf16⟩ : BufTy).Contents (Elt Ideal)) (ix2 r' j)) (Fin.ext hr.symm)) ?_
  exact abf_val m ρ c r j

theorem w3_at2 (a b : Fin 128) : (E2 m ρ c main_v5 : (⟨S128x128, .bf16⟩ : BufTy).Contents (Elt Ideal)) (ix2 a b) = aW3 m c (ix2 a b) := by
  rw [E2_of_ne m ρ c main_v5 (by decide)]; exact w3_at m ρ c a b
theorem b3_at2 (q : Fin 128) : (E2 m ρ c main_v2 : (⟨S1x128, .f32⟩ : BufTy).Contents (Elt Ideal)) (ix2 (0 : Fin 1) q) = aB3 m c (ix1 q) := by
  rw [E2_of_ne m ρ c main_v2 (by decide)]; exact b3_at m ρ c q

/-- The finished scratch is the third layer's dense part. -/
theorem h3_val (j : Fin 10000) (q : Fin 128) :
    H3all (E2 m ρ) c (ix2 j q) = P3 (aX m c) (aA m c) (aW1 m c) (aB1 m c) (aW2 m c) (aB2 m c) (aW3 m c) (aB3 m c) j q := by
  have hN : cfg1.N = 20 := N_1
  have hj : j.val < 10000 := j.isLt
  show blk3 (E2 m ρ) c (⟨j.val / 1000, by omega⟩ : Fin cfg1.N) (ix2 (⟨j.val % 1000, Nat.mod_lt _ (by decide)⟩ : Fin 1000) q) = _
  unfold blk3
  refine (pay1_1 _ _ _ _ (⟨j.val % 1000, Nat.mod_lt _ (by decide)⟩ : Fin 1000) q).trans ?_
  unfold P3 dense relu agg
  rw [iblk1_3, b3_at2]
  refine congrArg (· + _) (Finset.sum_congr rfl fun k _ => ?_)
  rw [iblk1_2, w3_at2]
  refine congrArg (fun z => max z 0 * _) (Finset.sum_congr rfl fun i _ => ?_)
  rw [abf_row m ρ c (⟨j.val / 1000, by omega⟩ : Fin cfg1.N) (⟨j.val % 1000, Nat.mod_lt _ (by decide)⟩ : Fin 1000) j
    (by show j.val = 1000 * ((j.val / 1000) % 10) + j.val % 1000; omega) i, iblk1_1, h2_val]

/-- The result array, read at an index, is the specification. -/
theorem out_val (s : MemSt nD τ sig (Elt Ideal)) (h : QYc m ρ c s) (r : Fin 10000) (q : Fin 128) :
    (cfg1.win 4).arr.view.read (Elt Ideal) (s.mem ((cfg1.win 4).arr.view.loc (c.tc : Thread nD τ))) (ix2 r q)
      = G (aX m c) (aA m c) (aW1 m c) (aB1 m c) (aW2 m c) (aB2 m c) (aW3 m c) (aB3 m c) (ix2 r q) := by
  have hN : cfg1.N = 20 := N_1
  have hr : r.val < 10000 := r.isLt
  rw [out_read m ρ c s h r q, out1_B_eq]
  refine (pay1_2 _ _ (⟨r.val % 1000, Nat.mod_lt _ (by decide)⟩ : Fin 1000) q).trans ?_
  show _ = agg (aA m c) (P3 (aX m c) (aA m c) (aW1 m c) (aB1 m c) (aW2 m c) (aB2 m c) (aW3 m c) (aB3 m c)) r q
  unfold agg
  refine Finset.sum_congr rfl fun j _ => ?_
  rw [abf_row m ρ c (⟨10 + r.val / 1000, by omega⟩ : Fin cfg1.N) (⟨r.val % 1000, Nat.mod_lt _ (by decide)⟩ : Fin 1000) r
    (by show r.val = 1000 * ((10 + r.val / 1000) % 10) + r.val % 1000; omega) j, h3_val]

/-- So the result buffer IS the specification's array. -/
theorem out_eq (s : MemSt nD τ sig (Elt Ideal)) (h : QYc m ρ c s) :
    s.mem ((c.tc : Thread nD τ).loc main_v7)
      = (G (aX m c) (aA m c) (aW1 m c) (aB1 m c) (aW2 m c) (aB2 m c) (aW3 m c) (aB3 m c) : (⟨S10000x128, .f32⟩ : BufTy).Contents (Elt Ideal)) := by
  funext idx
  have hidx : (idx : S10000x128.Idx) = ix2 (idx 0) (idx 1) := eq_ix2 idx
  have e := out_val m ρ c s h (idx 0) (idx 1)
  rw [hidx]
  exact e

end Cert.KernelIdeal.Bridge

end
-- ==== Proof.RefValue.lean ====
import proofs.«104058_g24721831756232_cont_sun_m_69_41_alg».proof.Proof.Gen.ReferenceIdeal.Read
import proofs.«104058_g24721831756232_cont_sun_m_69_41_alg».proof.Proof.Spec

/-! # The reference program's result is the specification

The reference computes, operation by operation, three stacked layers
`out = A · (relu (A · (relu (A · (x·W1 + b1))·W2 + b2))·W3 + b3)`. Each operation's value, read at the index with
coordinates `(p, q)`, is the corresponding stage of the specification: a product is the sum over the contracted
coordinate, a broadcast bias is the bias at the column, and the maximum with the broadcast zero word is `max · 0`. -/

noncomputable section

namespace Cert.ReferenceIdeal.RefValue

open Cert.ReferenceIdeal Cert.ReferenceIdeal.Read Cert.GcnSpec Idealize.ShloMosaic Idealize.ShloMosaic.ValueIdx

/-! ## The index functions of the products and broadcasts, at an index given by its coordinates -/

theorem lidx_v0 (p : Fin 10000) (q k : Fin 128) : lidx_main_v0 (ix2 p q) k = ix2 p k :=
  funext fun a => Fin.ext (by match a with | ⟨0, _⟩ => rfl | ⟨1, _⟩ => rfl)
theorem ridx_v0 (p : Fin 10000) (q k : Fin 128) : ridx_main_v0 (ix2 p q) k = ix2 k q :=
  funext fun a => Fin.ext (by match a with | ⟨0, _⟩ => rfl | ⟨1, _⟩ => rfl)

theorem lidx_v6 (p : Fin 10000) (q k : Fin 128) : lidx_main_v6 (ix2 p q) k = ix2 p k :=
  funext fun a => Fin.ext (by match a with | ⟨0, _⟩ => rfl | ⟨1, _⟩ => rfl)
theorem ridx_v6 (p : Fin 10000) (q k : Fin 128) : ridx_main_v6 (ix2 p q) k = ix2 k q :=
  funext fun a => Fin.ext (by match a with | ⟨0, _⟩ => rfl | ⟨1, _⟩ => rfl)

theorem lidx_v12 (p : Fin 10000) (q k : Fin 128) : lidx_main_v12 (ix2 p q) k = ix2 p k :=
  funext fun a => Fin.ext (by match a with | ⟨0, _⟩ => rfl | ⟨1, _⟩ => rfl)
theorem ridx_v12 (p : Fin 10000) (q k : Fin 128) : ridx_main_v12 (ix2 p q) k = ix2 k q :=
  funext fun a => Fin.ext (by match a with | ⟨0, _⟩ => rfl | ⟨1, _⟩ => rfl)

theorem lidx_v4 (p : Fin 10000) (q : Fin 128) (k : Fin 10000) : lidx_main_v4 (ix2 p q) k = ix2 p k :=
  funext fun a => Fin.ext (by match a with | ⟨0, _⟩ => rfl | ⟨1, _⟩ => rfl)
theorem ridx_v4 (p : Fin 10000) (q : Fin 128) (k : Fin 10000) : ridx_main_v4 (ix2 p q) k = ix2 k q :=
  funext fun a => Fin.ext (by match a with | ⟨0, _⟩ => rfl | ⟨1, _⟩ => rfl)

theorem lidx_v10 (p : Fin 10000) (q : Fin 128) (k : Fin 10000) : lidx_main_v10 (ix2 p q) k = ix2 p k :=
  funext fun a => Fin.ext (by match a with | ⟨0, _⟩ => rfl | ⟨1, _⟩ => rfl)
theorem ridx_v10 (p : Fin 10000) (q : Fin 128) (k : Fin 10000) : ridx_main_v10 (ix2 p q) k = ix2 k q :=
  funext fun a => Fin.ext (by match a with | ⟨0, _⟩ => rfl | ⟨1, _⟩ => rfl)

theorem lidx_v16 (p : Fin 10000) (q : Fin 128) (k : Fin 10000) : lidx_main_v16 (ix2 p q) k = ix2 p k :=
  funext fun a => Fin.ext (by match a with | ⟨0, _⟩ => rfl | ⟨1, _⟩ => rfl)
theorem ridx_v16 (p : Fin 10000) (q : Fin 128) (k : Fin 10000) : ridx_main_v16 (ix2 p q) k = ix2 k q :=
  funext fun a => Fin.ext (by match a with | ⟨0, _⟩ => rfl | ⟨1, _⟩ => rfl)

/-- The bias broadcast along the rows reads the bias at the column. -/
theorem bidx_v2 (p : Fin 10000) (q : Fin 128) : idx_main_v1 (idx_main_v2 (ix2 p q)) = ix1 q :=
  funext fun a => Fin.ext (by match a with | ⟨0, _⟩ => rfl)

/-- The bias broadcast along the rows reads the bias at the column. -/
theorem bidx_v8 (p : Fin 10000) (q : Fin 128) : idx_main_v7 (idx_main_v8 (ix2 p q)) = ix1 q :=
  funext fun a => Fin.ext (by match a with | ⟨0, _⟩ => rfl)

/-- The bias broadcast along the rows reads the bias at the column. -/
theorem bidx_v14 (p : Fin 10000) (q : Fin 128) : idx_main_v13 (idx_main_v14 (ix2 p q)) = ix1 q :=
  funext fun a => Fin.ext (by match a with | ⟨0, _⟩ => rfl)

/-! ## The stages -/

/-- The broadcast zero word is `0`. -/
theorem zero0 (i : S10000x128.Idx) : val_main_call0_v0 (F := Ideal) i = 0 := by
  rw [val_main_call0_v0_apply, val_main_call0_cst_apply, Ideal.ofBits_def, Ideal.ofBits_zero_f32]
theorem zero1 (i : S10000x128.Idx) : val_main_call1_v0 (F := Ideal) i = 0 := by
  rw [val_main_call1_v0_apply, val_main_call1_cst_apply, Ideal.ofBits_def, Ideal.ofBits_zero_f32]

/-- `x·W1 + b1`. -/
theorem v3_eq (x0 : (⟨S10000x128, .f32⟩ : BufTy).Contents (Elt Ideal)) (x2 : (⟨S128x128, .f32⟩ : BufTy).Contents (Elt Ideal)) (x3 : (⟨S128, .f32⟩ : BufTy).Contents (Elt Ideal)) (p : Fin 10000) (q : Fin 128) :
    val_main_v3 (F := Ideal) x0 x2 x3 (ix2 p q) = P1 x0 x2 x3 p q := by
  rw [val_main_v3_apply, val_main_v0_apply, val_main_v2_apply, val_main_v1_apply, Ideal.addf_def, bidx_v2]
  unfold P1 dense
  simp only [lidx_v0, ridx_v0]

/-- `A·(x·W1 + b1)`. -/
theorem v4_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (p : Fin 10000) (q : Fin 128) :
    val_main_v4 (F := Ideal) x0 x1 x2 x3 (ix2 p q) = agg x1 (P1 x0 x2 x3) p q := by
  rw [val_main_v4_apply]
  unfold agg
  refine Finset.sum_congr rfl fun k _ => ?_
  rw [lidx_v4, ridx_v4, v3_eq]

/-- `relu (A·(x·W1 + b1))`. -/
theorem v5_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (p : Fin 10000) (q : Fin 128) :
    val_main_v5 (F := Ideal) x0 x1 x2 x3 (ix2 p q) = relu (agg x1 (P1 x0 x2 x3)) p q := by
  rw [val_main_v5_apply, v4_eq, zero0, Ideal.maximumf_def]
  rfl

/-- The second layer's dense part. -/
theorem v9_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (p : Fin 10000) (q : Fin 128) :
    val_main_v9 (F := Ideal) x0 x1 x2 x3 x4 x5 (ix2 p q) = P2 x0 x1 x2 x3 x4 x5 p q := by
  rw [val_main_v9_apply, val_main_v6_apply, val_main_v8_apply, val_main_v7_apply, Ideal.addf_def, bidx_v8]
  unfold P2 dense
  simp only [lidx_v6, ridx_v6, v5_eq]

theorem v10_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (p : Fin 10000) (q : Fin 128) :
    val_main_v10 (F := Ideal) x0 x1 x2 x3 x4 x5 (ix2 p q) = agg x1 (P2 x0 x1 x2 x3 x4 x5) p q := by
  rw [val_main_v10_apply]
  unfold agg
  refine Finset.sum_congr rfl fun k _ => ?_
  rw [lidx_v10, ridx_v10, v9_eq]

theorem v11_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (p : Fin 10000) (q : Fin 128) :
    val_main_v11 (F := Ideal) x0 x1 x2 x3 x4 x5 (ix2 p q) = relu (agg x1 (P2 x0 x1 x2 x3 x4 x5)) p q := by
  rw [val_main_v11_apply, v10_eq, zero1, Ideal.maximumf_def]
  rfl

/-- The third layer's dense part. -/
theorem v15_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (p : Fin 10000) (q : Fin 128) :
    val_main_v15 (F := Ideal) x0 x1 x2 x3 x4 x5 x6 x7 (ix2 p q) = P3 x0 x1 x2 x3 x4 x5 x6 x7 p q := by
  rw [val_main_v15_apply, val_main_v12_apply, val_main_v14_apply, val_main_v13_apply, Ideal.addf_def, bidx_v14]
  unfold P3 dense
  simp only [lidx_v12, ridx_v12, v11_eq]

/-- The reference program's result is the specification. -/
theorem ref_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    Cert.ReferenceIdeal.Read.val_main_v16 (F := Ideal) x0 x1 x2 x3 x4 x5 x6 x7 = Cert.GcnSpec.G x0 x1 x2 x3 x4 x5 x6 x7 := by
  funext i
  obtain ⟨p, q, rfl⟩ : ∃ (p : Fin 10000) (q : Fin 128), i = ix2 p q := ⟨i 0, i 1, eq_ix2 i⟩
  rw [val_main_v16_apply]
  unfold G agg
  refine Finset.sum_congr rfl fun k _ => ?_
  rw [lidx_v16, ridx_v16, v15_eq]

end Cert.ReferenceIdeal.RefValue

end
-- ==== Proof.lean ====
/- The claim of this certificate: a Pallas program of two pallas_calls that computes three stacked dense
   graph-convolution layers, out = A·(relu (A·(relu (A·(x·W1 + b1))·W2 + b2))·W3 + b3), against the same formula
   written with jnp on the host.

   Both programs, read on the extended reals, compute the same arrangement of sums, maxima and products, so their
   results are equal entry by entry with no law of the extended reals used and the precondition never opened.
   The work is in following the kernel program's data: the first call walks the 25 blocks of 400 rows of the
   adjacency; at its first point it fills a scratch buffer with the first layer's dense part, and at every point it
   writes a block of the second layer's dense part and a block of a copy of the adjacency. The second call walks the
   10 blocks of 1000 rows of that copy twice: the first pass fills a scratch with the third layer's dense part block
   by block (the output buffer is written back untouched, so the result array first receives unknown contents), the
   second pass overwrites every block of the result with its rows of A times the finished scratch.

   The three frames: each program runs to the end, faults nowhere and leaves its arguments as launched — the kernel
   program's (at both instances, from one text) by the run of its two calls, the reference's by its host run. -/
import proofs.«104058_g24721831756232_cont_sun_m_69_41_alg».proof.Defs
import proofs.«104058_g24721831756232_cont_sun_m_69_41_alg».proof.Proof.Gen.Kernel
import proofs.«104058_g24721831756232_cont_sun_m_69_41_alg».proof.Proof.Gen.KernelIdeal
import proofs.«104058_g24721831756232_cont_sun_m_69_41_alg».proof.Proof.Gen.ReferenceIdeal
import proofs.«104058_g24721831756232_cont_sun_m_69_41_alg».proof.Proof.Gen.ReferenceIdeal.Run
import proofs.«104058_g24721831756232_cont_sun_m_69_41_alg».proof.Proof.Gen.ReferenceIdeal.Read
import proofs.«104058_g24721831756232_cont_sun_m_69_41_alg».proof.Proof.Gen.Pre_finite_inputs
import proofs.«104058_g24721831756232_cont_sun_m_69_41_alg».proof.Proof.KFrame
import proofs.«104058_g24721831756232_cont_sun_m_69_41_alg».proof.Proof.Frame
import proofs.«104058_g24721831756232_cont_sun_m_69_41_alg».proof.Proof.Bridge
import proofs.«104058_g24721831756232_cont_sun_m_69_41_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel program's result array ends at the specification of its arguments (the run of
    its two calls, read stage by stage) and the reference's at the same specification of arguments that agree. -/
theorem algebraic : Cert.algebraic_KernelIdeal_ReferenceIdeal := by
  intro m ρ m' ρ' _ hagree
  refine ⟨fun c => Cert.GcnSpec.G (Cert.KernelIdeal.Bridge.aX m c) (Cert.KernelIdeal.Bridge.aA m c) (Cert.KernelIdeal.Bridge.aW1 m c)
    (Cert.KernelIdeal.Bridge.aB1 m c) (Cert.KernelIdeal.Bridge.aW2 m c) (Cert.KernelIdeal.Bridge.aB2 m c) (Cert.KernelIdeal.Bridge.aW3 m c)
    (Cert.KernelIdeal.Bridge.aB3 m c), ?_, ?_⟩
  · exact (θ_run Cert.KernelIdeal.defs _ _).mono
      (fun r h c => ⟨Cert.KernelIdeal.Bridge.out_eq m ρ c r.2 (h c), Cert.KernelIdeal.Hand.kept m ρ c r.2 (h c)⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
